-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x64 : Shape := ⟨4, ![32, 512, 32, 64]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S64x32x512 : Shape := ⟨3, ![64, 32, 512]⟩
abbrev S1x8x64x64 : Shape := ⟨4, ![1, 8, 64, 64]⟩
abbrev S1x8x1x1 : Shape := ⟨4, ![1, 8, 1, 1]⟩
abbrev S1x64x1x512 : Shape := ⟨4, ![1, 64, 1, 512]⟩
abbrev S_ : Shape := ⟨0, ![]⟩

class Facts : Prop where
  bcast_S_S32x512x32x64 : S_.BroadcastsInDim S32x512x32x64 (![] : Fin 0 → Fin S32x512x32x64.rank)
  reducesTo_S32x512x32x64_S_d0_1_2_3 : S32x512x32x64.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S64x32x512 : S_.BroadcastsInDim S64x32x512 (![] : Fin 0 → Fin S64x32x512.rank)
  reducesTo_S64x32x512_S_d0_1_2 : S64x32x512.ReducesTo [0, 1, 2] S_
  bcast_S_S1x8x64x64 : S_.BroadcastsInDim S1x8x64x64 (![] : Fin 0 → Fin S1x8x64x64.rank)
  reducesTo_S1x8x64x64_S_d0_1_2_3 : S1x8x64x64.ReducesTo [0, 1, 2, 3] S_
  bcast_S_S1x8x1x1 : S_.BroadcastsInDim S1x8x1x1 (![] : Fin 0 → Fin S1x8x1x1.rank)
  reducesTo_S1x8x1x1_S_d0_1_2_3 : S1x8x1x1.ReducesTo [0, 1, 2, 3] S_
  bcast_S_S1x64x1x512 : S_.BroadcastsInDim S1x64x1x512 (![] : Fin 0 → Fin S1x64x1x512.rank)
  reducesTo_S1x64x1x512_S_d0_1_2_3 : S1x64x1x512.ReducesTo [0, 1, 2, 3] S_

variable [Facts]

def fn_part5 {F : FTy → Type} [FloatOps F] (main_v83 : IVec S_ 1) (main_v84 : FVec F S1x64x1x512 .f32) (main_cst_32 : FVec F S_ .f32) : IVec S_ 1 :=
  let main_v85 : FVec F S1x64x1x512 .f32 := broadcastInDim S1x64x1x512 ![] bcast_S_S1x64x1x512 main_cst_32
  let main_v86 : IVec S1x64x1x512 1 := cmpf .olt main_v84 main_v85
  let main_c_33 : IVec S_ 1 := constantI S_ 1 1#1
  let main_v87 : IVec S_ 1 := (fun x v => Host.reduce IntOp.andi x v reducesTo_S1x64x1x512_S_d0_1_2_3 h_S_) main_v86 main_c_33
  let main_v88 : IVec S_ 1 := andi main_v83 main_v87
  main_v88

def fn_part4 {F : FTy → Type} [FloatOps F] (main_arg14 : FVec F S64x32x512 .f32) (main_arg15 : FVec F S1x8x64x64 .f32) (main_arg16 : FVec F S1x8x1x1 .f32) (main_arg17 : FVec F S1x64x1x512 .f32) (main_v63 : IVec S_ 1) (main_v67 : IVec S_ 1) : IVec S_ 1 :=
  let main_v68 : IVec S_ 1 := andi main_v63 main_v67
  let main_v69 : FVec F S64x32x512 .f32 := Host.absf main_arg14
  let main_cst_26 : FVec F S_ .f32 := constant S_ .f32 0x7F800000#32
  let main_v70 : FVec F S64x32x512 .f32 := broadcastInDim S64x32x512 ![] bcast_S_S64x32x512 main_cst_26
  let main_v71 : IVec S64x32x512 1 := cmpf .olt main_v69 main_v70
  let main_c_27 : IVec S_ 1 := constantI S_ 1 1#1
  let main_v72 : IVec S_ 1 := (fun x v => Host.reduce IntOp.andi x v reducesTo_S64x32x512_S_d0_1_2 h_S_) main_v71 main_c_27
  let main_v73 : IVec S_ 1 := andi main_v68 main_v72
  let main_v74 : FVec F S1x8x64x64 .f32 := Host.absf main_arg15
  let main_cst_28 : FVec F S_ .f32 := constant S_ .f32 0x7F800000#32
  let main_v75 : FVec F S1x8x64x64 .f32 := broadcastInDim S1x8x64x64 ![] bcast_S_S1x8x64x64 main_cst_28
  let main_v76 : IVec S1x8x64x64 1 := cmpf .olt main_v74 main_v75
  let main_c_29 : IVec S_ 1 := constantI S_ 1 1#1
  let main_v77 : IVec S_ 1 := (fun x v => Host.reduce IntOp.andi x v reducesTo_S1x8x64x64_S_d0_1_2_3 h_S_) main_v76 main_c_29
  let main_v78 : IVec S_ 1 := andi main_v73 main_v77
  let main_v79 : FVec F S1x8x1x1 .f32 := Host.absf main_arg16
  let main_cst_30 : FVec F S_ .f32 := constant S_ .f32 0x7F800000#32
  let main_v80 : FVec F S1x8x1x1 .f32 := broadcastInDim S1x8x1x1 ![] bcast_S_S1x8x1x1 main_cst_30
  let main_v81 : IVec S1x8x1x1 1 := cmpf .olt main_v79 main_v80
  let main_c_31 : IVec S_ 1 := constantI S_ 1 1#1
  let main_v82 : IVec S_ 1 := (fun x v => Host.reduce IntOp.andi x v reducesTo_S1x8x1x1_S_d0_1_2_3 h_S_) main_v81 main_c_31
  let main_v83 : IVec S_ 1 := andi main_v78 main_v82
  let main_v84 : FVec F S1x64x1x512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512x2048 .f32) (main_arg12 : FVec F S512 .f32) (main_arg13 : FVec F S64x32x512 .f32) (main_arg14 : FVec F S64x32x512 .f32) (main_arg15 : FVec F S1x8x64x64 .f32) (main_arg16 : FVec F S1x8x1x1 .f32) (main_arg17 : FVec F S1x64x1x512 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S512x2048 .f32 := Host.absf main_arg11
  let main_cst_20 : FVec F S_ .f32 := constant S_ .f32 0x7F800000#32
  let main_v55 : FVec F S512x2048 .f32 := broadcastInDim S512x2048 ![] bcast_S_S512x2048 main_cst_20
  let main_v56 : IVec S512x2048 1 := cmpf .olt main_v54 main_v55
  let main_c_21 : IVec S_ 1 := constantI S_ 1 1#1
  let main_v57 : IVec S_ 1 := (fun x v => Host.reduce IntOp.andi x v reducesTo_S512x2048_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S64x32x512 .f32 := Host.absf main_arg13
  let main_cst_24 : FVec F S_ .f32 := constant S_ .f32 0x7F800000#32
  let main_v65 : FVec F S64x32x512 .f32 := broadcastInDim S64x32x512 ![] bcast_S_S64x32x512 main_cst_24
  let main_v66 : IVec S64x32x512 1 := cmpf .olt main_v64 main_v65
  let main_c_25 : IVec S_ 1 := constantI S_ 1 1#1
  let main_v67 : IVec S_ 1 := (fun x v => Host.reduce IntOp.andi x v reducesTo_S64x32x512_S_d0_1_2 h_S_) main_v66 main_c_25
  fn_part4 (F := F) main_arg14 main_arg15 main_arg16 main_arg17 main_v63 main_v67

def fn_part2 {F : FTy → Type} [FloatOps F] (main_arg7 : FVec F S512x512 .f32) (main_arg8 : FVec F S512 .f32) (main_arg9 : FVec F S2048x512 .f32) (main_arg10 : FVec F S2048 .f32) (main_arg11 : FVec F S512x2048 .f32) (main_arg12 : FVec F S512 .f32) (main_arg13 : FVec F S64x32x512 .f32) (main_arg14 : FVec F S64x32x512 .f32) (main_arg15 : FVec F S1x8x64x64 .f32) (main_arg16 : FVec F S1x8x1x1 .f32) (main_arg17 : FVec F S1x64x1x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S2048x512 .f32 := Host.absf main_arg9
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S2048x512 .f32) (main_arg10 : FVec F S2048 .f32) (main_arg11 : FVec F S512x2048 .f32) (main_arg12 : FVec F S512 .f32) (main_arg13 : FVec F S64x32x512 .f32) (main_arg14 : FVec F S64x32x512 .f32) (main_arg15 : FVec F S1x8x64x64 .f32) (main_arg16 : FVec F S1x8x1x1 .f32) (main_arg17 : FVec F S1x64x1x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32x512x32x64 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S2048x512 .f32) (main_arg10 : FVec F S2048 .f32) (main_arg11 : FVec F S512x2048 .f32) (main_arg12 : FVec F S512 .f32) (main_arg13 : FVec F S64x32x512 .f32) (main_arg14 : FVec F S64x32x512 .f32) (main_arg15 : FVec F S1x8x64x64 .f32) (main_arg16 : FVec F S1x8x1x1 .f32) (main_arg17 : FVec F S1x64x1x512 .f32) : IVec S_ 1 :=
  let main_v0 : FVec F S32x512x32x64 .f32 := Host.absf main_arg0
  let main_cst : FVec F S_ .f32 := constant S_ .f32 0x7F800000#32
  let main_v1 : FVec F S32x512x32x64 .f32 := broadcastInDim S32x512x32x64 ![] bcast_S_S32x512x32x64 main_cst
  let main_v2 : IVec S32x512x32x64 1 := cmpf .olt main_v0 main_v1
  let main_c : IVec S_ 1 := constantI S_ 1 1#1
  let main_v3 : IVec S_ 1 := (fun x v => Host.reduce IntOp.andi x v reducesTo_S32x512x32x64_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32x512x32x64 : Shape := ⟨4, ![32, 512, 32, 64]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S64x32x512 : Shape := ⟨3, ![64, 32, 512]⟩
abbrev S1x8x64x64 : Shape := ⟨4, ![1, 8, 64, 64]⟩
abbrev S1x8x1x1 : Shape := ⟨4, ![1, 8, 1, 1]⟩
abbrev S1x64x1x512 : Shape := ⟨4, ![1, 64, 1, 512]⟩
abbrev S32x64x32x512 : Shape := ⟨4, ![32, 64, 32, 512]⟩
abbrev S64x512 : Shape := ⟨2, ![64, 512]⟩
abbrev S8x64x64 : Shape := ⟨3, ![8, 64, 64]⟩
abbrev S8x1x1 : Shape := ⟨3, ![8, 1, 1]⟩
abbrev S1x64x32x512 : Shape := ⟨4, ![1, 64, 32, 512]⟩
abbrev S64x1x512 : Shape := ⟨3, ![64, 1, 512]⟩
abbrev S1x512 : Shape := ⟨2, ![1, 512]⟩
abbrev S64x32x64 : Shape := ⟨3, ![64, 32, 64]⟩
abbrev S64x2048 : Shape := ⟨2, ![64, 2048]⟩
abbrev S2048x64 : Shape := ⟨2, ![2048, 64]⟩
abbrev S64x64 : Shape := ⟨2, ![64, 64]⟩
abbrev S64 : Shape := ⟨1, ![64]⟩
abbrev S64x1 : Shape := ⟨2, ![64, 1]⟩
abbrev S1x1x1 : Shape := ⟨3, ![1, 1, 1]⟩
abbrev S1x64x64 : Shape := ⟨3, ![1, 64, 64]⟩
abbrev S64x32 : Shape := ⟨2, ![64, 32]⟩
abbrev S64x32x1 : Shape := ⟨3, ![64, 32, 1]⟩
abbrev S64x1x1 : Shape := ⟨3, ![64, 1, 1]⟩
abbrev S1x1 : Shape := ⟨2, ![1, 1]⟩
abbrev S65536x512 : Shape := ⟨2, ![65536, 512]⟩
abbrev S1024x512 : Shape := ⟨2, ![1024, 512]⟩
abbrev S1024x2048 : Shape := ⟨2, ![1024, 2048]⟩
abbrev S1x2048 : Shape := ⟨2, ![1, 2048]⟩

abbrev nBuf : Space → Nat
  | .hbm => 40
  | .vmem => 31
  | .smem => 0
  | _ => 0

abbrev bufTy : (tb : Table) → Fin (tcTables nBuf tb) → BufTy
  | .hbm, ⟨0, _⟩ => ⟨S32x512x32x64, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S2048x512, .f32⟩
  | .hbm, ⟨10, _⟩ => ⟨S2048, .f32⟩
  | .hbm, ⟨11, _⟩ => ⟨S512x2048, .f32⟩
  | .hbm, ⟨12, _⟩ => ⟨S512, .f32⟩
  | .hbm, ⟨13, _⟩ => ⟨S64x32x512, .f32⟩
  | .hbm, ⟨14, _⟩ => ⟨S64x32x512, .f32⟩
  | .hbm, ⟨15, _⟩ => ⟨S1x8x64x64, .f32⟩
  | .hbm, ⟨16, _⟩ => ⟨S1x8x1x1, .f32⟩
  | .hbm, ⟨17, _⟩ => ⟨S1x64x1x512, .f32⟩
  | .hbm, ⟨18, _⟩ => ⟨S32x64x32x512, .f32⟩
  | .hbm, ⟨19, _⟩ => ⟨S64x512, .f32⟩
  | .hbm, ⟨20, _⟩ => ⟨S8x64x64, .f32⟩
  | .hbm, ⟨21, _⟩ => ⟨S8x1x1, .f32⟩
  | .hbm, ⟨22, _⟩ => ⟨S512x512, .f32⟩
  | .hbm, ⟨23, _⟩ => ⟨S512x512, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S512x512, .f32⟩
  | .hbm, ⟨29, _⟩ => ⟨S512x512, .bf16⟩
  | .hbm, ⟨30, _⟩ => ⟨S512x2048, .f32⟩
  | .hbm, ⟨31, _⟩ => ⟨S512x2048, .bf16⟩
  | .hbm, ⟨32, _⟩ => ⟨S2048x512, .f32⟩
  | .hbm, ⟨33, _⟩ => ⟨S2048x512, .bf16⟩
  | .hbm, ⟨34, _⟩ => ⟨S32x64x32x512, .bf16⟩
  | .hbm, ⟨35, _⟩ => ⟨S32x64x32x512, .f32⟩
  | .hbm, ⟨36, _⟩ => ⟨S65536x512, .f32⟩
  | .hbm, ⟨37, _⟩ => ⟨S65536x512, .f32⟩
  | .hbm, ⟨38, _⟩ => ⟨S32x64x32x512, .f32⟩
  | .hbm, ⟨39, _⟩ => ⟨S32x512x32x64, .f32⟩
  | .local _ .vmem, ⟨0, _⟩ => ⟨S1x64x32x512, .f32⟩
  | .local _ .vmem, ⟨1, _⟩ => ⟨S1x64x32x512, .f32⟩
  | .local _ .vmem, ⟨2, _⟩ => ⟨S64x512, .f32⟩
  | .local _ .vmem, ⟨3, _⟩ => ⟨S512x512, .bf16⟩
  | .local _ .vmem, ⟨4, _⟩ => ⟨S512, .f32⟩
  | .local _ .vmem, ⟨5, _⟩ => ⟨S512x512, .bf16⟩
  | .local _ .vmem, ⟨6, _⟩ => ⟨S512, .f32⟩
  | .local _ .vmem, ⟨7, _⟩ => ⟨S512x512, .bf16⟩
  | .local _ .vmem, ⟨8, _⟩ => ⟨S512, .f32⟩
  | .local _ .vmem, ⟨9, _⟩ => ⟨S8x64x64, .f32⟩
  | .local _ .vmem, ⟨10, _⟩ => ⟨S8x1x1, .f32⟩
  | .local _ .vmem, ⟨11, _⟩ => ⟨S1x64x32x512, .bf16⟩
  | .local _ .vmem, ⟨12, _⟩ => ⟨S1x64x32x512, .bf16⟩
  | .local _ .vmem, ⟨13, _⟩ => ⟨S1x64x32x512, .bf16⟩
  | .local _ .vmem, ⟨14, _⟩ => ⟨S1x64x32x512, .bf16⟩
  | .local _ .vmem, ⟨15, _⟩ => ⟨S1x64x32x512, .f32⟩
  | .local _ .vmem, ⟨16, _⟩ => ⟨S1x64x32x512, .f32⟩
  | .local _ .vmem, ⟨17, _⟩ => ⟨S512x512, .bf16⟩
  | .local _ .vmem, ⟨18, _⟩ => ⟨S512, .f32⟩
  | .local _ .vmem, ⟨19, _⟩ => ⟨S64x32x512, .f32⟩
  | .local _ .vmem, ⟨20, _⟩ => ⟨S64x32x512, .f32⟩
  | .local _ .vmem, ⟨21, _⟩ => ⟨S1x64x32x512, .f32⟩
  | .local _ .vmem, ⟨22, _⟩ => ⟨S1x64x32x512, .f32⟩
  | .local _ .vmem, ⟨23, _⟩ => ⟨S1024x512, .f32⟩
  | .local _ .vmem, ⟨24, _⟩ => ⟨S1024x512, .f32⟩
  | .local _ .vmem, ⟨25, _⟩ => ⟨S512x2048, .bf16⟩
  | .local _ .vmem, ⟨26, _⟩ => ⟨S2048, .f32⟩
  | .local _ .vmem, ⟨27, _⟩ => ⟨S2048x512, .bf16⟩
  | .local _ .vmem, ⟨28, _⟩ => ⟨S512, .f32⟩
  | .local _ .vmem, ⟨29, _⟩ => ⟨S1024x512, .f32⟩
  | .local _ .vmem, ⟨30, _⟩ => ⟨S1024x512, .f32⟩
  | _, _ => ⟨S32x512x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x32x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x32x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S32x512x32x64_S32x64x32x512_0_3_2_1 : S32x512x32x64.Transposes [0, 3, 2, 1] S32x64x32x512
  shapeCasts_S1x64x1x512_S64x512 : S1x64x1x512.ShapeCasts S64x512
  shapeCasts_S1x8x64x64_S8x64x64 : S1x8x64x64.ShapeCasts S8x64x64
  shapeCasts_S1x8x1x1_S8x1x1 : S1x8x1x1.ShapeCasts S8x1x1
  transposes_S512x512_S512x512_1_0 : S512x512.Transposes [1, 0] S512x512
  bitsLt_bf16_f32 : FTy.bits .bf16 < FTy.bits .f32
  transposes_S2048x512_S512x2048_1_0 : S2048x512.Transposes [1, 0] S512x2048
  transposes_S512x2048_S2048x512_1_0 : S512x2048.Transposes [1, 0] S2048x512
  inb_S1x64x32x512_S1x64x32x512_0_0_0_0 : ∀ a, (![0, 0, 0, 0] : Fin 4 → Nat) a + S1x64x32x512.size a ≤ S1x64x32x512.size a
  h_S1x64x32x512 : 0 < S1x64x32x512.numel
  shapeCasts_S1x64x32x512_S64x32x512 : S1x64x32x512.ShapeCasts S64x32x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S64x512_S64x1x512 : S64x512.ShapeCasts S64x1x512
  broadcasts_S64x1x512_S64x32x512 : S64x1x512.Broadcasts S64x32x512
  shapeCasts_S64x32x512_S2048x512 : S64x32x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S64x32x512 : S2048x512.ShapeCasts S64x32x512
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  slices_S64x32x512_o0_0_0_S64x32x64 : S64x32x512.Slices ![0, 0, 0] S64x32x64
  shapeCasts_S64x32x64_S64x2048 : S64x32x64.ShapeCasts S64x2048
  transposes_S64x2048_p1_0_S2048x64 : S64x2048.Transposes [1, 0] S2048x64
  reduces_S64x64_S64 : S64x64.Reduces [1] S64
  shapeCasts_S64_S64x1 : S64.ShapeCasts S64x1
  broadcasts_S64x1_S64x64 : S64x1.Broadcasts S64x64
  slices_S8x1x1_o0_0_0_S1x1x1 : S8x1x1.Slices ![0, 0, 0] S1x1x1
  inpos_S1x1x1_p0_0_0 : ∀ a, (![0, 0, 0] : Fin 3 → Nat) a < S1x1x1.size a
  slices_S8x64x64_o0_0_0_S1x64x64 : S8x64x64.Slices ![0, 0, 0] S1x64x64
  shapeCasts_S1x64x64_S64x64 : S1x64x64.ShapeCasts S64x64
  shapeCasts_S64x2048_S64x32x64 : S64x2048.ShapeCasts S64x32x64
  slices_S64x32x512_o0_0_64_S64x32x64 : S64x32x512.Slices ![0, 0, 64] S64x32x64
  slices_S8x1x1_o1_0_0_S1x1x1 : S8x1x1.Slices ![1, 0, 0] S1x1x1
  slices_S8x64x64_o1_0_0_S1x64x64 : S8x64x64.Slices ![1, 0, 0] S1x64x64
  slices_S64x32x512_o0_0_128_S64x32x64 : S64x32x512.Slices ![0, 0, 128] S64x32x64
  slices_S8x1x1_o2_0_0_S1x1x1 : S8x1x1.Slices ![2, 0, 0] S1x1x1
  slices_S8x64x64_o2_0_0_S1x64x64 : S8x64x64.Slices ![2, 0, 0] S1x64x64
  slices_S64x32x512_o0_0_192_S64x32x64 : S64x32x512.Slices ![0, 0, 192] S64x32x64
  slices_S8x1x1_o3_0_0_S1x1x1 : S8x1x1.Slices ![3, 0, 0] S1x1x1
  slices_S8x64x64_o3_0_0_S1x64x64 : S8x64x64.Slices ![3, 0, 0] S1x64x64
  slices_S64x32x512_o0_0_256_S64x32x64 : S64x32x512.Slices ![0, 0, 256] S64x32x64
  slices_S8x1x1_o4_0_0_S1x1x1 : S8x1x1.Slices ![4, 0, 0] S1x1x1
  slices_S8x64x64_o4_0_0_S1x64x64 : S8x64x64.Slices ![4, 0, 0] S1x64x64
  slices_S64x32x512_o0_0_320_S64x32x64 : S64x32x512.Slices ![0, 0, 320] S64x32x64
  slices_S8x1x1_o5_0_0_S1x1x1 : S8x1x1.Slices ![5, 0, 0] S1x1x1
  slices_S8x64x64_o5_0_0_S1x64x64 : S8x64x64.Slices ![5, 0, 0] S1x64x64
  slices_S64x32x512_o0_0_384_S64x32x64 : S64x32x512.Slices ![0, 0, 384] S64x32x64
  slices_S8x1x1_o6_0_0_S1x1x1 : S8x1x1.Slices ![6, 0, 0] S1x1x1
  slices_S8x64x64_o6_0_0_S1x64x64 : S8x64x64.Slices ![6, 0, 0] S1x64x64
  slices_S64x32x512_o0_0_448_S64x32x64 : S64x32x512.Slices ![0, 0, 448] S64x32x64
  slices_S8x1x1_o7_0_0_S1x1x1 : S8x1x1.Slices ![7, 0, 0] S1x1x1
  slices_S8x64x64_o7_0_0_S1x64x64 : S8x64x64.Slices ![7, 0, 0] S1x64x64
  concatenates_S64x32x64_S64x32x64_S64x32x64_S64x32x64_S64x32x64_S64x32x64_S64x32x64_S64x32x64_S64x32x512_d2 : Shape.Concatenates [S64x32x64, S64x32x64, S64x32x64, S64x32x64, S64x32x64, S64x32x64, S64x32x64, S64x32x64] S64x32x512 2
  shapeCasts_S64x32x512_S1x64x32x512 : S64x32x512.ShapeCasts S1x64x32x512
  packedbf16_S1x64x32x512_S1x64x32x512_0_0_0_0 : (Rect.unit (s := S1x64x32x512) ![0, 0, 0, 0] S1x64x32x512.size inb_S1x64x32x512_S1x64x32x512_0_0_0_0).PackedRows (EltTy.packing .bf16)
  reduces_S64x32x512_S64x32 : S64x32x512.Reduces [2] S64x32
  shapeCasts_S64x32_S64x32x1 : S64x32.ShapeCasts S64x32x1
  reduces_S64x32x1_S64x1 : S64x32x1.Reduces [1] S64x1
  shapeCasts_S64x1_S64x1x1 : S64x1.ShapeCasts S64x1x1
  reduces_S64x1x1_S1x1 : S64x1x1.Reduces [0] S1x1
  shapeCasts_S1x1_S1x1x1 : S1x1.ShapeCasts S1x1x1
  broadcasts_S1x1x1_S64x32x512 : S1x1x1.Broadcasts S64x32x512
  inb_S64x32x512_S64x32x512_0_0_0 : ∀ a, (![0, 0, 0] : Fin 3 → Nat) a + S64x32x512.size a ≤ S64x32x512.size a
  h_S64x32x512 : 0 < S64x32x512.numel
  shapeCasts_S32x64x32x512_S65536x512 : S32x64x32x512.ShapeCasts S65536x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S1024x512 : S1x512.Broadcasts S1024x512
  shapeCasts_S65536x512_S32x64x32x512 : S65536x512.ShapeCasts S32x64x32x512
  transposes_S32x64x32x512_S32x512x32x64_0_3_2_1 : S32x64x32x512.Transposes [0, 3, 2, 1] S32x512x32x64
  dot_S2048x512_S512x512_S2048x512_1_0_0_1_n_n_wf : DotDims.WF S2048x512 S512x512 S2048x512 [1] [0] [0] [1] [] []
  dot_S64x2048_S2048x64_S64x64_1_0_0_1_n_n_wf : DotDims.WF S64x2048 S2048x64 S64x64 [1] [0] [0] [1] [] []
  dot_S64x64_S64x2048_S64x2048_1_0_0_1_n_n_wf : DotDims.WF S64x64 S64x2048 S64x2048 [1] [0] [0] [1] [] []
  dot_S1024x512_S512x2048_S1024x2048_1_0_0_1_n_n_wf : DotDims.WF S1024x512 S512x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x512.size a ≤ S32x64x32x512.size a
  hwx0_0 : ∀ i : grid0.Coords, EltTy.bits .f32 = 32 ∨ (Rect.block (s := S32x64x32x512) S1x64x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x64x64.size a ≤ S8x64x64.size a
  hwx0_8 : ∀ i : grid0.Coords, EltTy.bits .f32 = 32 ∨ (Rect.block (s := S8x64x64) S8x64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x1x1.size a ≤ S8x1x1.size a
  hwx0_9 : ∀ i : grid0.Coords, EltTy.bits .f32 = 32 ∨ (Rect.block (s := S8x1x1) S8x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x32x512.size a ≤ S32x64x32x512.size a
  hwx0_10 : ∀ i : grid0.Coords, EltTy.bits .bf16 = 32 ∨ (Rect.block (s := S32x64x32x512) S1x64x32x512.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x32x512.size a ≤ S32x64x32x512.size a
  hwx1_0 : ∀ i : grid1.Coords, EltTy.bits .bf16 = 32 ∨ (Rect.block (s := S32x64x32x512) S1x64x32x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x32x512.size a ≤ S32x64x32x512.size a
  hwx1_1 : ∀ i : grid1.Coords, EltTy.bits .f32 = 32 ∨ (Rect.block (s := S32x64x32x512) S1x64x32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32x512.size a ≤ S64x32x512.size a
  hwx1_4 : ∀ i : grid1.Coords, EltTy.bits .f32 = 32 ∨ (Rect.block (s := S64x32x512) S64x32x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32x512.size a ≤ S64x32x512.size a
  hwx1_5 : ∀ i : grid1.Coords, EltTy.bits .f32 = 32 ∨ (Rect.block (s := S64x32x512) S64x32x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x32x512.size a ≤ S32x64x32x512.size a
  hwx1_6 : ∀ i : grid1.Coords, EltTy.bits .f32 = 32 ∨ (Rect.block (s := S32x64x32x512) S1x64x32x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S65536x512.size a
  hwx2_0 : ∀ i : grid2.Coords, EltTy.bits .f32 = 32 ∨ (Rect.block (s := S65536x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S512x2048.size a
  hwx2_1 : ∀ i : grid2.Coords, EltTy.bits .bf16 = 32 ∨ (Rect.block (s := S512x2048) S512x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S2048.size a
  hwx2_2 : ∀ i : grid2.Coords, EltTy.bits .f32 = 32 ∨ (Rect.block (s := S2048) S2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S2048x512.size a
  hwx2_3 : ∀ i : grid2.Coords, EltTy.bits .bf16 = 32 ∨ (Rect.block (s := S2048x512) S2048x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S65536x512.size a
  hwx2_5 : ∀ i : grid2.Coords, EltTy.bits .f32 = 32 ∨ (Rect.block (s := S65536x512) S1024x512.size (cc2_transform_5 i) (hinb2_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1x64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S8x1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x64x32x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v16) S1x64x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x32x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64x32x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64x32x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x64x32x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S512x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S2048x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32x512x32x64 : Shape := ⟨4, ![32, 512, 32, 64]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S64x32x512 : Shape := ⟨3, ![64, 32, 512]⟩
abbrev S1x8x64x64 : Shape := ⟨4, ![1, 8, 64, 64]⟩
abbrev S1x8x1x1 : Shape := ⟨4, ![1, 8, 1, 1]⟩
abbrev S1x64x1x512 : Shape := ⟨4, ![1, 64, 1, 512]⟩
abbrev S32x64x32x512 : Shape := ⟨4, ![32, 64, 32, 512]⟩
abbrev S1x1x1x512 : Shape := ⟨4, ![1, 1, 1, 512]⟩
abbrev S32x64x32x8x64 : Shape := ⟨5, ![32, 64, 32, 8, 64]⟩
abbrev S32x8x64x32x64 : Shape := ⟨5, ![32, 8, 64, 32, 64]⟩
abbrev S32x8x64x2048 : Shape := ⟨4, ![32, 8, 64, 2048]⟩
abbrev S32x8x64x64 : Shape := ⟨4, ![32, 8, 64, 64]⟩
abbrev S_ : Shape := ⟨0, ![]⟩
abbrev S32x8x64 : Shape := ⟨3, ![32, 8, 64]⟩
abbrev S32x8x64x1 : Shape := ⟨4, ![32, 8, 64, 1]⟩
abbrev S32 : Shape := ⟨1, ![32]⟩
abbrev S32x1x1x1 : Shape := ⟨4, ![32, 1, 1, 1]⟩
abbrev S1x64x32x512 : Shape := ⟨4, ![1, 64, 32, 512]⟩
abbrev S32x64x32x2048 : Shape := ⟨4, ![32, 64, 32, 2048]⟩
abbrev S1x1x1x2048 : Shape := ⟨4, ![1, 1, 1, 2048]⟩

abbrev nBuf : Space → Nat
  | .hbm => 115
  | .vmem => 0
  | .smem => 0
  | _ => 0

abbrev bufTy : (tb : Table) → Fin (tcTables nBuf tb) → BufTy
  | .hbm, ⟨0, _⟩ => ⟨S32x512x32x64, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S2048x512, .f32⟩
  | .hbm, ⟨10, _⟩ => ⟨S2048, .f32⟩
  | .hbm, ⟨11, _⟩ => ⟨S512x2048, .f32⟩
  | .hbm, ⟨12, _⟩ => ⟨S512, .f32⟩
  | .hbm, ⟨13, _⟩ => ⟨S64x32x512, .f32⟩
  | .hbm, ⟨14, _⟩ => ⟨S64x32x512, .f32⟩
  | .hbm, ⟨15, _⟩ => ⟨S1x8x64x64, .f32⟩
  | .hbm, ⟨16, _⟩ => ⟨S1x8x1x1, .f32⟩
  | .hbm, ⟨17, _⟩ => ⟨S1x64x1x512, .f32⟩
  | .hbm, ⟨18, _⟩ => ⟨S32x64x32x512, .f32⟩
  | .hbm, ⟨19, _⟩ => ⟨S32x64x32x512, .f32⟩
  | .hbm, ⟨20, _⟩ => ⟨S32x64x32x512, .f32⟩
  | .hbm, ⟨21, _⟩ => ⟨S32x64x32x512, .f32⟩
  | .hbm, ⟨22, _⟩ => ⟨S1x1x1x512, .f32⟩
  | .hbm, ⟨23, _⟩ => ⟨S32x64x32x512, .f32⟩
  | .hbm, ⟨24, _⟩ => ⟨S32x64x32x512, .f32⟩
  | .hbm, ⟨25, _⟩ => ⟨S32x64x32x8x64, .f32⟩
  | .hbm, ⟨26, _⟩ => ⟨S32x8x64x32x64, .f32⟩
  | .hbm, ⟨27, _⟩ => ⟨S32x8x64x2048, .f32⟩
  | .hbm, ⟨28, _⟩ => ⟨S32x64x32x512, .f32⟩
  | .hbm, ⟨29, _⟩ => ⟨S1x1x1x512, .f32⟩
  | .hbm, ⟨30, _⟩ => ⟨S32x64x32x512, .f32⟩
  | .hbm, ⟨31, _⟩ => ⟨S32x64x32x512, .f32⟩
  | .hbm, ⟨32, _⟩ => ⟨S32x64x32x8x64, .f32⟩
  | .hbm, ⟨33, _⟩ => ⟨S32x8x64x32x64, .f32⟩
  | .hbm, ⟨34, _⟩ => ⟨S32x8x64x2048, .f32⟩
  | .hbm, ⟨35, _⟩ => ⟨S32x64x32x512, .f32⟩
  | .hbm, ⟨36, _⟩ => ⟨S1x1x1x512, .f32⟩
  | .hbm, ⟨37, _⟩ => ⟨S32x64x32x512, .f32⟩
  | .hbm, ⟨38, _⟩ => ⟨S32x64x32x512, .f32⟩
  | .hbm, ⟨39, _⟩ => ⟨S32x64x32x8x64, .f32⟩
  | .hbm, ⟨40, _⟩ => ⟨S32x8x64x32x64, .f32⟩
  | .hbm, ⟨41, _⟩ => ⟨S32x8x64x2048, .f32⟩
  | .hbm, ⟨42, _⟩ => ⟨S32x8x64x64, .f32⟩
  | .hbm, ⟨43, _⟩ => ⟨S_, .f32⟩
  | .hbm, ⟨44, _⟩ => ⟨S32x8x64x64, .f32⟩
  | .hbm, ⟨45, _⟩ => ⟨S32x8x64x64, .f32⟩
  | .hbm, ⟨46, _⟩ => ⟨S_, .f32⟩
  | .hbm, ⟨47, _⟩ => ⟨S32x8x64, .f32⟩
  | .hbm, ⟨48, _⟩ => ⟨S_, .f32⟩
  | .hbm, ⟨49, _⟩ => ⟨S32x8x64, .f32⟩
  | .hbm, ⟨50, _⟩ => ⟨S32x8x64, .f32⟩
  | .hbm, ⟨51, _⟩ => ⟨S32x8x64x1, .f32⟩
  | .hbm, ⟨52, _⟩ => ⟨S32x8x64x64, .f32⟩
  | .hbm, ⟨53, _⟩ => ⟨S32x8x64x64, .f32⟩
  | .hbm, ⟨54, _⟩ => ⟨S32x8x64x64, .f32⟩
  | .hbm, ⟨55, _⟩ => ⟨S_, .f32⟩
  | .hbm, ⟨56, _⟩ => ⟨S32x8x64, .f32⟩
  | .hbm, ⟨57, _⟩ => ⟨S32x8x64x1, .f32⟩
  | .hbm, ⟨58, _⟩ => ⟨S32x8x64x64, .f32⟩
  | .hbm, ⟨59, _⟩ => ⟨S32x8x64x64, .f32⟩
  | .hbm, ⟨60, _⟩ => ⟨S32x8x64x64, .f32⟩
  | .hbm, ⟨61, _⟩ => ⟨S32x8x64x64, .f32⟩
  | .hbm, ⟨62, _⟩ => ⟨S32x8x64x64, .f32⟩
  | .hbm, ⟨63, _⟩ => ⟨S32x8x64x64, .f32⟩
  | .hbm, ⟨64, _⟩ => ⟨S32x8x64x2048, .f32⟩
  | .hbm, ⟨65, _⟩ => ⟨S32x8x64x32x64, .f32⟩
  | .hbm, ⟨66, _⟩ => ⟨S32x64x32x8x64, .f32⟩
  | .hbm, ⟨67, _⟩ => ⟨S32x64x32x512, .f32⟩
  | .hbm, ⟨68, _⟩ => ⟨S32x64x32x512, .f32⟩
  | .hbm, ⟨69, _⟩ => ⟨S1x1x1x512, .f32⟩
  | .hbm, ⟨70, _⟩ => ⟨S32x64x32x512, .f32⟩
  | .hbm, ⟨71, _⟩ => ⟨S32x64x32x512, .f32⟩
  | .hbm, ⟨72, _⟩ => ⟨S32x64x32x512, .f32⟩
  | .hbm, ⟨73, _⟩ => ⟨S_, .f32⟩
  | .hbm, ⟨74, _⟩ => ⟨S32, .f32⟩
  | .hbm, ⟨75, _⟩ => ⟨S32x1x1x1, .f32⟩
  | .hbm, ⟨76, _⟩ => ⟨S_, .f32⟩
  | .hbm, ⟨77, _⟩ => ⟨S32x1x1x1, .f32⟩
  | .hbm, ⟨78, _⟩ => ⟨S32x1x1x1, .f32⟩
  | .hbm, ⟨79, _⟩ => ⟨S32x64x32x512, .f32⟩
  | .hbm, ⟨80, _⟩ => ⟨S32x64x32x512, .f32⟩
  | .hbm, ⟨81, _⟩ => ⟨S32x64x32x512, .f32⟩
  | .hbm, ⟨82, _⟩ => ⟨S_, .f32⟩
  | .hbm, ⟨83, _⟩ => ⟨S32, .f32⟩
  | .hbm, ⟨84, _⟩ => ⟨S32x1x1x1, .f32⟩
  | .hbm, ⟨85, _⟩ => ⟨S_, .f32⟩
  | .hbm, ⟨86, _⟩ => ⟨S32x1x1x1, .f32⟩
  | .hbm, ⟨87, _⟩ => ⟨S32x1x1x1, .f32⟩
  | .hbm, ⟨88, _⟩ => ⟨S32x64x32x512, .f32⟩
  | .hbm, ⟨89, _⟩ => ⟨S32x64x32x512, .f32⟩
  | .hbm, ⟨90, _⟩ => ⟨S_, .f32⟩
  | .hbm, ⟨91, _⟩ => ⟨S32x1x1x1, .f32⟩
  | .hbm, ⟨92, _⟩ => ⟨S32x1x1x1, .f32⟩
  | .hbm, ⟨93, _⟩ => ⟨S32x1x1x1, .f32⟩
  | .hbm, ⟨94, _⟩ => ⟨S32x64x32x512, .f32⟩
  | .hbm, ⟨95, _⟩ => ⟨S32x64x32x512, .f32⟩
  | .hbm, ⟨96, _⟩ => ⟨S1x64x32x512, .f32⟩
  | .hbm, ⟨97, _⟩ => ⟨S32x64x32x512, .f32⟩
  | .hbm, ⟨98, _⟩ => ⟨S32x64x32x512, .f32⟩
  | .hbm, ⟨99, _⟩ => ⟨S1x64x32x512, .f32⟩
  | .hbm, ⟨100, _⟩ => ⟨S32x64x32x512, .f32⟩
  | .hbm, ⟨101, _⟩ => ⟨S32x64x32x512, .f32⟩
  | .hbm, ⟨102, _⟩ => ⟨S32x64x32x2048, .f32⟩
  | .hbm, ⟨103, _⟩ => ⟨S1x1x1x2048, .f32⟩
  | .hbm, ⟨104, _⟩ => ⟨S32x64x32x2048, .f32⟩
  | .hbm, ⟨105, _⟩ => ⟨S32x64x32x2048, .f32⟩
  | .hbm, ⟨106, _⟩ => ⟨S_, .f32⟩
  | .hbm, ⟨107, _⟩ => ⟨S32x64x32x2048, .f32⟩
  | .hbm, ⟨108, _⟩ => ⟨S32x64x32x2048, .f32⟩
  | .hbm, ⟨109, _⟩ => ⟨S32x64x32x512, .f32⟩
  | .hbm, ⟨110, _⟩ => ⟨S1x1x1x512, .f32⟩
  | .hbm, ⟨111, _⟩ => ⟨S32x64x32x512, .f32⟩
  | .hbm, ⟨112, _⟩ => ⟨S32x64x32x512, .f32⟩
  | .hbm, ⟨113, _⟩ => ⟨S32x64x32x512, .f32⟩
  | .hbm, ⟨114, _⟩ => ⟨S32x512x32x64, .f32⟩
  | _, _ => ⟨S32x512x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_5 : Ref sig .tc := ⟨.hbm, 82, rfl⟩
abbrev main_v58 : Ref sig .tc := ⟨.hbm, 83, rfl⟩
abbrev main_v59 : Ref sig .tc := ⟨.hbm, 84, rfl⟩
abbrev main_cst_6 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_7 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call0_cst : Ref sig .tc := ⟨.hbm, 106, rfl⟩
abbrev main_call0_v0 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  transposes_S32x512x32x64_S32x64x32x512_0_3_2_1 : S32x512x32x64.Transposes [0, 3, 2, 1] S32x64x32x512
  bcast_S1x64x1x512_S32x64x32x512_0_1_2_3 : S1x64x1x512.BroadcastsInDim S32x64x32x512 (![0, 1, 2, 3] : Fin 4 → Fin S32x64x32x512.rank)
  bcast_S512_S1x1x1x512_3 : S512.BroadcastsInDim S1x1x1x512 (![3] : Fin 1 → Fin S1x1x1x512.rank)
  bcast_S1x1x1x512_S32x64x32x512_0_1_2_3 : S1x1x1x512.BroadcastsInDim S32x64x32x512 (![0, 1, 2, 3] : Fin 4 → Fin S32x64x32x512.rank)
  shapeCasts_S32x64x32x512_S32x64x32x8x64 : S32x64x32x512.ShapeCasts S32x64x32x8x64
  transposes_S32x64x32x8x64_S32x8x64x32x64_0_3_1_2_4 : S32x64x32x8x64.Transposes [0, 3, 1, 2, 4] S32x8x64x32x64
  shapeCasts_S32x8x64x32x64_S32x8x64x2048 : S32x8x64x32x64.ShapeCasts S32x8x64x2048
  bcast_S_S32x8x64x64 : S_.BroadcastsInDim S32x8x64x64 (![] : Fin 0 → Fin S32x8x64x64.rank)
  reducesTo_S32x8x64x64_S32x8x64_d3 : S32x8x64x64.ReducesTo [3] S32x8x64
  h_S_ : 0 < S_.numel
  bcast_S_S32x8x64 : S_.BroadcastsInDim S32x8x64 (![] : Fin 0 → Fin S32x8x64.rank)
  bcast_S32x8x64_S32x8x64x1_0_1_2 : S32x8x64.BroadcastsInDim S32x8x64x1 (![0, 1, 2] : Fin 3 → Fin S32x8x64x1.rank)
  bcast_S32x8x64x1_S32x8x64x64_0_1_2_3 : S32x8x64x1.BroadcastsInDim S32x8x64x64 (![0, 1, 2, 3] : Fin 4 → Fin S32x8x64x64.rank)
  bcast_S1x8x1x1_S32x8x64x64_0_1_2_3 : S1x8x1x1.BroadcastsInDim S32x8x64x64 (![0, 1, 2, 3] : Fin 4 → Fin S32x8x64x64.rank)
  bcast_S1x8x64x64_S32x8x64x64_0_1_2_3 : S1x8x64x64.BroadcastsInDim S32x8x64x64 (![0, 1, 2, 3] : Fin 4 → Fin S32x8x64x64.rank)
  shapeCasts_S32x8x64x2048_S32x8x64x32x64 : S32x8x64x2048.ShapeCasts S32x8x64x32x64
  transposes_S32x8x64x32x64_S32x64x32x8x64_0_2_3_1_4 : S32x8x64x32x64.Transposes [0, 2, 3, 1, 4] S32x64x32x8x64
  shapeCasts_S32x64x32x8x64_S32x64x32x512 : S32x64x32x8x64.ShapeCasts S32x64x32x512
  reducesTo_S32x64x32x512_S32_d1_2_3 : S32x64x32x512.ReducesTo [1, 2, 3] S32
  bcast_S32_S32x1x1x1_0 : S32.BroadcastsInDim S32x1x1x1 (![0] : Fin 1 → Fin S32x1x1x1.rank)
  bcast_S_S32x1x1x1 : S_.BroadcastsInDim S32x1x1x1 (![] : Fin 0 → Fin S32x1x1x1.rank)
  bcast_S32x1x1x1_S32x64x32x512_0_1_2_3 : S32x1x1x1.BroadcastsInDim S32x64x32x512 (![0, 1, 2, 3] : Fin 4 → Fin S32x64x32x512.rank)
  bcast_S64x32x512_S1x64x32x512_1_2_3 : S64x32x512.BroadcastsInDim S1x64x32x512 (![1, 2, 3] : Fin 3 → Fin S1x64x32x512.rank)
  bcast_S1x64x32x512_S32x64x32x512_0_1_2_3 : S1x64x32x512.BroadcastsInDim S32x64x32x512 (![0, 1, 2, 3] : Fin 4 → Fin S32x64x32x512.rank)
  bcast_S2048_S1x1x1x2048_3 : S2048.BroadcastsInDim S1x1x1x2048 (![3] : Fin 1 → Fin S1x1x1x2048.rank)
  bcast_S1x1x1x2048_S32x64x32x2048_0_1_2_3 : S1x1x1x2048.BroadcastsInDim S32x64x32x2048 (![0, 1, 2, 3] : Fin 4 → Fin S32x64x32x2048.rank)
  bcast_S_S32x64x32x2048 : S_.BroadcastsInDim S32x64x32x2048 (![] : Fin 0 → Fin S32x64x32x2048.rank)
  transposes_S32x64x32x512_S32x512x32x64_0_3_2_1 : S32x64x32x512.Transposes [0, 3, 2, 1] S32x512x32x64
  dot_S32x64x32x512_S512x512_S32x64x32x512_3_1_012_0_n_n_wf : DotDims.WF S32x64x32x512 S512x512 S32x64x32x512 [3] [1] [0, 1, 2] [0] [] []
  dot_S32x8x64x2048_S32x8x64x2048_S32x8x64x64_3_3_2_2_01_01_wf : DotDims.WF S32x8x64x2048 S32x8x64x2048 S32x8x64x64 [3] [3] [2] [2] [0, 1] [0, 1]
  dot_S32x8x64x64_S32x8x64x2048_S32x8x64x2048_3_2_2_3_01_01_wf : DotDims.WF S32x8x64x64 S32x8x64x2048 S32x8x64x2048 [3] [2] [2] [3] [0, 1] [0, 1]
  dot_S32x64x32x512_S2048x512_S32x64x32x2048_3_1_012_0_n_n_wf : DotDims.WF S32x64x32x512 S2048x512 S32x64x32x2048 [3] [1] [0, 1, 2] [0] [] []
  dot_S32x64x32x2048_S512x2048_S32x64x32x512_3_1_012_0_n_n_wf : DotDims.WF S32x64x32x2048 S512x2048 S32x64x32x512 [3] [1] [0, 1, 2] [0] [] []

variable [Facts₀]

def dot_S32x64x32x512_S512x512_S32x64x32x512_3_1_012_0_n_n : DotDims S32x64x32x512 S512x512 S32x64x32x512 where
  lhsContracting := [3]
  rhsContracting := [1]
  lhsNonContracting := [0, 1, 2]
  rhsNonContracting := [0]
  lhsBatch := []
  rhsBatch := []
  wf := dot_S32x64x32x512_S512x512_S32x64x32x512_3_1_012_0_n_n_wf
def dot_S32x8x64x2048_S32x8x64x2048_S32x8x64x64_3_3_2_2_01_01 : DotDims S32x8x64x2048 S32x8x64x2048 S32x8x64x64 where
  lhsContracting := [3]
  rhsContracting := [3]
  lhsNonContracting := [2]
  rhsNonContracting := [2]
  lhsBatch := [0, 1]
  rhsBatch := [0, 1]
  wf := dot_S32x8x64x2048_S32x8x64x2048_S32x8x64x64_3_3_2_2_01_01_wf
def dot_S32x8x64x64_S32x8x64x2048_S32x8x64x2048_3_2_2_3_01_01 : DotDims S32x8x64x64 S32x8x64x2048 S32x8x64x2048 where
  lhsContracting := [3]
  rhsContracting := [2]
  lhsNonContracting := [2]
  rhsNonContracting := [3]
  lhsBatch := [0, 1]
  rhsBatch := [0, 1]
  wf := dot_S32x8x64x64_S32x8x64x2048_S32x8x64x2048_3_2_2_3_01_01_wf
def dot_S32x64x32x512_S2048x512_S32x64x32x2048_3_1_012_0_n_n : DotDims S32x64x32x512 S2048x512 S32x64x32x2048 where
  lhsContracting := [3]
  rhsContracting := [1]
  lhsNonContracting := [0, 1, 2]
  rhsNonContracting := [0]
  lhsBatch := []
  rhsBatch := []
  wf := dot_S32x64x32x512_S2048x512_S32x64x32x2048_3_1_012_0_n_n_wf
def dot_S32x64x32x2048_S512x2048_S32x64x32x512_3_1_012_0_n_n : DotDims S32x64x32x2048 S512x2048 S32x64x32x512 where
  lhsContracting := [3]
  rhsContracting := [1]
  lhsNonContracting := [0, 1, 2]
  rhsNonContracting := [0]
  lhsBatch := []
  rhsBatch := []
  wf := dot_S32x64x32x2048_S512x2048_S32x64x32x512_3_1_012_0_n_n_wf

class Facts : Prop extends Facts₀ where

variable [Facts]
-- ==== Proof.Spec.lean ====
/-
  What both programs compute, written once over literal coordinates: a batch element is an array over
  (n, t, d) with 64 graph nodes, 32 time steps and 512 features split into 8 heads of 64 columns.

  * three linear layers along the feature axis give q, k (from x + pe) and v (from x);
  * per head h the score of nodes n, m contracts q and k over the 2048 positions (t, e) of the head's
    columns and is scaled; a softmax over m follows (maximum taken from -infinity, exponentials, their sum,
    an exact quotient), then the head weight hw h multiplies it and adj h n m is added;
  * the attention output at (n, t, d), d in head h, sums those weights against v m t d over m.  The kernel
    forms TWO sums, one with the weighted softmax and one with adj, and adds them (attSplit); the reference
    adds the two weights first and forms ONE sum (attJoint).  The two agree when the entries are real numbers:
    multiplication distributes over addition there, which fails on the extended reals at opposite infinities;
  * an output projection, the residual x, and a layer normalisation over ALL of (n, t, d): mean and variance
    as sums over the 64 * 32 * 512 entries divided by that count, an added epsilon, a reciprocal square root,
    an affine map with g and be;
  * a feed-forward row map: 512 -> 2048 with a maximum against 0, back to 512, plus the row itself.
-/
import Idealize.ShloMosaic.PureOps.Ideal
import Idealize.ShloMosaic.Lib.ValueIdx

noncomputable section

namespace Cert.Spec

open Idealize.ShloMosaic

/-- The scale 2048^(-1/2) as both programs print it (one f32 word, never evaluated). -/
abbrev cScale : EReal := Ideal.ofBits .f32 0x3CB504F3#32
/-- The word of -infinity, from which both programs start a row's maximum. -/
abbrev cNegInf : EReal := Ideal.ofBits .f32 0xFF800000#32
/-- The number of entries 64 * 32 * 512 = 2^20 of one batch element, as both programs print it. -/
abbrev cCount : EReal := Ideal.ofBits .f32 0x49800000#32
/-- The layer normalisation's epsilon, as both programs print it. -/
abbrev cEps : EReal := Ideal.ofBits .f32 0x3727C5AC#32

/-- An extended real that is a real number (neither infinity). -/
def IsR (x : EReal) : Prop := ∃ r : ℝ, x = (r : EReal)

/-- An array over (n, t, d). -/
abbrev Arr3 : Type := Fin 64 → Fin 32 → Fin 512 → EReal

/-- The head a feature column belongs to. -/
def headOf (d : Fin 512) : Fin 8 := ⟨d.val / 64, by omega⟩
/-- Feature column 64 h + e of head h. -/
def col (h : Fin 8) (e : Fin 64) : Fin 512 := ⟨h.val * 64 + e.val, by omega⟩
/-- The time step of a flattened position f = 64 t + e. -/
def tOf (f : Fin 2048) : Fin 32 := ⟨f.val / 64, by omega⟩
/-- The in-head column of a flattened position f = 64 t + e. -/
def eOf (f : Fin 2048) : Fin 64 := ⟨f.val % 64, Nat.mod_lt _ (by norm_num)⟩

/-- A linear layer along the feature axis: (sum over d of u n t d * W o d) + bias o. -/
def lin (u : Arr3) (W : Fin 512 → Fin 512 → EReal) (bias : Fin 512 → EReal) : Arr3 :=
  fun n t o => (∑ d : Fin 512, u n t d * W o d) + bias o

/-- The input with the positional term added (the same for every time step). -/
def addPe (xb : Arr3) (pe : Fin 64 → Fin 512 → EReal) : Arr3 := fun n t d => xb n t d + pe n d

/-- The scaled score of head h between nodes n and m. -/
def score (q k : Arr3) (h : Fin 8) (n m : Fin 64) : EReal :=
  (∑ f : Fin 2048, q n (tOf f) (col h (eOf f)) * k m (tOf f) (col h (eOf f))) * cScale

/-- A row's maximum, started from -infinity. -/
def rowMax (s : Fin 64 → EReal) : EReal := (Finset.univ : Finset (Fin 64)).fold max cNegInf s

/-- A row's softmax: exponentials of the entries less the maximum, over their sum. -/
def soft (s : Fin 64 → EReal) (m : Fin 64) : EReal :=
  Ideal.div (Ideal.exp (s m - rowMax s)) (∑ m' : Fin 64, Ideal.exp (s m' - rowMax s))

/-- The softmax weight of head h from node n to node m, times the head's weight. -/
def wSoft (q k : Arr3) (hw : Fin 8 → EReal) (h : Fin 8) (n m : Fin 64) : EReal :=
  soft (score q k h n) m * hw h

/-- The attention output as the kernel forms it: the sum with the weighted softmax plus the sum with adj. -/
def attSplit (q k v : Arr3) (adj : Fin 8 → Fin 64 → Fin 64 → EReal) (hw : Fin 8 → EReal) : Arr3 :=
  fun n t d => (∑ m : Fin 64, wSoft q k hw (headOf d) n m * v m t d) + (∑ m : Fin 64, adj (headOf d) n m * v m t d)

/-- The attention output as the reference forms it: one sum with the two weights added first. -/
def attJoint (q k v : Arr3) (adj : Fin 8 → Fin 64 → Fin 64 → EReal) (hw : Fin 8 → EReal) : Arr3 :=
  fun n t d => ∑ m : Fin 64, (wSoft q k hw (headOf d) n m + adj (headOf d) n m) * v m t d

/-- Everything up to the attention output for one batch element, in either arrangement (`split` chooses). -/
def attOf (split : Bool) (xb : Arr3) (pe : Fin 64 → Fin 512 → EReal)
    (Wq : Fin 512 → Fin 512 → EReal) (bq : Fin 512 → EReal) (Wk : Fin 512 → Fin 512 → EReal) (bk : Fin 512 → EReal)
    (Wv : Fin 512 → Fin 512 → EReal) (bv : Fin 512 → EReal)
    (adj : Fin 8 → Fin 64 → Fin 64 → EReal) (hw : Fin 8 → EReal) : Arr3 :=
  let q := lin (addPe xb pe) Wq bq
  let k := lin (addPe xb pe) Wk bk
  let v := lin xb Wv bv
  if split then attSplit q k v adj hw else attJoint q k v adj hw

/-- The sum of an array over all of (n, t, d), nested innermost axis first. -/
def sum3 (z : Arr3) : EReal := ∑ n : Fin 64, ∑ t : Fin 32, ∑ d : Fin 512, z n t d

/-- Output projection, residual and the layer normalisation over the whole batch element. -/
def lnOf (a xb : Arr3) (Wo : Fin 512 → Fin 512 → EReal) (bo : Fin 512 → EReal) (g be : Arr3) : Arr3 :=
  let z : Arr3 := fun n t o => xb n t o + lin a Wo bo n t o
  let mean : EReal := Ideal.div (sum3 z) cCount
  let zc : Arr3 := fun n t o => z n t o - mean
  let var : EReal := Ideal.div (sum3 fun n t o => zc n t o * zc n t o) cCount
  fun n t o => zc n t o * Ideal.rsqrt (var + cEps) * g n t o + be n t o

/-- The feed-forward map of one row of 512 features. -/
def ffnRow (r : Fin 512 → EReal) (W1 : Fin 2048 → Fin 512 → EReal) (b1 : Fin 2048 → EReal)
    (W2 : Fin 512 → Fin 2048 → EReal) (b2 : Fin 512 → EReal) : Fin 512 → EReal :=
  fun o => r o + ((∑ j : Fin 2048, max ((∑ d : Fin 512, r d * W1 j d) + b1 j) 0 * W2 o j) + b2 o)

/-- The whole block for one batch element, (n, t, d) -> value; `split` chooses the attention arrangement. -/
def blockOf (split : Bool) (xb : Arr3) (pe : Fin 64 → Fin 512 → EReal)
    (Wq : Fin 512 → Fin 512 → EReal) (bq : Fin 512 → EReal) (Wk : Fin 512 → Fin 512 → EReal) (bk : Fin 512 → EReal)
    (Wv : Fin 512 → Fin 512 → EReal) (bv : Fin 512 → EReal) (Wo : Fin 512 → Fin 512 → EReal) (bo : Fin 512 → EReal)
    (W1 : Fin 2048 → Fin 512 → EReal) (b1 : Fin 2048 → EReal) (W2 : Fin 512 → Fin 2048 → EReal) (b2 : Fin 512 → EReal)
    (g be : Arr3) (adj : Fin 8 → Fin 64 → Fin 64 → EReal) (hw : Fin 8 → EReal) : Arr3 :=
  fun n t o =>
    ffnRow (lnOf (attOf split xb pe Wq bq Wk bk Wv bv adj hw) xb Wo bo g be n t) W1 b1 W2 b2 o

/-! ## The programs' argument arrays read by coordinates -/

open Idealize.ShloMosaic.ValueIdx

/-- Batch element b of x, which arrives as [32, 512, 32, 64] = (b, d, t, n), laid out as (n, t, d). -/
def xbOf (A0 : (⟨4, ![32, 512, 32, 64]⟩ : Shape).Idx → EReal) (b : Fin 32) : Arr3 := fun n t d => A0 (ix4 b d t n)
/-- The positional term, which arrives as [1, 64, 1, 512]. -/
def peOf (A17 : (⟨4, ![1, 64, 1, 512]⟩ : Shape).Idx → EReal) : Fin 64 → Fin 512 → EReal :=
  fun n d => A17 (ix4 (0 : Fin 1) n (0 : Fin 1) d)
/-- A matrix by its two coordinates. -/
def matOf {a b : Nat} (A : (⟨2, ![a, b]⟩ : Shape).Idx → EReal) : Fin a → Fin b → EReal := fun i j => A (ix2 i j)
/-- A vector by its coordinate. -/
def vecOf {a : Nat} (A : (⟨1, ![a]⟩ : Shape).Idx → EReal) : Fin a → EReal := fun i => A (ix1 i)
/-- The affine maps of the layer normalisation, which arrive as [64, 32, 512]. -/
def arr3Of (A : (⟨3, ![64, 32, 512]⟩ : Shape).Idx → EReal) : Arr3 := fun n t d => A (ix3 n t d)
/-- adj, which arrives as [1, 8, 64, 64]. -/
def adjOf (A15 : (⟨4, ![1, 8, 64, 64]⟩ : Shape).Idx → EReal) : Fin 8 → Fin 64 → Fin 64 → EReal :=
  fun h n m => A15 (ix4 (0 : Fin 1) h n m)
/-- hw, which arrives as [1, 8, 1, 1]. -/
def hwOf (A16 : (⟨4, ![1, 8, 1, 1]⟩ : Shape).Idx → EReal) : Fin 8 → EReal :=
  fun h => A16 (ix4 (0 : Fin 1) h (0 : Fin 1) (0 : Fin 1))

/-- The result array [32, 512, 32, 64] = (b, d, t, n) of the eighteen argument arrays: the block of batch element b
    at (n, t, d); `split` chooses the attention arrangement. -/
def specArr (split : Bool)
    (A0 : (⟨4, ![32, 512, 32, 64]⟩ : Shape).Idx → EReal)
    (A1 : (⟨2, ![512, 512]⟩ : Shape).Idx → EReal) (A2 : (⟨1, ![512]⟩ : Shape).Idx → EReal)
    (A3 : (⟨2, ![512, 512]⟩ : Shape).Idx → EReal) (A4 : (⟨1, ![512]⟩ : Shape).Idx → EReal)
    (A5 : (⟨2, ![512, 512]⟩ : Shape).Idx → EReal) (A6 : (⟨1, ![512]⟩ : Shape).Idx → EReal)
    (A7 : (⟨2, ![512, 512]⟩ : Shape).Idx → EReal) (A8 : (⟨1, ![512]⟩ : Shape).Idx → EReal)
    (A9 : (⟨2, ![2048, 512]⟩ : Shape).Idx → EReal) (A10 : (⟨1, ![2048]⟩ : Shape).Idx → EReal)
    (A11 : (⟨2, ![512, 2048]⟩ : Shape).Idx → EReal) (A12 : (⟨1, ![512]⟩ : Shape).Idx → EReal)
    (A13 A14 : (⟨3, ![64, 32, 512]⟩ : Shape).Idx → EReal)
    (A15 : (⟨4, ![1, 8, 64, 64]⟩ : Shape).Idx → EReal) (A16 : (⟨4, ![1, 8, 1, 1]⟩ : Shape).Idx → EReal)
    (A17 : (⟨4, ![1, 64, 1, 512]⟩ : Shape).Idx → EReal) : (⟨4, ![32, 512, 32, 64]⟩ : Shape).Idx → EReal :=
  fun i => blockOf split (xbOf A0 (i 0)) (peOf A17) (matOf A1) (vecOf A2) (matOf A3) (vecOf A4) (matOf A5) (vecOf A6)
    (matOf A7) (vecOf A8) (matOf A9) (vecOf A10) (matOf A11) (vecOf A12) (arr3Of A13) (arr3Of A14) (adjOf A15) (hwOf A16)
    (i 3) (i 2) (i 1)

end Cert.Spec

end
-- ==== Proof.LibSliceSum.lean ====
/-
  Three more layout and reduction steps read at an index written by coordinates, for any extents:
  one column cut out of a matrix, one row cut out of a matrix, and the sum over the columns of each
  row (the vector unit's add-reduction over axis 1) at the ideal values.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibSliceSum

open Idealize.ShloMosaic Idealize.ShloMosaic.ValueIdx

variable {α : Type}

/-- Column c of a matrix, cut out as a one-column matrix: entry (p, 0) is entry (p, c). -/
theorem colSlice_apply {a b : Nat} (c : Nat) (hc : c < b) (x : (⟨2, ![a, b]⟩ : Shape).Idx → α)
    (h : (⟨2, ![a, b]⟩ : Shape).Slices ![0, c] ⟨2, ![a, 1]⟩) (p : Fin a) :
    extractStridedSlice ⟨2, ![a, 1]⟩ ![0, c] x h (ix2 p (0 : Fin 1)) = x (ix2 p (⟨c, hc⟩ : Fin b)) :=
  extractStridedSlice_apply ![0, c] x h (ix2 p (0 : Fin 1)) (ix2 p (⟨c, hc⟩ : Fin b)) (fun d => match d with
    | ⟨0, _⟩ => by show p.val = 0 + p.val; omega
    | ⟨1, _⟩ => by show c = c + 0; omega)

/-- Row r of a matrix, cut out as a one-row matrix: entry (0, q) is entry (r, q). -/
theorem rowSlice_apply {a b : Nat} (r : Nat) (hr : r < a) (x : (⟨2, ![a, b]⟩ : Shape).Idx → α)
    (h : (⟨2, ![a, b]⟩ : Shape).Slices ![r, 0] ⟨2, ![1, b]⟩) (q : Fin b) :
    extractStridedSlice ⟨2, ![1, b]⟩ ![r, 0] x h (ix2 (0 : Fin 1) q) = x (ix2 (⟨r, hr⟩ : Fin a) q) :=
  extractStridedSlice_apply ![r, 0] x h (ix2 (0 : Fin 1) q) (ix2 (⟨r, hr⟩ : Fin a) q) (fun d => match d with
    | ⟨0, _⟩ => by show r = r + 0; omega
    | ⟨1, _⟩ => by show q.val = 0 + q.val; omega)

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The same sum, with the accumulator the zero word and the side facts spelt as a printed program
    spells them. -/
theorem rowSum_zero_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The vector unit's maximum over the columns of each row started from the word of −∞, at row p:
    the fold of `max` from that word's value over the row's entries. -/
theorem rowMax_negInf_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) :=
    funext fun k => congrArg src (lift_cols h p k)
  exact congrArg (fun f => Finset.fold max (Ideal.ofBits .f32 0xFF800000#32) f (Finset.univ : Finset (Fin b))) hf

end Cert.LibSliceSum

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.AttHeads.lean ====
/- The eight heads of the attention kernel's body, each read at an index (n, t, e) of its [64, 32, 64] piece:
   the value there is the split attention output at feature column 64 h + e. -/
import proofs.«155221_j24060406792682_2_alg».proof.Proof.Spec
import proofs.«155221_j24060406792682_2_alg».proof.Proof.Gen.KernelIdeal.Frame
import proofs.«155221_j24060406792682_2_alg».proof.Proof.LibSliceSum
import proofs.«155221_j24060406792682_2_alg».proof.Proof.LibMatmul
import proofs.«155221_j24060406792682_2_alg».proof.Proof.LibColumnCasts
import proofs.«155221_j24060406792682_2_alg».proof.Proof.LibRowOps
import Idealize.ShloMosaic.Lib.ValueIdx
import Idealize.ShloMosaic.Lib.Pipeline.Value
import Idealize.ShloMosaic.PureOps.Ideal.Laws

noncomputable section

namespace Cert.KernelIdeal.AttHeads

open Cert.KernelIdeal Cert.KernelIdeal.Gen Idealize.ShloMosaic Idealize.ShloMosaic.TcCoe Idealize.ShloMosaic.ValueIdx Idealize.SL.Sem Cert.Spec

/-! ## One head's computation, stage by stage, over an arbitrary column offset

Every head is the same term at column offset o = 64 h of q, k, v and at slab h of adj and hw.  The
stages below spell that term once, with the offset and the side facts as arguments (two proofs of one
proposition are equal, so any proof of a side fact fits), and each stage is read at an index. -/

namespace HA

/-- Columns o … o+63 of u, with the positions (t, e) of every node flattened to f = 64 t + e. -/
def flat (o : Nat) (hs : S64x32x512.Slices ![0, 0, o] S64x32x64) (u : FVec Ideal S64x32x512 .bf16) :
    FVec Ideal S64x2048 .bf16 :=
  shapeCast S64x2048 (extractStridedSlice S64x32x64 ![0, 0, o] u hs) shapeCasts_S64x32x64_S64x2048

/-- The scaled scores: Q times the transpose of K into the zero accumulator, times the scale word. -/
def sc (Q K : FVec Ideal S64x2048 .bf16) : FVec Ideal S64x64 .f32 :=
  mulf (matmul dot_S64x2048_S2048x64_S64x64_1_0_0_1_n_n none Q
      (transpose S2048x64 [1, 0] K transposes_S64x2048_p1_0_S2048x64) (constant S64x64 .f32 0x00000000#32))
    (broadcast S64x64 (Scalar.ofBits .f32 0x3CB504F3#32))

/-- Every row's maximum from the word of -infinity, kept as a column and repeated across the row. -/
def mxB (s : FVec Ideal S64x64 .f32) : FVec Ideal S64x64 .f32 :=
  broadcastTo S64x64 (shapeCast S64x1
    (multiReduction .maximumf [1] S64 s 0xFF800000#32 reduces_S64x64_S64 (.inl rfl) rfl) shapeCasts_S64_S64x1)
    broadcasts_S64x1_S64x64

/-- Every row's sum from the zero word, kept as a column and repeated across the row. -/
def smB (x : FVec Ideal S64x64 .f32) : FVec Ideal S64x64 .f32 :=
  broadcastTo S64x64 (shapeCast S64x1
    (multiReduction .add [1] S64 x 0x00000000#32 reduces_S64x64_S64 (.inl rfl) rfl) shapeCasts_S64_S64x1)
    broadcasts_S64x1_S64x64

/-- Entry (hn, 0, 0) of the head weights. -/
def hwS (hn : Nat) (hs9 : S8x1x1.Slices ![hn, 0, 0] S1x1x1) (w : FVec Ideal S8x1x1 .f32) : Ideal .f32 :=
  extractAt ![0, 0, 0] (extractStridedSlice S1x1x1 ![hn, 0, 0] w hs9) inpos_S1x1x1_p0_0_0

/-- Slab hn of adj as a [64, 64] matrix. -/
def adjS (hn : Nat) (hs8 : S8x64x64.Slices ![hn, 0, 0] S1x64x64) (A : FVec Ideal S8x64x64 .f32) :
    FVec Ideal S64x64 .bf16 :=
  truncf .bf16 (shapeCast S64x64 (extractStridedSlice S1x64x64 ![hn, 0, 0] A hs8) shapeCasts_S1x64x64_S64x64)
    bitsLt_bf16_f32

/-- The softmax of the scores s against the broadcast row maxima mx, times the head weight w. -/
def wt (s mx : FVec Ideal S64x64 .f32) (w : Ideal .f32) : FVec Ideal S64x64 .bf16 :=
  truncf .bf16 (mulf (divf (exp (subf s mx)) (smB (exp (subf s mx)))) (broadcast S64x64 w)) bitsLt_bf16_f32

/-- A [64, 64] weight matrix against the flattened values, into the zero accumulator. -/
def mm2 (W : FVec Ideal S64x64 .bf16) (V : FVec Ideal S64x2048 .bf16) : FVec Ideal S64x2048 .f32 :=
  matmul dot_S64x64_S64x2048_S64x2048_1_0_0_1_n_n none W V (constant S64x2048 .f32 0x00000000#32)

/-- The two products added and laid out again as (n, t, e). -/
def fin (a b : FVec Ideal S64x2048 .f32) : FVec Ideal S64x32x64 .f32 :=
  shapeCast S64x32x64 (addf a b) shapeCasts_S64x2048_S64x32x64

/-- One head from the scores on: softmax weights and adj's slab against the head's values. -/
def tail (hn : Nat) (hs9 : S8x1x1.Slices ![hn, 0, 0] S1x1x1) (hs8 : S8x64x64.Slices ![hn, 0, 0] S1x64x64)
    (A : FVec Ideal S8x64x64 .f32) (w : FVec Ideal S8x1x1 .f32) (s mx : FVec Ideal S64x64 .f32)
    (V : FVec Ideal S64x2048 .bf16) : FVec Ideal S64x32x64 .f32 :=
  fin (mm2 (wt s mx (hwS hn hs9 w)) V) (mm2 (adjS hn hs8 A) V)

/-! ### Each stage at an index -/

/-- The flattened position f = 64 t + e of (t, e). -/
def pos (t : Fin 32) (e : Fin 64) : Fin 2048 := ⟨t.val * 64 + e.val, by omega⟩

theorem tOf_pos (t : Fin 32) (e : Fin 64) : tOf (pos t e) = t := by
  apply Fin.ext; show (t.val * 64 + e.val) / 64 = t.val; omega

theorem eOf_pos (t : Fin 32) (e : Fin 64) : eOf (pos t e) = e := by
  apply Fin.ext; show (t.val * 64 + e.val) % 64 = e.val; omega

theorem headOf_col (h : Fin 8) (e : Fin 64) : headOf (col h e) = h := by
  apply Fin.ext; show (h.val * 64 + e.val) / 64 = h.val; omega

/-- The flattened slice at (n, f) is u at node n, time f / 64, column 64 h + f % 64. -/
theorem flat_apply (h : Fin 8) (o : Nat) (ho : o = h.val * 64) (hs : S64x32x512.Slices ![0, 0, o] S64x32x64)
    (u : FVec Ideal S64x32x512 .bf16) (n : Fin 64) (f : Fin 2048) :
    flat o hs u (ix2 n f) = u (ix3 n (tOf f) (col h (eOf f))) := by
  subst ho
  unfold flat
  refine (shapeCast_apply _ shapeCasts_S64x32x64_S64x2048 (ix2 n f) (ix3 n (tOf f) (eOf f)) ?_).trans ?_
  · rw [Shape.rowMajor_val_three, Shape.rowMajor_val_two]
    show (n.val * 32 + f.val / 64) * 64 + f.val % 64 = n.val * 2048 + f.val
    omega
  · refine extractStridedSlice_apply _ u hs (ix3 n (tOf f) (eOf f)) (ix3 n (tOf f) (col h (eOf f))) fun a => ?_
    match a with
    | ⟨0, _⟩ => show n.val = 0 + n.val; omega
    | ⟨1, _⟩ => show f.val / 64 = 0 + f.val / 64; omega
    | ⟨2, _⟩ => show h.val * 64 + f.val % 64 = h.val * 64 + f.val % 64; rfl

end HA

namespace HA

/-- The scores at (n, m): the contraction of Q's row n with K's row m over the 2048 positions, scaled. -/
theorem sc_apply (Q K : FVec Ideal S64x2048 .bf16) (n m : Fin 64) :
    sc Q K (ix2 n m) = (∑ f : Fin 2048, Q (ix2 n f) * K (ix2 m f)) * cScale := by
  unfold sc
  rw [mulf_apply, broadcast_apply]
  refine congrArg (· * cScale) ?_
  refine (congrFun (Cert.LibMatmul.matmul_zero_eq dot_S64x2048_S2048x64_S64x64_1_0_0_1_n_n rfl rfl rfl rfl rfl rfl none Q
    (transpose S2048x64 [1, 0] K transposes_S64x2048_p1_0_S2048x64)) (ix2 n m)).trans ?_
  rw [Cert.LibMatmul.MM_apply]
  refine Finset.sum_congr rfl fun f _ => congrArg (Q (ix2 n f) * ·) ?_
  refine transpose_apply [1, 0] K transposes_S64x2048_p1_0_S2048x64 (ix2 f m) (ix2 m f) fun b => ?_
  match b with
  | ⟨0, _⟩ => rfl
  | ⟨1, _⟩ => rfl

/-- The broadcast row maximum at (n, m): the fold of max over row n from the word of -infinity. -/
theorem mxB_apply (s : FVec Ideal S64x64 .f32) (n m : Fin 64) :
    mxB s (ix2 n m) = (Finset.univ : Finset (Fin 64)).fold max cNegInf (fun m' => s (ix2 n m')) := by
  unfold mxB
  refine (Cert.LibRowOps.col_bcast_apply _ broadcasts_S64x1_S64x64 n m).trans ?_
  refine (Cert.LibColumnCasts.cast_column _ shapeCasts_S64_S64x1 n (0 : Fin 1)).trans ?_
  exact Cert.LibSliceSum.rowMax_negInf_apply s reduces_S64x64_S64 (.inl rfl) rfl n

/-- The broadcast row sum at (n, m): the plain sum of row n. -/
theorem smB_apply (x : FVec Ideal S64x64 .f32) (n m : Fin 64) :
    smB x (ix2 n m) = ∑ m' : Fin 64, x (ix2 n m') := by
  unfold smB
  refine (Cert.LibRowOps.col_bcast_apply _ broadcasts_S64x1_S64x64 n m).trans ?_
  refine (Cert.LibColumnCasts.cast_column _ shapeCasts_S64_S64x1 n (0 : Fin 1)).trans ?_
  exact Cert.LibSliceSum.rowSum_zero_apply x reduces_S64x64_S64 (.inl rfl) rfl n

/-- The extracted head weight is entry (h, 0, 0). -/
theorem hwS_apply (h : Fin 8) (hn : Nat) (hh : h.val = hn) (hs9 : S8x1x1.Slices ![hn, 0, 0] S1x1x1)
    (w : FVec Ideal S8x1x1 .f32) : hwS hn hs9 w = w (ix3 h (0 : Fin 1) (0 : Fin 1)) := by
  subst hh
  unfold hwS extractAt
  refine extractStridedSlice_apply _ w hs9 _ (ix3 h (0 : Fin 1) (0 : Fin 1)) fun a => ?_
  match a with
  | ⟨0, _⟩ => show h.val = h.val + 0; omega
  | ⟨1, _⟩ => rfl
  | ⟨2, _⟩ => rfl

/-- adj's slab at (n, m) is entry (h, n, m). -/
theorem adjS_apply (h : Fin 8) (hn : Nat) (hh : h.val = hn) (hs8 : S8x64x64.Slices ![hn, 0, 0] S1x64x64)
    (A : FVec Ideal S8x64x64 .f32) (n m : Fin 64) : adjS hn hs8 A (ix2 n m) = A (ix3 h n m) := by
  subst hh
  unfold adjS
  rw [truncf_apply]
  refine (shapeCast_apply _ shapeCasts_S1x64x64_S64x64 (ix2 n m) (ix3 (0 : Fin 1) n m) ?_).trans ?_
  · rw [Shape.rowMajor_val_three, Shape.rowMajor_val_two]
    show (0 * 64 + n.val) * 64 + m.val = n.val * 64 + m.val
    omega
  · refine extractStridedSlice_apply _ A hs8 (ix3 (0 : Fin 1) n m) (ix3 h n m) fun a => ?_
    match a with
    | ⟨0, _⟩ => show h.val = h.val + 0; omega
    | ⟨1, _⟩ => show n.val = 0 + n.val; omega
    | ⟨2, _⟩ => show m.val = 0 + m.val; omega

/-- A weight matrix against the flattened values at (n, f): the sum over the 64 nodes. -/
theorem mm2_apply (W : FVec Ideal S64x64 .bf16) (V : FVec Ideal S64x2048 .bf16) (n : Fin 64) (f : Fin 2048) :
    mm2 W V (ix2 n f) = ∑ m : Fin 64, W (ix2 n m) * V (ix2 m f) := by
  unfold mm2
  exact (congrFun (Cert.LibMatmul.matmul_zero_eq dot_S64x64_S64x2048_S64x2048_1_0_0_1_n_n rfl rfl rfl rfl rfl rfl none W V)
    (ix2 n f)).trans (Cert.LibMatmul.MM_apply W V n f)

/-- The sum of the two products at (n, t, e) is read at the flattened position 64 t + e. -/
theorem fin_apply (a b : FVec Ideal S64x2048 .f32) (n : Fin 64) (t : Fin 32) (e : Fin 64) :
    fin a b (ix3 n t e) = a (ix2 n (pos t e)) + b (ix2 n (pos t e)) := by
  unfold fin
  refine (shapeCast_apply _ shapeCasts_S64x2048_S64x32x64 (ix3 n t e) (ix2 n (pos t e)) ?_).trans (addf_apply a b _)
  rw [Shape.rowMajor_val_three, Shape.rowMajor_val_two]
  show n.val * 2048 + (t.val * 64 + e.val) = (n.val * 32 + t.val) * 64 + e.val
  omega

end HA

namespace HA

/-- The softmax weights at (n, m), when the scores are the function r: the softmax of row n at m, times w. -/
theorem wt_apply (s : FVec Ideal S64x64 .f32) (r : Fin 64 → Fin 64 → EReal) (hr : ∀ n m, s (ix2 n m) = r n m)
    (w : Ideal .f32) (n m : Fin 64) : wt s (mxB s) w (ix2 n m) = soft (r n) m * w := by
  have hmx : ∀ m', mxB s (ix2 n m') = rowMax (r n) := fun m' => by
    rw [mxB_apply]
    unfold rowMax
    exact congrArg (fun g => Finset.fold max cNegInf g (Finset.univ : Finset (Fin 64))) (funext fun m'' => hr n m'')
  unfold wt
  rw [truncf_apply, mulf_apply, broadcast_apply, divf_apply, smB_apply]
  unfold soft
  show Ideal.div (Ideal.exp (s (ix2 n m) - mxB s (ix2 n m)))
      (∑ m' : Fin 64, Ideal.exp (s (ix2 n m') - mxB s (ix2 n m'))) * w = _
  rw [hmx m, hr n m]
  refine congrArg (fun d => Ideal.div (Ideal.exp (r n m - rowMax (r n))) d * w) (Finset.sum_congr rfl fun m' _ => ?_)
  rw [hmx m', hr n m']

variable (q k v : FVec Ideal S64x32x512 .bf16) (a8 : Vec Ideal S8x64x64 .f32) (a9 : Vec Ideal S8x1x1 .f32)

/-- The scores of the flattened slices of q and k are the specification's scores of head h. -/
theorem sc_flat (h : Fin 8) (o : Nat) (ho : o = h.val * 64) (hs : S64x32x512.Slices ![0, 0, o] S64x32x64) (n m : Fin 64) :
    sc (flat o hs q) (flat o hs k) (ix2 n m) = score (fun n t d => q (ix3 n t d)) (fun n t d => k (ix3 n t d)) h n m := by
  rw [sc_apply]
  unfold score
  refine congrArg (· * cScale) (Finset.sum_congr rfl fun f _ => ?_)
  rw [flat_apply h o ho hs q n f, flat_apply h o ho hs k m f]

/-- One head, from the flattened slices on, at (n, t, e): the split attention output at column 64 h + e. -/
theorem head_apply (h : Fin 8) (hn o : Nat) (hh : h.val = hn) (ho : o = h.val * 64)
    (hs : S64x32x512.Slices ![0, 0, o] S64x32x64) (hs9 : S8x1x1.Slices ![hn, 0, 0] S1x1x1)
    (hs8 : S8x64x64.Slices ![hn, 0, 0] S1x64x64) (n : Fin 64) (t : Fin 32) (e : Fin 64) :
    tail hn hs9 hs8 (k0_pay7 (F := Ideal) a8) (k0_pay8 (F := Ideal) a9) (sc (flat o hs q) (flat o hs k))
        (mxB (sc (flat o hs q) (flat o hs k))) (flat o hs v) (ix3 n t e)
      = attSplit (fun n t d => q (ix3 n t d)) (fun n t d => k (ix3 n t d)) (fun n t d => v (ix3 n t d))
          (fun h n m => a8 (ix3 h n m)) (fun h => a9 (ix3 h (0 : Fin 1) (0 : Fin 1))) n t (col h e) := by
  have hp7 : k0_pay7 (F := Ideal) a8 = a8 := shapeCast_self a8 _
  have hp8 : k0_pay8 (F := Ideal) a9 = a9 := shapeCast_self a9 _
  unfold tail
  rw [fin_apply, mm2_apply, mm2_apply]
  unfold attSplit
  rw [headOf_col]
  refine congrArg₂ (· + ·) (Finset.sum_congr rfl fun m _ => ?_) (Finset.sum_congr rfl fun m _ => ?_)
  · rw [wt_apply _ _ (sc_flat q k h o ho hs), hwS_apply h hn hh hs9, flat_apply h o ho hs v m (pos t e), tOf_pos,
      eOf_pos, hp8]
    rfl
  · rw [adjS_apply h hn hh hs8, flat_apply h o ho hs v m (pos t e), tOf_pos, eOf_pos, hp7]

end HA

variable (q k v : FVec Ideal S64x32x512 .bf16) (a8 : Vec Ideal S8x64x64 .f32) (a9 : Vec Ideal S8x1x1 .f32)

/-- q, k, v of one batch element as arrays over (n, t, d); adj and hw by coordinates. -/
abbrev A3 (u : FVec Ideal S64x32x512 .bf16) : Arr3 := fun n t d => u (ix3 n t d)
abbrev adjF (a8 : Vec Ideal S8x64x64 .f32) : Fin 8 → Fin 64 → Fin 64 → EReal := fun h n m => a8 (ix3 h n m)
abbrev hwF (a9 : Vec Ideal S8x1x1 .f32) : Fin 8 → EReal := fun h => a9 (ix3 h (0 : Fin 1) (0 : Fin 1))

/-! ## The eight heads: each one's payloads are the generic term at offset 64 h and slab h -/

theorem head0_apply (n : Fin 64) (t : Fin 32) (e : Fin 64) :
    k0_pay9 (F := Ideal) q k v a8 a9 (ix3 n t e)
      = attSplit (A3 q) (A3 k) (A3 v) (adjF a8) (hwF a9) n t (col 0 e) :=
  HA.head_apply q k v a8 a9 0 0 0 rfl rfl slices_S64x32x512_o0_0_0_S64x32x64 slices_S8x1x1_o0_0_0_S1x1x1
    slices_S8x64x64_o0_0_0_S1x64x64 n t e

theorem head1_apply (n : Fin 64) (t : Fin 32) (e : Fin 64) :
    k0_pay13 (F := Ideal) (k0_pay7 a8) (k0_pay8 a9) (k0_pay10 v) (k0_pay11 q k) (k0_pay12 q k) (ix3 n t e)
      = attSplit (A3 q) (A3 k) (A3 v) (adjF a8) (hwF a9) n t (col 1 e) :=
  HA.head_apply q k v a8 a9 1 1 64 rfl rfl slices_S64x32x512_o0_0_64_S64x32x64 slices_S8x1x1_o1_0_0_S1x1x1
    slices_S8x64x64_o1_0_0_S1x64x64 n t e

theorem head2_apply (n : Fin 64) (t : Fin 32) (e : Fin 64) :
    k0_pay14 (F := Ideal) q k v (k0_pay7 a8) (k0_pay8 a9) (ix3 n t e)
      = attSplit (A3 q) (A3 k) (A3 v) (adjF a8) (hwF a9) n t (col 2 e) :=
  HA.head_apply q k v a8 a9 2 2 128 rfl rfl slices_S64x32x512_o0_0_128_S64x32x64 slices_S8x1x1_o2_0_0_S1x1x1
    slices_S8x64x64_o2_0_0_S1x64x64 n t e

theorem head3_apply (n : Fin 64) (t : Fin 32) (e : Fin 64) :
    k0_pay16 (F := Ideal) k v (k0_pay7 a8) (k0_pay8 a9) (k0_pay15 q) (ix3 n t e)
      = attSplit (A3 q) (A3 k) (A3 v) (adjF a8) (hwF a9) n t (col 3 e) :=
  HA.head_apply q k v a8 a9 3 3 192 rfl rfl slices_S64x32x512_o0_0_192_S64x32x64 slices_S8x1x1_o3_0_0_S1x1x1
    slices_S8x64x64_o3_0_0_S1x64x64 n t e

theorem head4_apply (n : Fin 64) (t : Fin 32) (e : Fin 64) :
    k0_pay20 (F := Ideal) (k0_pay7 a8) (k0_pay17 v) (k0_pay18 q k) (k0_pay19 (k0_pay8 a9)) (ix3 n t e)
      = attSplit (A3 q) (A3 k) (A3 v) (adjF a8) (hwF a9) n t (col 4 e) :=
  HA.head_apply q k v a8 a9 4 4 256 rfl rfl slices_S64x32x512_o0_0_256_S64x32x64 slices_S8x1x1_o4_0_0_S1x1x1
    slices_S8x64x64_o4_0_0_S1x64x64 n t e

theorem head5_apply (n : Fin 64) (t : Fin 32) (e : Fin 64) :
    k0_pay21 (F := Ideal) q k v (k0_pay7 a8) (k0_pay8 a9) (ix3 n t e)
      = attSplit (A3 q) (A3 k) (A3 v) (adjF a8) (hwF a9) n t (col 5 e) :=
  HA.head_apply q k v a8 a9 5 5 320 rfl rfl slices_S64x32x512_o0_0_320_S64x32x64 slices_S8x1x1_o5_0_0_S1x1x1
    slices_S8x64x64_o5_0_0_S1x64x64 n t e

theorem head6_apply (n : Fin 64) (t : Fin 32) (e : Fin 64) :
    k0_pay25 (F := Ideal) (k0_pay7 a8) (k0_pay8 a9) (k0_pay22 v) (k0_pay23 q k) (k0_pay24 (F := Ideal)) (ix3 n t e)
      = attSplit (A3 q) (A3 k) (A3 v) (adjF a8) (hwF a9) n t (col 6 e) :=
  HA.head_apply q k v a8 a9 6 6 384 rfl rfl slices_S64x32x512_o0_0_384_S64x32x64 slices_S8x1x1_o6_0_0_S1x1x1
    slices_S8x64x64_o6_0_0_S1x64x64 n t e

/-- The last head is finished inside the store's payload: its second product, the sum and the cast. -/
theorem head7_apply (n : Fin 64) (t : Fin 32) (e : Fin 64) :
    (shapeCast S64x32x64 (addf (k0_pay28 (F := Ideal) q k v (k0_pay8 a9))
        (matmul dot_S64x64_S64x2048_S64x2048_1_0_0_1_n_n none (k0_pay27 (F := Ideal) (k0_pay7 a8)) (k0_pay26 (F := Ideal) v)
          (constant S64x2048 .f32 0x00000000#32))) shapeCasts_S64x2048_S64x32x64 : FVec Ideal S64x32x64 .f32) (ix3 n t e)
      = attSplit (A3 q) (A3 k) (A3 v) (adjF a8) (hwF a9) n t (col 7 e) :=
  HA.head_apply q k v a8 a9 7 7 448 rfl rfl slices_S64x32x512_o0_0_448_S64x32x64 slices_S8x1x1_o7_0_0_S1x1x1
    slices_S8x64x64_o7_0_0_S1x64x64 n t e

end Cert.KernelIdeal.AttHeads

end
-- ==== Proof.AttBodyProj.lean ====
/- The three linear layers of the attention kernel's body, each read at an index (n, t, o) of its [64, 32, 512] result:
   the flattened row 32 n + t of the operand, the contraction over the 512 features against the transposed weight block,
   and the bias of column o. -/
import proofs.«155221_j24060406792682_2_alg».proof.Proof.Spec
import proofs.«155221_j24060406792682_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«155221_j24060406792682_2_alg».proof.Proof.LibMatmul
import proofs.«155221_j24060406792682_2_alg».proof.Proof.LibRowOps

noncomputable section

namespace Cert.KernelIdeal.AttBody.HB

open Cert.KernelIdeal Cert.KernelIdeal.Gen Idealize.ShloMosaic Idealize.ShloMosaic.TcCoe Idealize.ShloMosaic.ValueIdx Idealize.SL.Sem Cert.Spec

variable {α : Type}

/-- Row 32 n + t of the flattened [2048, 512] layout of an array over (n, t, d). -/
def row (n : Fin 64) (t : Fin 32) : Fin 2048 := ⟨n.val * 32 + t.val, by omega⟩

/-- [64, 32, 512] flattened to [2048, 512]: row 32 n + t, column d is entry (n, t, d). -/
theorem cast_flat_apply (x : S64x32x512.Idx → α) (h : S64x32x512.ShapeCasts S2048x512) (n : Fin 64) (t : Fin 32) (d : Fin 512) :
    shapeCast S2048x512 x h (ix2 (row n t) d) = x (ix3 n t d) :=
  shapeCast_apply x h _ _ (by
    rw [Shape.rowMajor_val_three, Shape.rowMajor_val_two]
    rfl)

/-- [2048, 512] cut back to [64, 32, 512]: entry (n, t, d) is row 32 n + t, column d. -/
theorem cast_unflat_apply (x : S2048x512.Idx → α) (h : S2048x512.ShapeCasts S64x32x512) (n : Fin 64) (t : Fin 32) (d : Fin 512) :
    shapeCast S64x32x512 x h (ix3 n t d) = x (ix2 (row n t) d) :=
  shapeCast_apply x h _ _ (by
    rw [Shape.rowMajor_val_three, Shape.rowMajor_val_two]
    rfl)

/-- [64, 512] with a unit axis put in the middle: entry (n, u, d) is entry (n, d). -/
theorem cast_mid_apply (x : S64x512.Idx → α) (h : S64x512.ShapeCasts S64x1x512) (n : Fin 64) (u : Fin 1) (d : Fin 512) :
    shapeCast S64x1x512 x h (ix3 n u d) = x (ix2 n d) :=
  shapeCast_apply x h _ _ (by
    have hu : u.val = 0 := by omega
    rw [Shape.rowMajor_val_three, Shape.rowMajor_val_two]
    show n.val * 512 + d.val = (n.val * 1 + u.val) * 512 + d.val
    rw [hu, Nat.mul_one, Nat.add_zero])

/-- [64, 1, 512] repeated along the middle axis: entry (n, t, d) is entry (n, 0, d). -/
theorem bcast_mid_apply (x : S64x1x512.Idx → α) (h : S64x1x512.Broadcasts S64x32x512) (n : Fin 64) (t : Fin 32) (d : Fin 512) :
    broadcastTo S64x32x512 x h (ix3 n t d) = x (ix3 n (0 : Fin 1) d) :=
  broadcastTo_apply x h _ _ (fun a => by
    match a with
    | ⟨0, _⟩ => rfl
    | ⟨1, _⟩ => rfl
    | ⟨2, _⟩ => rfl)

/-- The input block without its leading unit axis. -/
theorem pay2_apply (x0 : Vec Ideal S1x64x32x512 .f32) (n : Fin 64) (t : Fin 32) (d : Fin 512) :
    k0_pay2 (F := Ideal) x0 (ix3 n t d) = x0 (ix4 (0 : Fin 1) n t d) := by
  unfold k0_pay2
  exact shapeCast_1abc_abc_apply x0 _ n t d

/-- The input plus the positional term, flattened: row 32 n + t, column d. -/
theorem pay3_apply (x0 : Vec Ideal S1x64x32x512 .f32) (x1 : Vec Ideal S64x512 .f32) (n : Fin 64) (t : Fin 32) (d : Fin 512) :
    k0_pay3 (F := Ideal) x0 x1 (ix2 (row n t) d) = x0 (ix4 (0 : Fin 1) n t d) + x1 (ix2 n d) := by
  unfold k0_pay3
  refine (truncf_apply (ψ := .bf16) _ bitsLt_bf16_f32 _).trans ?_
  refine (cast_flat_apply _ _ n t d).trans ?_
  refine (addf_apply _ _ _).trans ?_
  refine congrArg₂ (· + ·) (pay2_apply x0 n t d) ?_
  refine (bcast_mid_apply _ _ n t d).trans ?_
  refine (cast_mid_apply _ _ n 0 d).trans ?_
  rw [shapeCast_self]

/-- One linear layer as the body spells it: the flattened operand against the weight block into the zero accumulator,
    the bias laid out as one row and repeated down the 2048 rows, the result cut back to (n, t, o). -/
theorem proj_apply (u : FVec Ideal S2048x512 .bf16) (w : FVec Ideal S512x512 .bf16) (b : FVec Ideal S512 .f32)
    (n : Fin 64) (t : Fin 32) (o : Fin 512) :
    (shapeCast S64x32x512
      (truncf .bf16 (addf (matmul dot_S2048x512_S512x512_S2048x512_1_0_0_1_n_n none u (shapeCast S512x512 w shapeCasts_S512x512_S512x512)
            (constant S2048x512 .f32 0x00000000#32))
          (broadcastTo S2048x512 (shapeCast S1x512 b shapeCasts_S512_S1x512) broadcasts_S1x512_S2048x512)) bitsLt_bf16_f32)
      shapeCasts_S2048x512_S64x32x512 : FVec Ideal S64x32x512 .bf16) (ix3 n t o)
      = (∑ d : Fin 512, u (ix2 (row n t) d) * w (ix2 d o)) + b (ix1 o) := by
  refine (cast_unflat_apply _ _ n t o).trans ?_
  refine (truncf_apply (ψ := .bf16) _ bitsLt_bf16_f32 _).trans ?_
  refine (addf_apply _ _ _).trans ?_
  refine congrArg₂ (· + ·) ?_ ?_
  · rw [shapeCast_self]
    refine (congrFun (LibMatmul.matmul_zero_eq (A := 2048) (K := 512) (B := 512) dot_S2048x512_S512x512_S2048x512_1_0_0_1_n_n
      rfl rfl rfl rfl rfl rfl none u w) _).trans ?_
    exact LibMatmul.MM_apply _ _ (row n t) o
  · rw [LibRowOps.row_bcast]

/-- q of one batch element at (n, t, o). -/
theorem q_apply (x0 : Vec Ideal S1x64x32x512 .f32) (x1 : Vec Ideal S64x512 .f32) (x2 : Vec Ideal S512x512 .bf16)
    (x3 : Vec Ideal S512 .f32) (n : Fin 64) (t : Fin 32) (o : Fin 512) :
    k0_pay4 (F := Ideal) x0 x1 x2 x3 (ix3 n t o)
      = lin (addPe (fun n t d => x0 (ix4 (0 : Fin 1) n t d)) (fun n d => x1 (ix2 n d))) (fun o d => x2 (ix2 d o))
          (fun o => x3 (ix1 o)) n t o := by
  unfold k0_pay4
  refine (proj_apply _ x2 x3 n t o).trans ?_
  show _ = (∑ d : Fin 512, (x0 (ix4 (0 : Fin 1) n t d) + x1 (ix2 n d)) * x2 (ix2 d o)) + x3 (ix1 o)
  refine congrArg (· + x3 (ix1 o)) (Finset.sum_congr rfl fun d _ => ?_)
  rw [pay3_apply]

/-- k of one batch element at (n, t, o). -/
theorem k_apply (x0 : Vec Ideal S1x64x32x512 .f32) (x1 : Vec Ideal S64x512 .f32) (x4 : Vec Ideal S512x512 .bf16)
    (x5 : Vec Ideal S512 .f32) (n : Fin 64) (t : Fin 32) (o : Fin 512) :
    k0_pay5 (F := Ideal) x0 x1 x4 x5 (ix3 n t o)
      = lin (addPe (fun n t d => x0 (ix4 (0 : Fin 1) n t d)) (fun n d => x1 (ix2 n d))) (fun o d => x4 (ix2 d o))
          (fun o => x5 (ix1 o)) n t o := by
  unfold k0_pay5
  refine (proj_apply _ x4 x5 n t o).trans ?_
  show _ = (∑ d : Fin 512, (x0 (ix4 (0 : Fin 1) n t d) + x1 (ix2 n d)) * x4 (ix2 d o)) + x5 (ix1 o)
  refine congrArg (· + x5 (ix1 o)) (Finset.sum_congr rfl fun d _ => ?_)
  rw [pay3_apply]

/-- v of one batch element at (n, t, o): the input itself, no positional term. -/
theorem v_apply (x0 : Vec Ideal S1x64x32x512 .f32) (x6 : Vec Ideal S512x512 .bf16)
    (x7 : Vec Ideal S512 .f32) (n : Fin 64) (t : Fin 32) (o : Fin 512) :
    k0_pay6 (F := Ideal) x0 x6 x7 (ix3 n t o)
      = lin (fun n t d => x0 (ix4 (0 : Fin 1) n t d)) (fun o d => x6 (ix2 d o)) (fun o => x7 (ix1 o)) n t o := by
  unfold k0_pay6
  refine (proj_apply _ x6 x7 n t o).trans ?_
  show _ = (∑ d : Fin 512, x0 (ix4 (0 : Fin 1) n t d) * x6 (ix2 d o)) + x7 (ix1 o)
  refine congrArg (· + x7 (ix1 o)) (Finset.sum_congr rfl fun d _ => ?_)
  refine congrArg (· * x6 (ix2 d o)) ?_
  refine (truncf_apply (ψ := .bf16) _ bitsLt_bf16_f32 _).trans ?_
  refine (cast_flat_apply _ _ n t d).trans ?_
  exact pay2_apply x0 n t d

end Cert.KernelIdeal.AttBody.HB

end
-- ==== Proof.AttBodyCat.lean ====
/- The attention kernel's store payload read at (0, n, t, d): eight [64, 32, 64] pieces laid side by side along the
   feature axis (piece d / 64 at column d % 64), the cast to the storage format, and a leading unit axis. -/
import proofs.«155221_j24060406792682_2_alg».proof.Proof.Spec
import proofs.«155221_j24060406792682_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttBody.HB

open Cert.KernelIdeal Cert.KernelIdeal.Gen Idealize.ShloMosaic Idealize.ShloMosaic.TcCoe Idealize.ShloMosaic.ValueIdx Idealize.SL.Sem Cert.Spec

/-- Every feature column is column e of some head h. -/
theorem exists_col (d : Fin 512) : ∃ (h : Fin 8) (e : Fin 64), d = col h e :=
  ⟨headOf d, ⟨d.val % 64, Nat.mod_lt _ (by norm_num)⟩, Fin.ext (by
    show d.val = d.val / 64 * 64 + d.val % 64
    omega)⟩

/-- Column e of head h lies in head h. -/
theorem headOf_col (h : Fin 8) (e : Fin 64) : headOf (col h e) = h :=
  Fin.ext (by
    show (h.val * 64 + e.val) / 64 = h.val
    omega)

/-- N pieces of shape [64, 32, 64] laid side by side along the last axis, read at (n, t, 64 h + e): piece h at (n, t, e).
    The list is any spelling of the pieces in order. -/
theorem cat_apply {α : Type} (f : Fin 8 → (S64x32x64.Idx → α)) (L : List ((s : Shape) × (s.Idx → α)))
    (hL : L = List.ofFn fun n : Fin 8 => (⟨S64x32x64, f n⟩ : (s : Shape) × (s.Idx → α)))
    (hc : Shape.Concatenates (L.map (·.1)) S64x32x512 2) (n : Fin 64) (t : Fin 32) (h : Fin 8) (e : Fin 64) :
    concatenate S64x32x512 2 L hc (ix3 n t (col h e)) = f h (ix3 n t e) := by
  subst hL
  refine concatenate_ofFn_apply (t := S64x32x512) (s₁ := S64x32x64) (2 : Fin 3) f hc rfl 64 rfl (ix3 n t (col h e)) h ?_ (ix3 n t e) ?_ ?_
  · show (h.val * 64 + e.val) / 64 = h.val
    omega
  · show e.val = (h.val * 64 + e.val) % 64
    omega
  · intro b hb
    match b with
    | ⟨0, _⟩ => rfl
    | ⟨1, _⟩ => rfl
    | ⟨2, _⟩ => exact absurd rfl hb

/-- Eight arrays over (n, t, e) as one family indexed by the head. -/
def pieces (p0 p1 p2 p3 p4 p5 p6 p7 : S64x32x64.Idx → EReal) : Fin 8 → (S64x32x64.Idx → EReal) :=
  ![p0, p1, p2, p3, p4, p5, p6, p7]

/-- A family of eight arrays agrees with one function G of the head and the coordinates when each member does. -/
theorem pieces_eq (G : Fin 8 → Fin 64 → Fin 32 → Fin 64 → EReal) (p0 p1 p2 p3 p4 p5 p6 p7 : S64x32x64.Idx → EReal)
    (h0 : ∀ n t e, p0 (ix3 n t e) = G 0 n t e) (h1 : ∀ n t e, p1 (ix3 n t e) = G 1 n t e)
    (h2 : ∀ n t e, p2 (ix3 n t e) = G 2 n t e) (h3 : ∀ n t e, p3 (ix3 n t e) = G 3 n t e)
    (h4 : ∀ n t e, p4 (ix3 n t e) = G 4 n t e) (h5 : ∀ n t e, p5 (ix3 n t e) = G 5 n t e)
    (h6 : ∀ n t e, p6 (ix3 n t e) = G 6 n t e) (h7 : ∀ n t e, p7 (ix3 n t e) = G 7 n t e)
    (h : Fin 8) (n : Fin 64) (t : Fin 32) (e : Fin 64) :
    pieces p0 p1 p2 p3 p4 p5 p6 p7 h (ix3 n t e) = G h n t e := by
  match h with
  | ⟨0, _⟩ => exact h0 n t e
  | ⟨1, _⟩ => exact h1 n t e
  | ⟨2, _⟩ => exact h2 n t e
  | ⟨3, _⟩ => exact h3 n t e
  | ⟨4, _⟩ => exact h4 n t e
  | ⟨5, _⟩ => exact h5 n t e
  | ⟨6, _⟩ => exact h6 n t e
  | ⟨7, _⟩ => exact h7 n t e

/-- The store's payload at (0, n, t, 64 h + e) is piece h at (n, t, e); the last piece is finished here from its two
    products. -/
theorem pay1_apply (v72 v103 v134 v165 v196 v227 v258 : FVec Ideal S64x32x64 .f32) (v264 : FVec Ideal S64x2048 .bf16)
    (v285 : FVec Ideal S64x64 .bf16) (v286 cst_69 : FVec Ideal S64x2048 .f32) (n : Fin 64) (t : Fin 32) (h : Fin 8) (e : Fin 64) :
    k0_pay1 (F := Ideal) v72 v103 v134 v165 v196 v227 v258 v264 v285 v286 cst_69 (ix4 (0 : Fin 1) n t (col h e))
      = pieces v72 v103 v134 v165 v196 v227 v258
          (shapeCast S64x32x64 (addf v286 (matmul dot_S64x64_S64x2048_S64x2048_1_0_0_1_n_n none v285 v264 cst_69))
            shapeCasts_S64x2048_S64x32x64) h (ix3 n t e) := by
  unfold k0_pay1
  refine (shapeCast_abc_1abc_apply _ _ 0 n t (col h e)).trans ?_
  refine (truncf_apply (ψ := .bf16) _ bitsLt_bf16_f32 _).trans ?_
  exact cat_apply (pieces v72 v103 v134 v165 v196 v227 v258
          (shapeCast S64x32x64 (addf v286 (matmul dot_S64x64_S64x2048_S64x2048_1_0_0_1_n_n none v285 v264 cst_69))
            shapeCasts_S64x2048_S64x32x64)) _ rfl _ n t h e

end Cert.KernelIdeal.AttBody.HB

end
-- ==== Proof.AttBody.lean ====
/- The attention kernel's body as one function of its input blocks: the three projections read at an index, the eight heads'
   pieces laid side by side along the feature axis, and the whole store read at (0, n, t, d). -/
import proofs.«155221_j24060406792682_2_alg».proof.Proof.Spec
import proofs.«155221_j24060406792682_2_alg».proof.Proof.Gen.KernelIdeal.Frame
import Idealize.ShloMosaic.Lib.ValueIdx
import Idealize.ShloMosaic.Lib.Pipeline.Value
import Idealize.ShloMosaic.PureOps.Ideal.Laws
import proofs.«155221_j24060406792682_2_alg».proof.Proof.AttHeads
import proofs.«155221_j24060406792682_2_alg».proof.Proof.AttBodyProj
import proofs.«155221_j24060406792682_2_alg».proof.Proof.AttBodyCat

noncomputable section

namespace Cert.KernelIdeal.AttBody

open Cert.KernelIdeal Cert.KernelIdeal.Gen Idealize.ShloMosaic Idealize.ShloMosaic.TcCoe Idealize.ShloMosaic.ValueIdx Idealize.SL.Sem Cert.Spec
open Cert.KernelIdeal.AttHeads

namespace HB

/-- The zero offsets of a whole-buffer rectangle, however many axes. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

end HB

/-- What the kernel's one store leaves in the output block, read at (0, n, t, d): the split attention output of the
    input blocks read by coordinates (the three weight blocks arrive transposed, so W o d is block entry (d, o)). -/
theorem out0_10_apply (x0 : Vec Ideal S1x64x32x512 .f32) (x1 : Vec Ideal S64x512 .f32) (x2 : Vec Ideal S512x512 .bf16)
    (x3 : Vec Ideal S512 .f32) (x4 : Vec Ideal S512x512 .bf16) (x5 : Vec Ideal S512 .f32) (x6 : Vec Ideal S512x512 .bf16)
    (x7 : Vec Ideal S512 .f32) (x8 : Vec Ideal S8x64x64 .f32) (x9 : Vec Ideal S8x1x1 .f32)
    (n : Fin 64) (t : Fin 32) (d : Fin 512) :
    out0_10 (F := Ideal) x0 x1 x2 x3 x4 x5 x6 x7 x8 x9 (ix4 (0 : Fin 1) n t d)
      = attOf true (fun n t d => x0 (ix4 (0 : Fin 1) n t d)) (fun n d => x1 (ix2 n d))
          (fun o d => x2 (ix2 d o)) (fun o => x3 (ix1 o)) (fun o d => x4 (ix2 d o)) (fun o => x5 (ix1 o))
          (fun o d => x6 (ix2 d o)) (fun o => x7 (ix1 o)) (fun h n m => x8 (ix3 h n m))
          (fun h => x9 (ix3 h (0 : Fin 1) (0 : Fin 1))) n t d := by
  unfold out0_10
  rw [View.canon_unit_zero HB.hz4]
  simp only [View.ld_unit_zero (S := S1x64x32x512) HB.hz4, View.ld_unit_zero (S := S64x512) HB.hz2,
    View.ld_unit_zero (S := S512x512) HB.hz2, View.ld_unit_zero (S := S512) HB.hz1,
    View.ld_unit_zero (S := S8x64x64) HB.hz3, View.ld_unit_zero (S := S8x1x1) HB.hz3]
  -- the three projections as arrays over (n, t, o)
  have eq : A3 (k0_pay4 (F := Ideal) x0 x1 x2 x3)
      = lin (addPe (fun n t d => x0 (ix4 (0 : Fin 1) n t d)) (fun n d => x1 (ix2 n d))) (fun o d => x2 (ix2 d o))
          (fun o => x3 (ix1 o)) :=
    funext fun n => funext fun t => funext fun o => HB.q_apply x0 x1 x2 x3 n t o
  have ek : A3 (k0_pay5 (F := Ideal) x0 x1 x4 x5)
      = lin (addPe (fun n t d => x0 (ix4 (0 : Fin 1) n t d)) (fun n d => x1 (ix2 n d))) (fun o d => x4 (ix2 d o))
          (fun o => x5 (ix1 o)) :=
    funext fun n => funext fun t => funext fun o => HB.k_apply x0 x1 x4 x5 n t o
  have ev : A3 (k0_pay6 (F := Ideal) x0 x6 x7)
      = lin (fun n t d => x0 (ix4 (0 : Fin 1) n t d)) (fun o d => x6 (ix2 d o)) (fun o => x7 (ix1 o)) :=
    funext fun n => funext fun t => funext fun o => HB.v_apply x0 x6 x7 n t o
  generalize k0_pay4 (F := Ideal) x0 x1 x2 x3 = q at eq ⊢
  generalize k0_pay5 (F := Ideal) x0 x1 x4 x5 = k at ek ⊢
  generalize k0_pay6 (F := Ideal) x0 x6 x7 = v at ev ⊢
  obtain ⟨h, e, rfl⟩ := HB.exists_col d
  refine (HB.pay1_apply _ _ _ _ _ _ _ _ _ _ _ n t h e).trans ?_
  refine (HB.pieces_eq (fun h n t e => attSplit (A3 q) (A3 k) (A3 v) (adjF x8) (hwF x9) n t (col h e)) _ _ _ _ _ _ _ _
    (head0_apply q k v x8 x9) (head1_apply q k v x8 x9) (head2_apply q k v x8 x9) (head3_apply q k v x8 x9)
    (head4_apply q k v x8 x9) (head5_apply q k v x8 x9) (head6_apply q k v x8 x9) (head7_apply q k v x8 x9) h n t e).trans ?_
  show attSplit (A3 q) (A3 k) (A3 v) (adjF x8) (hwF x9) n t (col h e) = _
  rw [eq, ek, ev]
  rfl

end Cert.KernelIdeal.AttBody

end
-- ==== Proof.BodyLnFfn.lean ====
/- The second and third kernels' bodies as functions of their input blocks: output projection, residual and layer
   normalisation read at (0, n, t, d); the feed-forward map read at a row and a column.

   Each body stores one whole block computed from whole input blocks, so its result is its arithmetic applied to the
   blocks.  A matrix product into the zero accumulator is a plain sum over the contracted coordinate; a bias is one row
   repeated down the rows; the reshapes between [2048, 512] and [64, 32, 512] match row 32 n + t with (n, t); each
   keepdims sum over one axis is the sum over that axis's coordinates, so the three nested ones give the sum over all of
   (n, t, d), innermost axis first; a one-entry array broadcast to the full shape reads its entry everywhere. -/
import proofs.«155221_j24060406792682_2_alg».proof.Proof.Spec
import proofs.«155221_j24060406792682_2_alg».proof.Proof.Gen.KernelIdeal.Frame
import proofs.«155221_j24060406792682_2_alg».proof.Proof.LibMatmul
import proofs.«155221_j24060406792682_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyLnFfn.HC

open Cert.KernelIdeal Cert.KernelIdeal.Gen Idealize.ShloMosaic Idealize.ShloMosaic.TcCoe Idealize.ShloMosaic.ValueIdx Idealize.SL.Sem Cert.Spec

/-! ## Zero offsets, however many axes -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Reshapes and broadcasts read at an index -/

section Layout
variable {α : Type}

/-- A [2048, 512] array viewed [64, 32, 512] reads, at (n, t, d), row 32 n + t. -/
theorem cast_rows_apply (x : (⟨2, ![2048, 512]⟩ : Shape).Idx → α)
    (h : (⟨2, ![2048, 512]⟩ : Shape).ShapeCasts ⟨3, ![64, 32, 512]⟩) (n : Fin 64) (t : Fin 32) (d : Fin 512) :
    shapeCast ⟨3, ![64, 32, 512]⟩ x h (ix3 n t d)
      = x (ix2 (⟨n.val * 32 + t.val, by have := n.isLt; have := t.isLt; omega⟩ : Fin 2048) d) :=
  shapeCast_apply x h _ _ (by
    rw [Shape.rowMajor_val_two, Shape.rowMajor_val_three]
    rfl)

/-- A [64, 32, 512] array viewed [2048, 512] reads, at row 32 n + t, the entry (n, t, ·). -/
theorem cast_flat_apply (x : (⟨3, ![64, 32, 512]⟩ : Shape).Idx → α)
    (h : (⟨3, ![64, 32, 512]⟩ : Shape).ShapeCasts ⟨2, ![2048, 512]⟩) (n : Fin 64) (t : Fin 32) (d : Fin 512) :
    shapeCast ⟨2, ![2048, 512]⟩ x h (ix2 (⟨n.val * 32 + t.val, by have := n.isLt; have := t.isLt; omega⟩ : Fin 2048) d)
      = x (ix3 n t d) :=
  shapeCast_apply x h _ _ (by
    rw [Shape.rowMajor_val_two, Shape.rowMajor_val_three]
    rfl)

/-- An [a, b] array given a trailing unit axis reads, at (p, q, u), the entry (p, q). -/
theorem cast_ab_ab1_apply {a b : Nat} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A one-entry array read through a broadcast to any rank-3 shape: its entry. -/
theorem bcast_one_apply {a b c : Nat} (x : (⟨3, ![1, 1, 1]⟩ : Shape).Idx → α)
    (h : (⟨3, ![1, 1, 1]⟩ : Shape).Broadcasts ⟨3, ![a, b, c]⟩) (p : Fin a) (q : Fin b) (r : Fin c) :
    broadcastTo ⟨3, ![a, b, c]⟩ x h (ix3 p q r) = x (ix3 (0 : Fin 1) (0 : Fin 1) (0 : Fin 1)) := by
  refine broadcastTo_apply x h (ix3 p q r) (ix3 (0 : Fin 1) (0 : Fin 1) (0 : Fin 1)) fun ax => ?_
  match ax with
  | ⟨0, _⟩ => rfl
  | ⟨1, _⟩ => rfl
  | ⟨2, _⟩ => rfl

end Layout

/-! ## Sums over one axis of a rank-3 array -/

section Sums

theorem lift3_ax2 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext x; apply Fin.ext
  fin_cases x <;> rfl

theorem lift3_ax1 {a b c : Nat} (h : (⟨3, ![a, b, c]⟩ : Shape).Reduces [1] (⟨2, ![a, c]⟩ : Shape)) (p : Fin a) (r : Fin c)
    (k : Fin ((⟨3, ![a, b, c]⟩ : Shape).size 1)) : h.lift (ix2 p r) k = ix3 p (⟨k.val, k.isLt⟩ : Fin b) r := by
  funext x; apply Fin.ext
  fin_cases x <;> rfl

theorem lift3_ax0 {a b c : Nat} (h : (⟨3, ![a, b, c]⟩ : Shape).Reduces [0] (⟨2, ![b, c]⟩ : Shape)) (q : Fin b) (r : Fin c)
    (k : Fin ((⟨3, ![a, b, c]⟩ : Shape).size 0)) : h.lift (ix2 q r) k = ix3 (⟨k.val, k.isLt⟩ : Fin a) q r := by
  funext x; apply Fin.ext
  fin_cases x <;> rfl

/-- The sum over the last axis of a rank-3 array, at (p, q). -/
theorem sum_ax2_apply {a b c : Nat} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  exact Finset.sum_congr rfl fun k _ => congrArg src (lift3_ax2 h p q k)

/-- The sum over the middle axis of a rank-3 array, at (p, r). -/
theorem sum_ax1_apply {a b c : Nat} (src : FVec Ideal ⟨3, ![a, b, c]⟩ .f32)
    (h : (⟨3, ![a, b, c]⟩ : Shape).Reduces [1] (⟨2, ![a, c]⟩ : Shape)) (hφ : FKind.Formats .f32)
    (hacc : (0x00000000#32 : BitVec 32) = FKind.add.neutral .f32 hφ) (p : Fin a) (r : Fin c) :
    multiReduction .add [1] ⟨2, ![a, c]⟩ src 0x00000000#32 h hφ hacc (ix2 p r) = ∑ k : Fin b, src (ix3 p k r) := by
  refine (Ideal.multiReduction_add_single src 0x00000000#32 h hφ hacc (ix2 p r)).trans ?_
  exact Finset.sum_congr rfl fun k _ => congrArg src (lift3_ax1 h p r k)

/-- The sum over the first axis of a rank-3 array, at (q, r). -/
theorem sum_ax0_apply {a b c : Nat} (src : FVec Ideal ⟨3, ![a, b, c]⟩ .f32)
    (h : (⟨3, ![a, b, c]⟩ : Shape).Reduces [0] (⟨2, ![b, c]⟩ : Shape)) (hφ : FKind.Formats .f32)
    (hacc : (0x00000000#32 : BitVec 32) = FKind.add.neutral .f32 hφ) (q : Fin b) (r : Fin c) :
    multiReduction .add [0] ⟨2, ![b, c]⟩ src 0x00000000#32 h hφ hacc (ix2 q r) = ∑ k : Fin a, src (ix3 k q r) := by
  refine (Ideal.multiReduction_add_single src 0x00000000#32 h hφ hacc (ix2 q r)).trans ?_
  exact Finset.sum_congr rfl fun k _ => congrArg src (lift3_ax0 h q r k)

end Sums

/-! ## The normalisation of a [64, 32, 512] array -/

section Ln

/-- The three nested keepdims sums of a [64, 32, 512] array — over d, then t, then n — as a one-entry array. -/
def tot (z : FVec Ideal S64x32x512 .f32) : FVec Ideal S1x1x1 .f32 :=
  shapeCast S1x1x1
    (multiReduction .add [0] S1x1
      (shapeCast S64x1x1
        (multiReduction .add [1] S64x1
          (shapeCast S64x32x1
            (multiReduction .add [2] S64x32 z 0x00000000#32 reduces_S64x32x512_S64x32 (.inl rfl) rfl)
            shapeCasts_S64x32_S64x32x1)
          0x00000000#32 reduces_S64x32x1_S64x1 (.inl rfl) rfl)
        shapeCasts_S64x1_S64x1x1)
      0x00000000#32 reduces_S64x1x1_S1x1 (.inl rfl) rfl)
    shapeCasts_S1x1_S1x1x1

theorem tot_apply (z : FVec Ideal S64x32x512 .f32) :
    tot z (ix3 (0 : Fin 1) (0 : Fin 1) (0 : Fin 1)) = ∑ n : Fin 64, ∑ t : Fin 32, ∑ d : Fin 512, z (ix3 n t d) := by
  unfold tot
  refine (cast_ab_ab1_apply _ shapeCasts_S1x1_S1x1x1 (0 : Fin 1) (0 : Fin 1) (0 : Fin 1)).trans ?_
  refine (sum_ax0_apply _ reduces_S64x1x1_S1x1 (.inl rfl) rfl (0 : Fin 1) (0 : Fin 1)).trans ?_
  refine Finset.sum_congr rfl fun n _ => ?_
  refine (cast_ab_ab1_apply _ shapeCasts_S64x1_S64x1x1 n (0 : Fin 1) (0 : Fin 1)).trans ?_
  refine (sum_ax1_apply _ reduces_S64x32x1_S64x1 (.inl rfl) rfl n (0 : Fin 1)).trans ?_
  refine Finset.sum_congr rfl fun t _ => ?_
  refine (cast_ab_ab1_apply _ shapeCasts_S64x32_S64x32x1 n t (0 : Fin 1)).trans ?_
  exact sum_ax2_apply _ reduces_S64x32x512_S64x32 (.inl rfl) rfl n t

/-- The total of an array over the count word, as a one-entry array. -/
def meanVec (z : FVec Ideal S64x32x512 .f32) : FVec Ideal S1x1x1 .f32 :=
  divf (tot z) (broadcast S1x1x1 (Scalar.ofBits .f32 0x49800000#32))

/-- The array less its mean. -/
def centred (z : FVec Ideal S64x32x512 .f32) : FVec Ideal S64x32x512 .f32 :=
  subf z (broadcastTo S64x32x512 (meanVec z) broadcasts_S1x1x1_S64x32x512)

/-- The reciprocal square root of the variance plus the epsilon word, as a one-entry array. -/
def invVec (z : FVec Ideal S64x32x512 .f32) : FVec Ideal S1x1x1 .f32 :=
  rsqrt (addf (meanVec (mulf (centred z) (centred z))) (broadcast S1x1x1 (Scalar.ofBits .f32 0x3727C5AC#32)))

/-- The normalised array. -/
def lnVec (z : FVec Ideal S64x32x512 .f32) : FVec Ideal S64x32x512 .f32 :=
  mulf (centred z) (broadcastTo S64x32x512 (invVec z) broadcasts_S1x1x1_S64x32x512)

theorem meanVec_apply (z : FVec Ideal S64x32x512 .f32) :
    meanVec z (ix3 (0 : Fin 1) (0 : Fin 1) (0 : Fin 1))
      = Ideal.div (∑ n : Fin 64, ∑ t : Fin 32, ∑ d : Fin 512, z (ix3 n t d)) cCount := by
  unfold meanVec
  rw [divf_apply, tot_apply]
  rfl

theorem centred_apply (z : FVec Ideal S64x32x512 .f32) (n : Fin 64) (t : Fin 32) (d : Fin 512) :
    centred z (ix3 n t d) = z (ix3 n t d) - meanVec z (ix3 (0 : Fin 1) (0 : Fin 1) (0 : Fin 1)) := by
  unfold centred
  rw [subf_apply, bcast_one_apply]

theorem invVec_apply (z : FVec Ideal S64x32x512 .f32) :
    invVec z (ix3 (0 : Fin 1) (0 : Fin 1) (0 : Fin 1))
      = Ideal.rsqrt (meanVec (mulf (centred z) (centred z)) (ix3 (0 : Fin 1) (0 : Fin 1) (0 : Fin 1)) + cEps) := rfl

theorem lnVec_apply (z : FVec Ideal S64x32x512 .f32) (n : Fin 64) (t : Fin 32) (d : Fin 512) :
    lnVec z (ix3 n t d) = centred z (ix3 n t d) * invVec z (ix3 (0 : Fin 1) (0 : Fin 1) (0 : Fin 1)) := by
  unfold lnVec
  rw [mulf_apply, bcast_one_apply]

/-- The normalised array at (n, t, d), from the array's entries by coordinates. -/
theorem lnVec_eq (z : FVec Ideal S64x32x512 .f32) (Z : Arr3) (hZ : ∀ n t d, z (ix3 n t d) = Z n t d)
    (n : Fin 64) (t : Fin 32) (d : Fin 512) :
    lnVec z (ix3 n t d)
      = (Z n t d - Ideal.div (sum3 Z) cCount)
          * Ideal.rsqrt (Ideal.div (sum3 fun n t o => (Z n t o - Ideal.div (sum3 Z) cCount) * (Z n t o - Ideal.div (sum3 Z) cCount)) cCount + cEps) := by
  have hm : meanVec z (ix3 (0 : Fin 1) (0 : Fin 1) (0 : Fin 1)) = Ideal.div (sum3 Z) cCount := by
    rw [meanVec_apply]; unfold sum3; simp only [hZ]
  have hc : ∀ n t d, centred z (ix3 n t d) = Z n t d - Ideal.div (sum3 Z) cCount := fun n t d => by
    rw [centred_apply, hm, hZ]
  rw [lnVec_apply, hc, invVec_apply, meanVec_apply]
  simp only [mulf_apply, hc]
  rfl

end Ln

/-! ## The normalisation kernel's body -/

section Region1

/-- Output projection plus bias plus residual, as the [64, 32, 512] array the normalisation acts on. -/
def zVec (v0 : Vec Ideal S1x64x32x512 .bf16) (v3 : Vec Ideal S512x512 .bf16) (v6 : Vec Ideal S512 .f32)
    (v10 : Vec Ideal S1x64x32x512 .f32) : FVec Ideal S64x32x512 .f32 :=
  have v1 : FVec Ideal S64x32x512 .bf16 := shapeCast S64x32x512 v0 shapeCasts_S1x64x32x512_S64x32x512
  have v2 : FVec Ideal S2048x512 .bf16 := shapeCast S2048x512 v1 shapeCasts_S64x32x512_S2048x512
  have v4 : FVec Ideal S512x512 .bf16 := shapeCast S512x512 v3 shapeCasts_S512x512_S512x512
  have cst : FVec Ideal S2048x512 .f32 := constant S2048x512 .f32 0x00000000#32
  have v5 : FVec Ideal S2048x512 .f32 := matmul dot_S2048x512_S512x512_S2048x512_1_0_0_1_n_n none v2 v4 cst
  have v7 : FVec Ideal S1x512 .f32 := shapeCast S1x512 v6 shapeCasts_S512_S1x512
  have v8 : FVec Ideal S2048x512 .f32 := broadcastTo S2048x512 v7 broadcasts_S1x512_S2048x512
  have v9 : FVec Ideal S2048x512 .f32 := addf v5 v8
  have v11 : FVec Ideal S64x32x512 .f32 := shapeCast S64x32x512 v10 shapeCasts_S1x64x32x512_S64x32x512
  have v12 : FVec Ideal S64x32x512 .f32 := shapeCast S64x32x512 v9 shapeCasts_S2048x512_S64x32x512
  addf v11 v12

/-- What the normalisation kernel computes before the affine map: the normalised array of the projected, biased,
    residual-added input. -/
theorem k1_pay2_eq (v0 : Vec Ideal S1x64x32x512 .bf16) (v3 : Vec Ideal S512x512 .bf16) (v6 : Vec Ideal S512 .f32)
    (v10 : Vec Ideal S1x64x32x512 .f32) : k1_pay2 (F := Ideal) v0 v3 v6 v10 = lnVec (zVec v0 v3 v6 v10) := rfl

theorem zVec_apply (v0 : Vec Ideal S1x64x32x512 .bf16) (v3 : Vec Ideal S512x512 .bf16) (v6 : Vec Ideal S512 .f32)
    (v10 : Vec Ideal S1x64x32x512 .f32) (n : Fin 64) (t : Fin 32) (d : Fin 512) :
    zVec v0 v3 v6 v10 (ix3 n t d)
      = v10 (ix4 (0 : Fin 1) n t d) + ((∑ k : Fin 512, v0 (ix4 (0 : Fin 1) n t k) * v3 (ix2 k d)) + v6 (ix1 d)) := by
  unfold zVec
  simp only [matmul, shapeCast_self]
  rw [Cert.LibMatmul.matmul_zero_eq dot_S2048x512_S512x512_S2048x512_1_0_0_1_n_n rfl rfl rfl rfl rfl rfl,
    Cert.LibRowOps.row_bcast]
  rw [addf_apply, shapeCast_1abc_abc_apply, cast_rows_apply, addf_apply, Cert.LibMatmul.MM_apply]
  simp only [cast_flat_apply, shapeCast_1abc_abc_apply]

theorem k1_pay1_apply (v37 : FVec Ideal S64x32x512 .f32) (v38 v40 : Vec Ideal S64x32x512 .f32)
    (n : Fin 64) (t : Fin 32) (d : Fin 512) :
    k1_pay1 (F := Ideal) v37 v38 v40 (ix4 (0 : Fin 1) n t d) = v37 (ix3 n t d) * v38 (ix3 n t d) + v40 (ix3 n t d) := by
  unfold k1_pay1
  exact shapeCast_abc_1abc_apply _ shapeCasts_S64x32x512_S1x64x32x512 (0 : Fin 1) n t d

theorem out1_6_eq (x0 : Vec Ideal S1x64x32x512 .bf16) (x1 : Vec Ideal S1x64x32x512 .f32) (x2 : Vec Ideal S512x512 .bf16)
    (x3 : Vec Ideal S512 .f32) (x4 x5 : Vec Ideal S64x32x512 .f32) :
    out1_6 (F := Ideal) x0 x1 x2 x3 x4 x5 = k1_pay1 (k1_pay2 x0 x2 x3 x1) x4 x5 := by
  unfold out1_6
  rw [View.canon_unit_zero hz4]
  simp only [View.ld_unit_zero (S := S1x64x32x512) hz4, View.ld_unit_zero (S := S512x512) hz2,
    View.ld_unit_zero (S := S512) hz1, View.ld_unit_zero (S := S64x32x512) hz3]

end Region1

/-! ## The feed-forward kernel's body -/

section Region2

theorem out2_5_eq (x0 : Vec Ideal S1024x512 .f32) (x1 : Vec Ideal S512x2048 .bf16) (x2 : Vec Ideal S2048 .f32)
    (x3 : Vec Ideal S2048x512 .bf16) (x4 : Vec Ideal S512 .f32) :
    out2_5 (F := Ideal) x0 x1 x2 x3 x4 = k2_pay1 x0 x1 x2 x3 x4 := by
  unfold out2_5
  rw [View.canon_unit_zero hz2]
  simp only [View.ld_unit_zero (S := S1024x512) hz2, View.ld_unit_zero (S := S512x2048) hz2,
    View.ld_unit_zero (S := S2048) hz1, View.ld_unit_zero (S := S2048x512) hz2, View.ld_unit_zero (S := S512) hz1]

/-- The feed-forward payload at row r, column o. -/
theorem k2_pay1_apply (v0 : Vec Ideal S1024x512 .f32) (v3 : Vec Ideal S512x2048 .bf16) (v6 : Vec Ideal S2048 .f32)
    (v13 : Vec Ideal S2048x512 .bf16) (v16 : Vec Ideal S512 .f32) (r : Fin 1024) (o : Fin 512) :
    k2_pay1 (F := Ideal) v0 v3 v6 v13 v16 (ix2 r o)
      = v0 (ix2 r o) + ((∑ j : Fin 2048, max ((∑ d : Fin 512, v0 (ix2 r d) * v3 (ix2 d j)) + v6 (ix1 j)) 0 * v13 (ix2 j o))
          + v16 (ix1 o)) := by
  unfold k2_pay1
  simp only [shapeCast_self, matmul]
  rw [Cert.LibMatmul.matmul_zero_eq dot_S1024x512_S512x2048_S1024x2048_1_0_0_1_n_n rfl rfl rfl rfl rfl rfl,
    Cert.LibMatmul.matmul_zero_eq dot_S1024x2048_S2048x512_S1024x512_1_0_0_1_n_n rfl rfl rfl rfl rfl rfl,
    Cert.LibRowOps.row_bcast, Cert.LibRowOps.row_bcast]
  simp only [addf_apply, Cert.LibMatmul.MM_apply, truncf_apply, maximumf_apply, broadcast_apply, Ideal.ofBits_def,
    Ideal.ofBits_zero_f32]

end Region2

end Cert.KernelIdeal.BodyLnFfn.HC

namespace Cert.KernelIdeal.BodyLnFfn

open Cert.KernelIdeal Cert.KernelIdeal.Gen Idealize.ShloMosaic Idealize.ShloMosaic.TcCoe Idealize.ShloMosaic.ValueIdx Idealize.SL.Sem Cert.Spec

/-- The layer-normalisation kernel's store read at (0, n, t, d). -/
theorem out1_6_apply (x0 : Vec Ideal S1x64x32x512 .bf16) (x1 : Vec Ideal S1x64x32x512 .f32) (x2 : Vec Ideal S512x512 .bf16)
    (x3 : Vec Ideal S512 .f32) (x4 x5 : Vec Ideal S64x32x512 .f32) (n : Fin 64) (t : Fin 32) (d : Fin 512) :
    out1_6 (F := Ideal) x0 x1 x2 x3 x4 x5 (ix4 (0 : Fin 1) n t d)
      = lnOf (fun n t d => x0 (ix4 (0 : Fin 1) n t d)) (fun n t d => x1 (ix4 (0 : Fin 1) n t d))
          (fun o d => x2 (ix2 d o)) (fun o => x3 (ix1 o)) (fun n t d => x4 (ix3 n t d)) (fun n t d => x5 (ix3 n t d)) n t d := by
  rw [HC.out1_6_eq, HC.k1_pay1_apply, HC.k1_pay2_eq,
    HC.lnVec_eq _
      (fun n t o => x1 (ix4 (0 : Fin 1) n t o)
        + lin (fun n t d => x0 (ix4 (0 : Fin 1) n t d)) (fun o d => x2 (ix2 d o)) (fun o => x3 (ix1 o)) n t o)
      (fun n t d => HC.zVec_apply x0 x2 x3 x1 n t d)]
  rfl

/-- The feed-forward kernel's store read at row r, column o: the row map of row r of the input block. -/
theorem out2_5_apply (x0 : Vec Ideal S1024x512 .f32) (x1 : Vec Ideal S512x2048 .bf16) (x2 : Vec Ideal S2048 .f32)
    (x3 : Vec Ideal S2048x512 .bf16) (x4 : Vec Ideal S512 .f32) (r : Fin 1024) (o : Fin 512) :
    out2_5 (F := Ideal) x0 x1 x2 x3 x4 (ix2 r o)
      = ffnRow (fun d => x0 (ix2 r d)) (fun j d => x1 (ix2 d j)) (fun j => x2 (ix1 j)) (fun o j => x3 (ix2 j o))
          (fun o => x4 (ix1 o)) o := by
  rw [HC.out2_5_eq, HC.k2_pay1_apply]
  rfl

end Cert.KernelIdeal.BodyLnFfn

end
-- ==== Proof.FinalsAtt.lean ====
/- The attention region's output array after its 32 points: point b reads batch element b of the input [32, 64, 32, 512]
   and every other input whole, and writes batch element b of the output; the 32 blocks tile the output, so it ends as
   the split attention output of each batch element, read by coordinates. -/
import proofs.«155221_j24060406792682_2_alg».proof.Proof.Spec
import proofs.«155221_j24060406792682_2_alg».proof.Proof.Gen.KernelIdeal.Frame
import Idealize.ShloMosaic.Lib.ValueIdx
import Idealize.ShloMosaic.Lib.Pipeline.Value
import proofs.«155221_j24060406792682_2_alg».proof.Proof.AttBody

noncomputable section

namespace Cert.KernelIdeal.Finals

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b)) (c : Dev nD)

namespace R0

/-- Window 0's block at point t is at index (t, 0, 0, 0). -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- So input window 0's block at point t is batch element t of its array. -/
theorem blk0 (t : Fin cfg0.N) (b : Fin 32) (hb : b.val = t.val) (n : Fin 64) (s : Fin 32) (d : Fin 512) :
    (iblk0 V c 0 t : Vec Ideal S1x64x32x512 .f32) (ix4 (0 : Fin 1) n s d)
      = (V c main_v0 : S32x64x32x512.Idx → Elt Ideal .f32) (ix4 b n s d) := by
  obtain ⟨e0, e1, e2, e3⟩ := idx0 t
  unfold iblk0
  rw [View.read_apply]
  show V c main_v0 _ = V c main_v0 _
  congr 1
  funext a; apply Fin.ext
  match a with
  | ⟨0, _⟩ => show win0_0.index t (0 : Fin 4) * 1 + 1 * 0 = b.val; rw [e0, hb]; omega
  | ⟨1, _⟩ => show win0_0.index t (1 : Fin 4) * 64 + 1 * n.val = n.val; rw [e1]; omega
  | ⟨2, _⟩ => show win0_0.index t (2 : Fin 4) * 32 + 1 * s.val = s.val; rw [e2]; omega
  | ⟨3, _⟩ => show win0_0.index t (3 : Fin 4) * 512 + 1 * d.val = d.val; rw [e3]; omega

/-- Window 1 has one block, at index 0 on every axis, over the grid. -/
theorem idx1 : ∀ t : Fin cfg0.N, win0_1.index t (0 : Fin 2) = 0 ∧ win0_1.index t (1 : Fin 2) = 0 :=
  (by decide +kernel : ∀ t : Fin grid0.N, _)

/-- So input window 1's block at every point is its whole array. -/
theorem blk1 (t : Fin cfg0.N) : (iblk0 V c 1 t : Vec Ideal S64x512 .f32) = (V c main_v1 : S64x512.Idx → Elt Ideal .f32) := by
  obtain ⟨e0, e1⟩ := idx1 t
  funext y
  unfold iblk0
  rw [View.read_apply]
  show V c main_v1 _ = V c main_v1 _
  congr 1
  funext a; apply Fin.ext
  match a with
  | ⟨0, _⟩ => show win0_1.index t (0 : Fin 2) * 64 + 1 * (y 0).val = (y 0).val; rw [e0]; omega
  | ⟨1, _⟩ => show win0_1.index t (1 : Fin 2) * 512 + 1 * (y 1).val = (y 1).val; rw [e1]; omega

/-- Window 2 has one block, at index 0 on every axis, over the grid. -/
theorem idx2 : ∀ t : Fin cfg0.N, win0_2.index t (0 : Fin 2) = 0 ∧ win0_2.index t (1 : Fin 2) = 0 :=
  (by decide +kernel : ∀ t : Fin grid0.N, _)

/-- So input window 2's block at every point is its whole array. -/
theorem blk2 (t : Fin cfg0.N) : (iblk0 V c 2 t : Vec Ideal S512x512 .bf16) = (V c main_v5 : S512x512.Idx → Elt Ideal .bf16) := by
  obtain ⟨e0, e1⟩ := idx2 t
  funext y
  unfold iblk0
  rw [View.read_apply]
  show V c main_v5 _ = V c main_v5 _
  congr 1
  funext a; apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- Window 3 has one block, at index 0 on every axis, over the grid. -/
theorem idx3 : ∀ t : Fin cfg0.N, win0_3.index t (0 : Fin 1) = 0 :=
  (by decide +kernel : ∀ t : Fin grid0.N, _)

/-- So input window 3's block at every point is its whole array. -/
theorem blk3 (t : Fin cfg0.N) : (iblk0 V c 3 t : Vec Ideal S512 .f32) = (V c main_arg2 : S512.Idx → Elt Ideal .f32) := by
  have e0 := idx3 t
  funext y
  unfold iblk0
  rw [View.read_apply]
  show V c main_arg2 _ = V c main_arg2 _
  congr 1
  funext a; apply Fin.ext
  match a with
  | ⟨0, _⟩ => show win0_3.index t (0 : Fin 1) * 512 + 1 * (y 0).val = (y 0).val; rw [e0]; omega

/-- Window 4 has one block, at index 0 on every axis, over the grid. -/
theorem idx4 : ∀ t : Fin cfg0.N, win0_4.index t (0 : Fin 2) = 0 ∧ win0_4.index t (1 : Fin 2) = 0 :=
  (by decide +kernel : ∀ t : Fin grid0.N, _)

/-- So input window 4's block at every point is its whole array. -/
theorem blk4 (t : Fin cfg0.N) : (iblk0 V c 4 t : Vec Ideal S512x512 .bf16) = (V c main_v7 : S512x512.Idx → Elt Ideal .bf16) := by
  obtain ⟨e0, e1⟩ := idx4 t
  funext y
  unfold iblk0
  rw [View.read_apply]
  show V c main_v7 _ = V c main_v7 _
  congr 1
  funext a; apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-- Window 5 has one block, at index 0 on every axis, over the grid. -/
theorem idx5 : ∀ t : Fin cfg0.N, win0_5.index t (0 : Fin 1) = 0 :=
  (by decide +kernel : ∀ t : Fin grid0.N, _)

/-- So input window 5's block at every point is its whole array. -/
theorem blk5 (t : Fin cfg0.N) : (iblk0 V c 5 t : Vec Ideal S512 .f32) = (V c main_arg4 : S512.Idx → Elt Ideal .f32) := by
  have e0 := idx5 t
  funext y
  unfold iblk0
  rw [View.read_apply]
  show V c main_arg4 _ = V c main_arg4 _
  congr 1
  funext a; apply Fin.ext
  match a with
  | ⟨0, _⟩ => show win0_5.index t (0 : Fin 1) * 512 + 1 * (y 0).val = (y 0).val; rw [e0]; omega

/-- Window 6 has one block, at index 0 on every axis, over the grid. -/
theorem idx6 : ∀ t : Fin cfg0.N, win0_6.index t (0 : Fin 2) = 0 ∧ win0_6.index t (1 : Fin 2) = 0 :=
  (by decide +kernel : ∀ t : Fin grid0.N, _)

/-- So input window 6's block at every point is its whole array. -/
theorem blk6 (t : Fin cfg0.N) : (iblk0 V c 6 t : Vec Ideal S512x512 .bf16) = (V c main_v9 : S512x512.Idx → Elt Ideal .bf16) := by
  obtain ⟨e0, e1⟩ := idx6 t
  funext y
  unfold iblk0
  rw [View.read_apply]
  show V c main_v9 _ = V c main_v9 _
  congr 1
  funext a; apply Fin.ext
  match a with
  | ⟨0, _⟩ => show win0_6.index t (0 : Fin 2) * 512 + 1 * (y 0).val = (y 0).val; rw [e0]; omega
  | ⟨1, _⟩ => show win0_6.index t (1 : Fin 2) * 512 + 1 * (y 1).val = (y 1).val; rw [e1]; omega

/-- Window 7 has one block, at index 0 on every axis, over the grid. -/
theorem idx7 : ∀ t : Fin cfg0.N, win0_7.index t (0 : Fin 1) = 0 :=
  (by decide +kernel : ∀ t : Fin grid0.N, _)

/-- So input window 7's block at every point is its whole array. -/
theorem blk7 (t : Fin cfg0.N) : (iblk0 V c 7 t : Vec Ideal S512 .f32) = (V c main_arg6 : S512.Idx → Elt Ideal .f32) := by
  have e0 := idx7 t
  funext y
  unfold iblk0
  rw [View.read_apply]
  show V c main_arg6 _ = V c main_arg6 _
  congr 1
  funext a; apply Fin.ext
  match a with
  | ⟨0, _⟩ => show win0_7.index t (0 : Fin 1) * 512 + 1 * (y 0).val = (y 0).val; rw [e0]; omega

/-- Window 8 has one block, at index 0 on every axis, over the grid. -/
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

/-- So input window 8's block at every point is its whole array. -/
theorem blk8 (t : Fin cfg0.N) : (iblk0 V c 8 t : Vec Ideal S8x64x64 .f32) = (V c main_v2 : S8x64x64.Idx → Elt Ideal .f32) := by
  obtain ⟨e0, e1, e2⟩ := idx8 t
  funext y
  unfold iblk0
  rw [View.read_apply]
  show V c main_v2 _ = V c main_v2 _
  congr 1
  funext a; apply Fin.ext
  match a with
  | ⟨0, _⟩ => show win0_8.index t (0 : Fin 3) * 8 + 1 * (y 0).val = (y 0).val; rw [e0]; omega
  | ⟨1, _⟩ => show win0_8.index t (1 : Fin 3) * 64 + 1 * (y 1).val = (y 1).val; rw [e1]; omega
  | ⟨2, _⟩ => show win0_8.index t (2 : Fin 3) * 64 + 1 * (y 2).val = (y 2).val; rw [e2]; omega

/-- Window 9 has one block, at index 0 on every axis, over the grid. -/
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

/-- So input window 9's block at every point is its whole array. -/
theorem blk9 (t : Fin cfg0.N) : (iblk0 V c 9 t : Vec Ideal S8x1x1 .f32) = (V c main_v3 : S8x1x1.Idx → Elt Ideal .f32) := by
  obtain ⟨e0, e1, e2⟩ := idx9 t
  funext y
  unfold iblk0
  rw [View.read_apply]
  show V c main_v3 _ = V c main_v3 _
  congr 1
  funext a; apply Fin.ext
  match a with
  | ⟨0, _⟩ => show win0_9.index t (0 : Fin 3) * 8 + 1 * (y 0).val = (y 0).val; rw [e0]; omega
  | ⟨1, _⟩ => show win0_9.index t (1 : Fin 3) * 1 + 1 * (y 1).val = (y 1).val; rw [e1]; omega
  | ⟨2, _⟩ => show win0_9.index t (2 : Fin 3) * 1 + 1 * (y 2).val = (y 2).val; rw [e2]; omega

/-- Window 10's block at point t is at index (t, 0, 0, 0). -/
theorem idx10 : ∀ t : Fin cfg0.N, win0_10.index t (0 : Fin 4) = t.val ∧ win0_10.index t (1 : Fin 4) = 0
    ∧ win0_10.index t (2 : Fin 4) = 0 ∧ win0_10.index t (3 : Fin 4) = 0 :=
  (by decide +kernel : ∀ t : Fin grid0.N, _)

/-- The split attention output of every batch element of an array [32, 64, 32, 512], as one array. -/
def G (A0 : Vec Ideal S32x64x32x512 .f32) (A1 : Vec Ideal S64x512 .f32) (A2 : Vec Ideal S512x512 .bf16) (A3 : Vec Ideal S512 .f32)
    (A4 : Vec Ideal S512x512 .bf16) (A5 : Vec Ideal S512 .f32) (A6 : Vec Ideal S512x512 .bf16) (A7 : Vec Ideal S512 .f32)
    (A8 : Vec Ideal S8x64x64 .f32) (A9 : Vec Ideal S8x1x1 .f32) : S32x64x32x512.Idx → EReal := fun i =>
  attOf true (fun n t d => A0 (ix4 (i 0) n t d)) (fun n d => A1 (ix2 n d))
    (fun o d => A2 (ix2 d o)) (fun o => A3 (ix1 o)) (fun o d => A4 (ix2 d o)) (fun o => A5 (ix1 o))
    (fun o d => A6 (ix2 d o)) (fun o => A7 (ix1 o)) (fun h n m => A8 (ix3 h n m))
    (fun h => A9 (ix3 h (0 : Fin 1) (0 : Fin 1))) (i 1) (i 2) (i 3)

/-- One point's store, element by element: when the batch block x0 is batch element t of A0 and the other blocks are
    whole arrays, the body's result at y is the attention output at the array index i that y sits at. -/
theorem point (x0 : Vec Ideal S1x64x32x512 .f32) (x1 : Vec Ideal S64x512 .f32) (x2 : Vec Ideal S512x512 .bf16)
    (x3 : Vec Ideal S512 .f32) (x4 : Vec Ideal S512x512 .bf16) (x5 : Vec Ideal S512 .f32) (x6 : Vec Ideal S512x512 .bf16)
    (x7 : Vec Ideal S512 .f32) (x8 : Vec Ideal S8x64x64 .f32) (x9 : Vec Ideal S8x1x1 .f32)
    (A0 : Vec Ideal S32x64x32x512 .f32) (A1 : Vec Ideal S64x512 .f32) (A2 : Vec Ideal S512x512 .bf16) (A3 : Vec Ideal S512 .f32)
    (A4 : Vec Ideal S512x512 .bf16) (A5 : Vec Ideal S512 .f32) (A6 : Vec Ideal S512x512 .bf16) (A7 : Vec Ideal S512 .f32)
    (A8 : Vec Ideal S8x64x64 .f32) (A9 : Vec Ideal S8x1x1 .f32) (t : Nat)
    (h0 : ∀ (b : Fin 32), b.val = t → ∀ (n : Fin 64) (s : Fin 32) (d : Fin 512), x0 (ix4 (0 : Fin 1) n s d) = A0 (ix4 b n s d))
    (h1 : x1 = A1) (h2 : x2 = A2) (h3 : x3 = A3) (h4 : x4 = A4) (h5 : x5 = A5) (h6 : x6 = A6) (h7 : x7 = A7)
    (h8 : x8 = A8) (h9 : x9 = A9)
    (y : S1x64x32x512.Idx) (i : S32x64x32x512.Idx) (hi0 : (i 0).val = t) (hi1 : (i 1).val = (y 1).val)
    (hi2 : (i 2).val = (y 2).val) (hi3 : (i 3).val = (y 3).val) :
    out0_10 (F := Ideal) x0 x1 x2 x3 x4 x5 x6 x7 x8 x9 y = G A0 A1 A2 A3 A4 A5 A6 A7 A8 A9 i := by
  subst h1 h2 h3 h4 h5 h6 h7 h8 h9
  obtain ⟨z, n, s, d, rfl⟩ : ∃ (z : Fin 1) (n : Fin 64) (s : Fin 32) (d : Fin 512), y = ix4 z n s d :=
    ⟨y 0, y 1, y 2, y 3, eq_ix4 y⟩
  obtain rfl : z = 0 := Subsingleton.elim _ _
  obtain ⟨b, n', s', d', rfl⟩ : ∃ (b : Fin 32) (n' : Fin 64) (s' : Fin 32) (d' : Fin 512), i = ix4 b n' s' d' :=
    ⟨i 0, i 1, i 2, i 3, eq_ix4 i⟩
  obtain rfl : n' = n := Fin.ext hi1
  obtain rfl : s' = s := Fin.ext hi2
  obtain rfl : d' = d := Fin.ext hi3
  rw [AttBody.out0_10_apply]
  have e : (fun n t d => x0 (ix4 (0 : Fin 1) n t d)) = fun n t d => A0 (ix4 b n t d) :=
    funext fun n => funext fun t => funext fun d => h0 b hi0 n t d
  rw [e]
  rfl

/-- What point t writes back is block t of the one array. -/
theorem flushed_eq (t : Fin cfg0.N) :
    (dat0 (F := Ideal) V c).flushed 10 t
      = ((cfg0.win 10).blk t).view.read (Elt Ideal) (G (V c main_v0) (V c main_v1) (V c main_v5) (V c main_arg2) (V c main_v7) (V c main_arg4) (V c main_v9)
            (V c main_arg6) (V c main_v2) (V c main_v3)) := by
  show (cfg0.win 10).cut (grid0.coords t) ((dat0 V c).after 10 t) = _
  rw [after0_10]
  obtain ⟨e0, e1, e2, e3⟩ := idx10 t
  funext y
  refine point (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t)
    (V c main_v0) (V c main_v1) (V c main_v5) (V c main_arg2) (V c main_v7) (V c main_arg4) (V c main_v9) (V c main_arg6)
    (V c main_v2) (V c main_v3) t.val
    (fun b hb n s d => blk0 V c t b hb n s d) (blk1 V c t) (blk2 V c t) (blk3 V c t) (blk4 V c t) (blk5 V c t)
    (blk6 V c t) (blk7 V c t) (blk8 V c t) (blk9 V c t)
    y (((cfg0.win 10).blk t).view.emb y) ?_ ?_ ?_ ?_
  · show win0_10.index t (0 : Fin 4) * 1 + 1 * (y 0).val = t.val
    have hy : (y 0).val < 1 := (y 0).isLt
    rw [e0]; omega
  · show win0_10.index t (1 : Fin 4) * 64 + 1 * (y 1).val = (y 1).val
    rw [e1]; omega
  · show win0_10.index t (2 : Fin 4) * 32 + 1 * (y 2).val = (y 2).val
    rw [e2]; omega
  · show win0_10.index t (3 : Fin 4) * 512 + 1 * (y 3).val = (y 3).val
    rw [e3]; omega

/-- An index of the array is in point t's block iff each coordinate is in the block's range on its axis. -/
theorem mem_blk (t : Fin cfg0.N) (i : S32x64x32x512.Idx) :
    i ∈ ((cfg0.win 10).blk t).view.set ↔ ∀ a : Fin 4, win0_10.index t a * S1x64x32x512.size a ≤ (i a).val ∧ (i a).val < win0_10.index t a * S1x64x32x512.size a + S1x64x32x512.size a := by
  show i ∈ ((View.whole main_v16).slice (win0_10.rect t)).set ↔ _
  rw [View.set_slice_whole, Rect.mem_set_unit]
  exact Iff.rfl

/-- Batch element b is the block of point b. -/
theorem cover (i : S32x64x32x512.Idx) :
    ∃ t : Fin cfg0.N, (cfg0.win 10).flush t = true ∧ i ∈ ((cfg0.win 10).blk t).view.set := by
  have hi0 : (i 0).val < 32 := (i 0).isLt
  have hi1 : (i 1).val < 64 := (i 1).isLt
  have hi2 : (i 2).val < 32 := (i 2).isLt
  have hi3 : (i 3).val < 512 := (i 3).isLt
  have hN : grid0.N = 32 := N_0
  obtain ⟨t, ht⟩ : ∃ t : Fin cfg0.N, t.val = (i 0).val :=
    ⟨⟨(i 0).val, by show (i 0).val < grid0.N; rw [hN]; exact hi0⟩, rfl⟩
  obtain ⟨e0, e1, e2, e3⟩ := idx10 t
  refine ⟨t, flush0_10 t, ?_⟩
  rw [mem_blk]
  intro a
  match a with
  | ⟨0, _⟩ => show win0_10.index t (0 : Fin 4) * 1 ≤ (i 0).val ∧ (i 0).val < win0_10.index t (0 : Fin 4) * 1 + 1; rw [e0, ht]; omega
  | ⟨1, _⟩ => show win0_10.index t (1 : Fin 4) * 64 ≤ (i 1).val ∧ (i 1).val < win0_10.index t (1 : Fin 4) * 64 + 64; rw [e1]; omega
  | ⟨2, _⟩ => show win0_10.index t (2 : Fin 4) * 32 ≤ (i 2).val ∧ (i 2).val < win0_10.index t (2 : Fin 4) * 32 + 32; rw [e2]; omega
  | ⟨3, _⟩ => show win0_10.index t (3 : Fin 4) * 512 ≤ (i 3).val ∧ (i 3).val < win0_10.index t (3 : Fin 4) * 512 + 512; rw [e3]; omega

/-- The blocks tile the array, so after the last point it is that one array. -/
theorem arr : (dat0 (F := Ideal) V c).arrAt 10 cfg0.N = G (V c main_v0) (V c main_v1) (V c main_v5) (V c main_arg2) (V c main_v7) (V c main_arg4) (V c main_v9)
    (V c main_arg6) (V c main_v2) (V c main_v3) :=
  (dat0 V c).arrAt_eq_of_cover 10 (G (V c main_v0) (V c main_v1) (V c main_v5) (V c main_arg2) (V c main_v7) (V c main_arg4) (V c main_v9)
    (V c main_arg6) (V c main_v2) (V c main_v3)) (fun t _ => flushed_eq V c t) cover

end R0

end Cert.KernelIdeal.Finals

end
-- ==== Proof.FinalsLn.lean ====
/- The layer-normalisation region's output array after its 32 points: point b reads batch element b of the attention
   output and of the input, every other input whole, and writes batch element b; the 32 blocks tile the output, so it ends
   as the projected, normalised value of each batch element, read by coordinates. -/
import proofs.«155221_j24060406792682_2_alg».proof.Proof.Spec
import proofs.«155221_j24060406792682_2_alg».proof.Proof.Gen.KernelIdeal.Frame
import Idealize.ShloMosaic.Lib.ValueIdx
import Idealize.ShloMosaic.Lib.Pipeline.Value
import proofs.«155221_j24060406792682_2_alg».proof.Proof.BodyLnFfn

noncomputable section

namespace Cert.KernelIdeal.Finals

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b)) (c : Dev nD)

namespace R1

/-- Window 0's block at point t is at index (t, 0, 0, 0). -/
theorem idx0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, _)

/-- So input window 0's block at point t is batch element t of its array. -/
theorem blk0 (t : Fin cfg1.N) (b : Fin 32) (hb : b.val = t.val) (n : Fin 64) (s : Fin 32) (d : Fin 512) :
    (iblk1 V c 0 t : Vec Ideal S1x64x32x512 .bf16) (ix4 (0 : Fin 1) n s d)
      = (V c main_v16 : S32x64x32x512.Idx → Elt Ideal .bf16) (ix4 b n s d) := by
  obtain ⟨e0, e1, e2, e3⟩ := idx0 t
  unfold iblk1
  rw [View.read_apply]
  show V c main_v16 _ = V c main_v16 _
  congr 1
  funext a; apply Fin.ext
  match a with
  | ⟨0, _⟩ => show win1_0.index t (0 : Fin 4) * 1 + 1 * 0 = b.val; rw [e0, hb]; omega
  | ⟨1, _⟩ => show win1_0.index t (1 : Fin 4) * 64 + 1 * n.val = n.val; rw [e1]; omega
  | ⟨2, _⟩ => show win1_0.index t (2 : Fin 4) * 32 + 1 * s.val = s.val; rw [e2]; omega
  | ⟨3, _⟩ => show win1_0.index t (3 : Fin 4) * 512 + 1 * d.val = d.val; rw [e3]; omega

/-- Window 1's block at point t is at index (t, 0, 0, 0). -/
theorem idx1 : ∀ t : Fin cfg1.N, win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

/-- So input window 1's block at point t is batch element t of its array. -/
theorem blk1 (t : Fin cfg1.N) (b : Fin 32) (hb : b.val = t.val) (n : Fin 64) (s : Fin 32) (d : Fin 512) :
    (iblk1 V c 1 t : Vec Ideal S1x64x32x512 .f32) (ix4 (0 : Fin 1) n s d)
      = (V c main_v0 : S32x64x32x512.Idx → Elt Ideal .f32) (ix4 b n s d) := by
  obtain ⟨e0, e1, e2, e3⟩ := idx1 t
  unfold iblk1
  rw [View.read_apply]
  show V c main_v0 _ = V c main_v0 _
  congr 1
  funext a; apply Fin.ext
  match a with
  | ⟨0, _⟩ => show win1_1.index t (0 : Fin 4) * 1 + 1 * 0 = b.val; rw [e0, hb]; omega
  | ⟨1, _⟩ => show win1_1.index t (1 : Fin 4) * 64 + 1 * n.val = n.val; rw [e1]; omega
  | ⟨2, _⟩ => show win1_1.index t (2 : Fin 4) * 32 + 1 * s.val = s.val; rw [e2]; omega
  | ⟨3, _⟩ => show win1_1.index t (3 : Fin 4) * 512 + 1 * d.val = d.val; rw [e3]; omega

/-- Window 2 has one block, at index 0 on every axis, over the grid. -/
theorem idx2 : ∀ t : Fin cfg1.N, win1_2.index t (0 : Fin 2) = 0 ∧ win1_2.index t (1 : Fin 2) = 0 :=
  (by decide +kernel : ∀ t : Fin grid1.N, _)

/-- So input window 2's block at every point is its whole array. -/
theorem blk2 (t : Fin cfg1.N) : (iblk1 V c 2 t : Vec Ideal S512x512 .bf16) = (V c main_v11 : S512x512.Idx → Elt Ideal .bf16) := by
  obtain ⟨e0, e1⟩ := idx2 t
  funext y
  unfold iblk1
  rw [View.read_apply]
  show V c main_v11 _ = V c main_v11 _
  congr 1
  funext a; apply Fin.ext
  match a with
  | ⟨0, _⟩ => show win1_2.index t (0 : Fin 2) * 512 + 1 * (y 0).val = (y 0).val; rw [e0]; omega
  | ⟨1, _⟩ => show win1_2.index t (1 : Fin 2) * 512 + 1 * (y 1).val = (y 1).val; rw [e1]; omega

/-- Window 3 has one block, at index 0 on every axis, over the grid. -/
theorem idx3 : ∀ t : Fin cfg1.N, win1_3.index t (0 : Fin 1) = 0 :=
  (by decide +kernel : ∀ t : Fin grid1.N, _)

/-- So input window 3's block at every point is its whole array. -/
theorem blk3 (t : Fin cfg1.N) : (iblk1 V c 3 t : Vec Ideal S512 .f32) = (V c main_arg8 : S512.Idx → Elt Ideal .f32) := by
  have e0 := idx3 t
  funext y
  unfold iblk1
  rw [View.read_apply]
  show V c main_arg8 _ = V c main_arg8 _
  congr 1
  funext a; apply Fin.ext
  match a with
  | ⟨0, _⟩ => show win1_3.index t (0 : Fin 1) * 512 + 1 * (y 0).val = (y 0).val; rw [e0]; omega

/-- Window 4 has one block, at index 0 on every axis, over the grid. -/
theorem idx4 : ∀ t : Fin cfg1.N, win1_4.index t (0 : Fin 3) = 0 ∧ win1_4.index t (1 : Fin 3) = 0 ∧ win1_4.index t (2 : Fin 3) = 0 :=
  (by decide +kernel : ∀ t : Fin grid1.N, _)

/-- So input window 4's block at every point is its whole array. -/
theorem blk4 (t : Fin cfg1.N) : (iblk1 V c 4 t : Vec Ideal S64x32x512 .f32) = (V c main_arg13 : S64x32x512.Idx → Elt Ideal .f32) := by
  obtain ⟨e0, e1, e2⟩ := idx4 t
  funext y
  unfold iblk1
  rw [View.read_apply]
  show V c main_arg13 _ = V c main_arg13 _
  congr 1
  funext a; apply Fin.ext
  match a with
  | ⟨0, _⟩ => show win1_4.index t (0 : Fin 3) * 64 + 1 * (y 0).val = (y 0).val; rw [e0]; omega
  | ⟨1, _⟩ => show win1_4.index t (1 : Fin 3) * 32 + 1 * (y 1).val = (y 1).val; rw [e1]; omega
  | ⟨2, _⟩ => show win1_4.index t (2 : Fin 3) * 512 + 1 * (y 2).val = (y 2).val; rw [e2]; omega

/-- Window 5 has one block, at index 0 on every axis, over the grid. -/
theorem idx5 : ∀ t : Fin cfg1.N, win1_5.index t (0 : Fin 3) = 0 ∧ win1_5.index t (1 : Fin 3) = 0 ∧ win1_5.index t (2 : Fin 3) = 0 :=
  (by decide +kernel : ∀ t : Fin grid1.N, _)

/-- So input window 5's block at every point is its whole array. -/
theorem blk5 (t : Fin cfg1.N) : (iblk1 V c 5 t : Vec Ideal S64x32x512 .f32) = (V c main_arg14 : S64x32x512.Idx → Elt Ideal .f32) := by
  obtain ⟨e0, e1, e2⟩ := idx5 t
  funext y
  unfold iblk1
  rw [View.read_apply]
  show V c main_arg14 _ = V c main_arg14 _
  congr 1
  funext a; apply Fin.ext
  match a with
  | ⟨0, _⟩ => show win1_5.index t (0 : Fin 3) * 64 + 1 * (y 0).val = (y 0).val; rw [e0]; omega
  | ⟨1, _⟩ => show win1_5.index t (1 : Fin 3) * 32 + 1 * (y 1).val = (y 1).val; rw [e1]; omega
  | ⟨2, _⟩ => show win1_5.index t (2 : Fin 3) * 512 + 1 * (y 2).val = (y 2).val; rw [e2]; omega

/-- Window 6's block at point t is at index (t, 0, 0, 0). -/
theorem idx6 : ∀ t : Fin cfg1.N, win1_6.index t (0 : Fin 4) = t.val ∧ win1_6.index t (1 : Fin 4) = 0
    ∧ win1_6.index t (2 : Fin 4) = 0 ∧ win1_6.index t (3 : Fin 4) = 0 :=
  (by decide +kernel : ∀ t : Fin grid1.N, _)

/-- Output projection, residual and layer normalisation of every batch element of two arrays [32, 64, 32, 512], as one
    array. -/
def G (A0 : Vec Ideal S32x64x32x512 .bf16) (A1 : Vec Ideal S32x64x32x512 .f32) (A2 : Vec Ideal S512x512 .bf16)
    (A3 : Vec Ideal S512 .f32) (A4 A5 : Vec Ideal S64x32x512 .f32) : S32x64x32x512.Idx → EReal := fun i =>
  lnOf (fun n t d => A0 (ix4 (i 0) n t d)) (fun n t d => A1 (ix4 (i 0) n t d))
    (fun o d => A2 (ix2 d o)) (fun o => A3 (ix1 o)) (fun n t d => A4 (ix3 n t d)) (fun n t d => A5 (ix3 n t d))
    (i 1) (i 2) (i 3)

/-- One point's store, element by element: when the batch blocks x0, x1 are batch element t of A0, A1 and the other
    blocks are whole arrays, the body's result at y is the normalised value at the array index i that y sits at. -/
theorem point (x0 : Vec Ideal S1x64x32x512 .bf16) (x1 : Vec Ideal S1x64x32x512 .f32) (x2 : Vec Ideal S512x512 .bf16)
    (x3 : Vec Ideal S512 .f32) (x4 x5 : Vec Ideal S64x32x512 .f32)
    (A0 : Vec Ideal S32x64x32x512 .bf16) (A1 : Vec Ideal S32x64x32x512 .f32) (A2 : Vec Ideal S512x512 .bf16)
    (A3 : Vec Ideal S512 .f32) (A4 A5 : Vec Ideal S64x32x512 .f32) (t : Nat)
    (h0 : ∀ (b : Fin 32), b.val = t → ∀ (n : Fin 64) (s : Fin 32) (d : Fin 512), x0 (ix4 (0 : Fin 1) n s d) = A0 (ix4 b n s d))
    (h1 : ∀ (b : Fin 32), b.val = t → ∀ (n : Fin 64) (s : Fin 32) (d : Fin 512), x1 (ix4 (0 : Fin 1) n s d) = A1 (ix4 b n s d))
    (h2 : x2 = A2) (h3 : x3 = A3) (h4 : x4 = A4) (h5 : x5 = A5)
    (y : S1x64x32x512.Idx) (i : S32x64x32x512.Idx) (hi0 : (i 0).val = t) (hi1 : (i 1).val = (y 1).val)
    (hi2 : (i 2).val = (y 2).val) (hi3 : (i 3).val = (y 3).val) :
    out1_6 (F := Ideal) x0 x1 x2 x3 x4 x5 y = G A0 A1 A2 A3 A4 A5 i := by
  subst h2 h3 h4 h5
  obtain ⟨z, n, s, d, rfl⟩ : ∃ (z : Fin 1) (n : Fin 64) (s : Fin 32) (d : Fin 512), y = ix4 z n s d :=
    ⟨y 0, y 1, y 2, y 3, eq_ix4 y⟩
  obtain rfl : z = 0 := Subsingleton.elim _ _
  obtain ⟨b, n', s', d', rfl⟩ : ∃ (b : Fin 32) (n' : Fin 64) (s' : Fin 32) (d' : Fin 512), i = ix4 b n' s' d' :=
    ⟨i 0, i 1, i 2, i 3, eq_ix4 i⟩
  obtain rfl : n' = n := Fin.ext hi1
  obtain rfl : s' = s := Fin.ext hi2
  obtain rfl : d' = d := Fin.ext hi3
  rw [BodyLnFfn.out1_6_apply]
  have e0 : (fun n t d => x0 (ix4 (0 : Fin 1) n t d)) = fun n t d => A0 (ix4 b n t d) :=
    funext fun n => funext fun t => funext fun d => h0 b hi0 n t d
  have e1 : (fun n t d => x1 (ix4 (0 : Fin 1) n t d)) = fun n t d => A1 (ix4 b n t d) :=
    funext fun n => funext fun t => funext fun d => h1 b hi0 n t d
  rw [e0, e1]
  rfl

/-- What point t writes back is block t of the one array. -/
theorem flushed_eq (t : Fin cfg1.N) :
    (dat1 (F := Ideal) V c).flushed 6 t
      = ((cfg1.win 6).blk t).view.read (Elt Ideal) (G (V c main_v16) (V c main_v0) (V c main_v11) (V c main_arg8) (V c main_arg13) (V c main_arg14)) := by
  show (cfg1.win 6).cut (grid1.coords t) ((dat1 V c).after 6 t) = _
  rw [after1_6]
  obtain ⟨e0, e1, e2, e3⟩ := idx6 t
  funext y
  refine point (iblk1 V c 0 t) (iblk1 V c 1 t) (iblk1 V c 2 t) (iblk1 V c 3 t) (iblk1 V c 4 t) (iblk1 V c 5 t)
    (V c main_v16) (V c main_v0) (V c main_v11) (V c main_arg8) (V c main_arg13) (V c main_arg14) t.val
    (fun b hb n s d => blk0 V c t b hb n s d) (fun b hb n s d => blk1 V c t b hb n s d)
    (blk2 V c t) (blk3 V c t) (blk4 V c t) (blk5 V c t)
    y (((cfg1.win 6).blk t).view.emb y) ?_ ?_ ?_ ?_
  · show win1_6.index t (0 : Fin 4) * 1 + 1 * (y 0).val = t.val
    have hy : (y 0).val < 1 := (y 0).isLt
    rw [e0]; omega
  · show win1_6.index t (1 : Fin 4) * 64 + 1 * (y 1).val = (y 1).val
    rw [e1]; omega
  · show win1_6.index t (2 : Fin 4) * 32 + 1 * (y 2).val = (y 2).val
    rw [e2]; omega
  · show win1_6.index t (3 : Fin 4) * 512 + 1 * (y 3).val = (y 3).val
    rw [e3]; omega

/-- An index of the array is in point t's block iff each coordinate is in the block's range on its axis. -/
theorem mem_blk (t : Fin cfg1.N) (i : S32x64x32x512.Idx) :
    i ∈ ((cfg1.win 6).blk t).view.set ↔ ∀ a : Fin 4, win1_6.index t a * S1x64x32x512.size a ≤ (i a).val ∧ (i a).val < win1_6.index t a * S1x64x32x512.size a + S1x64x32x512.size a := by
  show i ∈ ((View.whole main_v17).slice (win1_6.rect t)).set ↔ _
  rw [View.set_slice_whole, Rect.mem_set_unit]
  exact Iff.rfl

/-- Batch element b is the block of point b. -/
theorem cover (i : S32x64x32x512.Idx) :
    ∃ t : Fin cfg1.N, (cfg1.win 6).flush t = true ∧ i ∈ ((cfg1.win 6).blk t).view.set := by
  have hi0 : (i 0).val < 32 := (i 0).isLt
  have hi1 : (i 1).val < 64 := (i 1).isLt
  have hi2 : (i 2).val < 32 := (i 2).isLt
  have hi3 : (i 3).val < 512 := (i 3).isLt
  have hN : grid1.N = 32 := N_1
  obtain ⟨t, ht⟩ : ∃ t : Fin cfg1.N, t.val = (i 0).val :=
    ⟨⟨(i 0).val, by show (i 0).val < grid1.N; rw [hN]; exact hi0⟩, rfl⟩
  obtain ⟨e0, e1, e2, e3⟩ := idx6 t
  refine ⟨t, flush1_6 t, ?_⟩
  rw [mem_blk]
  intro a
  match a with
  | ⟨0, _⟩ => show win1_6.index t (0 : Fin 4) * 1 ≤ (i 0).val ∧ (i 0).val < win1_6.index t (0 : Fin 4) * 1 + 1; rw [e0, ht]; omega
  | ⟨1, _⟩ => show win1_6.index t (1 : Fin 4) * 64 ≤ (i 1).val ∧ (i 1).val < win1_6.index t (1 : Fin 4) * 64 + 64; rw [e1]; omega
  | ⟨2, _⟩ => show win1_6.index t (2 : Fin 4) * 32 ≤ (i 2).val ∧ (i 2).val < win1_6.index t (2 : Fin 4) * 32 + 32; rw [e2]; omega
  | ⟨3, _⟩ => show win1_6.index t (3 : Fin 4) * 512 ≤ (i 3).val ∧ (i 3).val < win1_6.index t (3 : Fin 4) * 512 + 512; rw [e3]; omega

/-- The blocks tile the array, so after the last point it is that one array. -/
theorem arr : (dat1 (F := Ideal) V c).arrAt 6 cfg1.N = G (V c main_v16) (V c main_v0) (V c main_v11) (V c main_arg8) (V c main_arg13) (V c main_arg14) :=
  (dat1 V c).arrAt_eq_of_cover 6 (G (V c main_v16) (V c main_v0) (V c main_v11) (V c main_arg8) (V c main_arg13) (V c main_arg14)) (fun t _ => flushed_eq V c t) cover

end R1

end Cert.KernelIdeal.Finals

end
-- ==== Proof.FinalsFfn.lean ====
/- The feed-forward region's output array after its 64 points: point i reads rows 1024 i .. 1024 i + 1023 of the input
   [65536, 512] and every weight whole, and writes the same rows of the output; the 64 blocks tile the output, so row r
   ends as the row map of row r (the point that covers row r is r / 1024). -/
import proofs.«155221_j24060406792682_2_alg».proof.Proof.Spec
import proofs.«155221_j24060406792682_2_alg».proof.Proof.Gen.KernelIdeal.Frame
import Idealize.ShloMosaic.Lib.ValueIdx
import Idealize.ShloMosaic.Lib.Pipeline.Value
import proofs.«155221_j24060406792682_2_alg».proof.Proof.BodyLnFfn

noncomputable section

namespace Cert.KernelIdeal.Finals

open Cert.KernelIdeal Cert.KernelIdeal.Gen Idealize.ShloMosaic Idealize.ShloMosaic.TcCoe Idealize.ShloMosaic.ValueIdx Idealize.SL.Sem Cert.Spec
open Idealize.ShloMosaic.Pipeline (Dat)

variable (V : (c : Dev nD) → (b : Ref sig .tc) → Buf (Elt Ideal) ((c : Thread nD τ).loc b)) (c : Dev nD)

namespace R2

/-- The printed index maps over the 64 points: the row windows (input 0, output 5) sit at block (t, 0), every other
    window at its one block. -/
theorem idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Input window 0's block at point t is rows 1024 t .. 1024 t + 1023 of its array. -/
theorem blk0 (t : Fin cfg2.N) (r : Fin 1024) (d : Fin 512) (R : Fin 65536) (hR : R.val = 1024 * t.val + r.val) :
    (iblk2 V c 0 t : Vec Ideal S1024x512 .f32) (ix2 r d) = (V c main_v18 : S65536x512.Idx → Elt Ideal .f32) (ix2 R d) := by
  obtain ⟨e0, e1, -⟩ := idx t
  unfold iblk2
  rw [View.read_apply]
  show V c main_v18 _ = V c main_v18 _
  congr 1
  funext a; apply Fin.ext
  match a with
  | ⟨0, _⟩ => show win2_0.index t (0 : Fin 2) * 1024 + 1 * r.val = R.val; rw [e0, hR]; omega
  | ⟨1, _⟩ => show win2_0.index t (1 : Fin 2) * 512 + 1 * d.val = d.val; rw [e1]; omega

/-- Input window 1's one block is its whole array. -/
theorem blk1 (t : Fin cfg2.N) : (iblk2 V c 1 t : Vec Ideal S512x2048 .bf16) = (V c main_v13 : S512x2048.Idx → Elt Ideal .bf16) := by
  obtain ⟨-, -, e0, e1, -⟩ := idx t
  funext y
  unfold iblk2
  rw [View.read_apply]
  show V c main_v13 _ = V c main_v13 _
  congr 1
  funext a; apply Fin.ext
  match a with
  | ⟨0, _⟩ => show win2_1.index t (0 : Fin 2) * 512 + 1 * (y 0).val = (y 0).val; rw [e0]; omega
  | ⟨1, _⟩ => show win2_1.index t (1 : Fin 2) * 2048 + 1 * (y 1).val = (y 1).val; rw [e1]; omega

/-- Input window 2's one block is its whole array. -/
theorem blk2 (t : Fin cfg2.N) : (iblk2 V c 2 t : Vec Ideal S2048 .f32) = (V c main_arg10 : S2048.Idx → Elt Ideal .f32) := by
  obtain ⟨-, -, -, -, e0, -⟩ := idx t
  funext y
  unfold iblk2
  rw [View.read_apply]
  show V c main_arg10 _ = V c main_arg10 _
  congr 1
  funext a; apply Fin.ext
  match a with
  | ⟨0, _⟩ => show win2_2.index t (0 : Fin 1) * 2048 + 1 * (y 0).val = (y 0).val; rw [e0]; omega

/-- Input window 3's one block is its whole array. -/
theorem blk3 (t : Fin cfg2.N) : (iblk2 V c 3 t : Vec Ideal S2048x512 .bf16) = (V c main_v15 : S2048x512.Idx → Elt Ideal .bf16) := by
  obtain ⟨-, -, -, -, -, e0, e1, -⟩ := idx t
  funext y
  unfold iblk2
  rw [View.read_apply]
  show V c main_v15 _ = V c main_v15 _
  congr 1
  funext a; apply Fin.ext
  match a with
  | ⟨0, _⟩ => show win2_3.index t (0 : Fin 2) * 2048 + 1 * (y 0).val = (y 0).val; rw [e0]; omega
  | ⟨1, _⟩ => show win2_3.index t (1 : Fin 2) * 512 + 1 * (y 1).val = (y 1).val; rw [e1]; omega

/-- Input window 4's one block is its whole array. -/
theorem blk4 (t : Fin cfg2.N) : (iblk2 V c 4 t : Vec Ideal S512 .f32) = (V c main_arg12 : S512.Idx → Elt Ideal .f32) := by
  obtain ⟨-, -, -, -, -, -, -, e0, -⟩ := idx t
  funext y
  unfold iblk2
  rw [View.read_apply]
  show V c main_arg12 _ = V c main_arg12 _
  congr 1
  funext a; apply Fin.ext
  match a with
  | ⟨0, _⟩ => show win2_4.index t (0 : Fin 1) * 512 + 1 * (y 0).val = (y 0).val; rw [e0]; omega

/-- The feed-forward map of every row of an array [65536, 512], as one array. -/
def G (A0 : Vec Ideal S65536x512 .f32) (A1 : Vec Ideal S512x2048 .bf16) (A2 : Vec Ideal S2048 .f32)
    (A3 : Vec Ideal S2048x512 .bf16) (A4 : Vec Ideal S512 .f32) : S65536x512.Idx → EReal := fun i =>
  ffnRow (fun d => A0 (ix2 (i 0) d)) (fun j d => A1 (ix2 d j)) (fun j => A2 (ix1 j)) (fun o j => A3 (ix2 j o))
    (fun o => A4 (ix1 o)) (i 1)

/-- One point's store, element by element: when the row block x0 is rows 1024 t .. of A0 and the other blocks are whole
    arrays, the body's result at y is the row map at the array index i that y sits at. -/
theorem point (x0 : Vec Ideal S1024x512 .f32) (x1 : Vec Ideal S512x2048 .bf16) (x2 : Vec Ideal S2048 .f32)
    (x3 : Vec Ideal S2048x512 .bf16) (x4 : Vec Ideal S512 .f32)
    (A0 : Vec Ideal S65536x512 .f32) (A1 : Vec Ideal S512x2048 .bf16) (A2 : Vec Ideal S2048 .f32)
    (A3 : Vec Ideal S2048x512 .bf16) (A4 : Vec Ideal S512 .f32) (t : Nat)
    (h0 : ∀ (r : Fin 1024) (d : Fin 512) (R : Fin 65536), R.val = 1024 * t + r.val → x0 (ix2 r d) = A0 (ix2 R d))
    (h1 : x1 = A1) (h2 : x2 = A2) (h3 : x3 = A3) (h4 : x4 = A4)
    (y : S1024x512.Idx) (i : S65536x512.Idx) (hi0 : (i 0).val = 1024 * t + (y 0).val) (hi1 : (i 1).val = (y 1).val) :
    out2_5 (F := Ideal) x0 x1 x2 x3 x4 y = G A0 A1 A2 A3 A4 i := by
  subst h1 h2 h3 h4
  obtain ⟨r, o, rfl⟩ : ∃ (r : Fin 1024) (o : Fin 512), y = ix2 r o := ⟨y 0, y 1, eq_ix2 y⟩
  obtain ⟨R, o', rfl⟩ : ∃ (R : Fin 65536) (o' : Fin 512), i = ix2 R o' := ⟨i 0, i 1, eq_ix2 i⟩
  obtain rfl : o' = o := Fin.ext hi1
  rw [BodyLnFfn.out2_5_apply]
  have e : (fun d => x0 (ix2 r d)) = fun d => A0 (ix2 R d) := funext fun d => h0 r d R hi0
  rw [e]
  rfl

/-- What point t writes back is block t of the one array. -/
theorem flushed_eq (t : Fin cfg2.N) :
    (dat2 (F := Ideal) V c).flushed 5 t
      = ((cfg2.win 5).blk t).view.read (Elt Ideal)
          (G (V c main_v18) (V c main_v13) (V c main_arg10) (V c main_v15) (V c main_arg12)) := by
  show (cfg2.win 5).cut (grid2.coords t) ((dat2 V c).after 5 t) = _
  rw [after2_5]
  obtain ⟨-, -, -, -, -, -, -, -, e0, e1⟩ := idx t
  funext y
  refine point (iblk2 V c 0 t) (iblk2 V c 1 t) (iblk2 V c 2 t) (iblk2 V c 3 t) (iblk2 V c 4 t)
    (V c main_v18) (V c main_v13) (V c main_arg10) (V c main_v15) (V c main_arg12) t.val
    (fun r d R hR => blk0 V c t r d R hR) (blk1 V c t) (blk2 V c t) (blk3 V c t) (blk4 V c t)
    y (((cfg2.win 5).blk t).view.emb y) ?_ ?_
  · show win2_5.index t (0 : Fin 2) * 1024 + 1 * (y 0).val = 1024 * t.val + (y 0).val
    rw [e0]; omega
  · show win2_5.index t (1 : Fin 2) * 512 + 1 * (y 1).val = (y 1).val
    rw [e1]; omega

/-- An index of the array is in point t's block iff each coordinate is in the block's range on its axis. -/
theorem mem_blk (t : Fin cfg2.N) (i : S65536x512.Idx) :
    i ∈ ((cfg2.win 5).blk t).view.set ↔ ∀ a : Fin 2, win2_5.index t a * S1024x512.size a ≤ (i a).val ∧ (i a).val < win2_5.index t a * S1024x512.size a + S1024x512.size a := by
  show i ∈ ((View.whole main_v19).slice (win2_5.rect t)).set ↔ _
  rw [View.set_slice_whole, Rect.mem_set_unit]
  exact Iff.rfl

/-- Row r is in the block of point r / 1024. -/
theorem cover (i : S65536x512.Idx) :
    ∃ t : Fin cfg2.N, (cfg2.win 5).flush t = true ∧ i ∈ ((cfg2.win 5).blk t).view.set := by
  have hi0 : (i 0).val < 65536 := (i 0).isLt
  have hi1 : (i 1).val < 512 := (i 1).isLt
  have hN : grid2.N = 64 := N_2
  obtain ⟨t, ht⟩ : ∃ t : Fin cfg2.N, t.val = (i 0).val / 1024 :=
    ⟨⟨(i 0).val / 1024, by show (i 0).val / 1024 < grid2.N; rw [hN]; omega⟩, rfl⟩
  obtain ⟨-, -, -, -, -, -, -, -, e0, e1⟩ := idx t
  refine ⟨t, flush2_5 t, ?_⟩
  rw [mem_blk]
  intro a
  match a with
  | ⟨0, _⟩ => show win2_5.index t (0 : Fin 2) * 1024 ≤ (i 0).val ∧ (i 0).val < win2_5.index t (0 : Fin 2) * 1024 + 1024; rw [e0, ht]; omega
  | ⟨1, _⟩ => show win2_5.index t (1 : Fin 2) * 512 ≤ (i 1).val ∧ (i 1).val < win2_5.index t (1 : Fin 2) * 512 + 512; rw [e1]; omega

/-- The blocks tile the array, so after the last point it is that one array. -/
theorem arr : (dat2 (F := Ideal) V c).arrAt 5 cfg2.N = G (V c main_v18) (V c main_v13) (V c main_arg10) (V c main_v15) (V c main_arg12) :=
  (dat2 V c).arrAt_eq_of_cover 5 (G (V c main_v18) (V c main_v13) (V c main_arg10) (V c main_v15) (V c main_arg12)) (fun t _ => flushed_eq V c t) cover

end R2

end Cert.KernelIdeal.Finals

end
-- ==== Proof.Finals.lean ====
/- Each region's output array after its pipeline, as one function of the region's entry contents: grid point b of the
   first two regions writes batch element b whole, grid point i of the third writes rows 1024 i .. 1024 i + 1023; every
   other window is one whole-array block. -/
import proofs.«155221_j24060406792682_2_alg».proof.Proof.Spec
import proofs.«155221_j24060406792682_2_alg».proof.Proof.Gen.KernelIdeal.Frame
import Idealize.ShloMosaic.Lib.ValueIdx
import Idealize.ShloMosaic.Lib.Pipeline.Value
import Idealize.ShloMosaic.PureOps.Ideal.Laws
import proofs.«155221_j24060406792682_2_alg».proof.Proof.AttBody
import proofs.«155221_j24060406792682_2_alg».proof.Proof.BodyLnFfn
import proofs.«155221_j24060406792682_2_alg».proof.Proof.FinalsAtt
import proofs.«155221_j24060406792682_2_alg».proof.Proof.FinalsLn
import proofs.«155221_j24060406792682_2_alg».proof.Proof.FinalsFfn

noncomputable section

namespace Cert.KernelIdeal.Finals

open Cert.KernelIdeal Cert.KernelIdeal.Gen Idealize.ShloMosaic Idealize.ShloMosaic.TcCoe Idealize.ShloMosaic.ValueIdx Idealize.SL.Sem Cert.Spec

variable (V : (c : Dev nD) → (b : Ref sig .tc) → Buf (Elt Ideal) ((c : Thread nD τ).loc b)) (c : Dev nD)

/-- Region 0's output array [32, 64, 32, 512] at (b, n, t, d). -/
theorem final0 (b : Fin 32) (n : Fin 64) (t : Fin 32) (d : Fin 512) :
    (dat0 (F := Ideal) V c).arrAt 10 cfg0.N (ix4 b n t d)
      = attOf true (fun n t d => V c main_v0 (ix4 b n t d)) (fun n d => V c main_v1 (ix2 n d))
          (fun o d => V c main_v5 (ix2 d o)) (fun o => V c main_arg2 (ix1 o)) (fun o d => V c main_v7 (ix2 d o))
          (fun o => V c main_arg4 (ix1 o)) (fun o d => V c main_v9 (ix2 d o)) (fun o => V c main_arg6 (ix1 o))
          (fun h n m => V c main_v2 (ix3 h n m)) (fun h => V c main_v3 (ix3 h (0 : Fin 1) (0 : Fin 1))) n t d := by
  rw [R0.arr V c]
  rfl

/-- Region 1's output array [32, 64, 32, 512] at (b, n, t, d). -/
theorem final1 (b : Fin 32) (n : Fin 64) (t : Fin 32) (d : Fin 512) :
    (dat1 (F := Ideal) V c).arrAt 6 cfg1.N (ix4 b n t d)
      = lnOf (fun n t d => V c main_v16 (ix4 b n t d)) (fun n t d => V c main_v0 (ix4 b n t d))
          (fun o d => V c main_v11 (ix2 d o)) (fun o => V c main_arg8 (ix1 o))
          (fun n t d => V c main_arg13 (ix3 n t d)) (fun n t d => V c main_arg14 (ix3 n t d)) n t d := by
  rw [R1.arr V c]
  rfl

/-- Region 2's output array [65536, 512] at (r, o). -/
theorem final2 (r : Fin 65536) (o : Fin 512) :
    (dat2 (F := Ideal) V c).arrAt 5 cfg2.N (ix2 r o)
      = ffnRow (fun d => V c main_v18 (ix2 r d)) (fun j d => V c main_v13 (ix2 d j)) (fun j => V c main_arg10 (ix1 j))
          (fun o j => V c main_v15 (ix2 j o)) (fun o => V c main_arg12 (ix1 o)) o := by
  rw [R2.arr V c]
  rfl

end Cert.KernelIdeal.Finals

end
-- ==== Proof.KernelValueWalk.lean ====
/- The buffers each of the three regions finds at its entry, read back to the launch memory's argument arrays and written in
   the specification's vocabulary.  Before the first region the host transposes x from (b, d, t, n) to (b, n, t, d), drops the
   unit axes of pe, adj and hw, and transposes every weight matrix (the format change that follows each transpose is the
   identity on extended reals).  A region leaves every buffer that is not its output as it found it, and the single reshape
   between the second and third regions reads row 2048 b + 32 n + t of the [65536, 512] array at position (b, n, t) of the
   [32, 64, 32, 512] array.  Composing these with each region's output array gives, at the third region's entry, the row
   (b, n, t) of the normalised array as the specification's lnOf of its attOf. -/
import proofs.«155221_j24060406792682_2_alg».proof.Proof.Spec
import proofs.«155221_j24060406792682_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«155221_j24060406792682_2_alg».proof.Proof.Finals

noncomputable section

namespace Cert.KernelIdeal.KernelValue.HE

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg) (c : Dev nD)

/-- A buffer that no operation of a host stretch writes is read through unchanged. -/
macro "stretch_keeps" : tactic => `(tactic| (
  refine StableHlo.after_of_forall_not_mem _ _ (List.forall_iff_forall_mem.mp ?_)
  simp only [hostOps0, hostOps2, hostOps3, List.Forall, StableHlo.unary_writes, StableHlo.reshape_writes, Finset.mem_singleton]
  repeat' apply And.intro
  all_goals exact StableHlo.devRef_ne_of_ne (by decide)))

/-- Row 2048 b + 32 n + t of the [65536, 512] array sits at the row-major position of (b, n, t) in [32, 64, 32, 512]. -/
theorem row_pos (b : Fin 32) (n : Fin 64) (t : Fin 32) (d : Fin 512) (r : Fin 65536) (hr : r.val = 2048 * b.val + 32 * n.val + t.val) :
    ((⟨2, ![65536, 512]⟩ : Shape).rowMajor (ix2 r d)).val = ((⟨4, ![32, 64, 32, 512]⟩ : Shape).rowMajor (ix4 b n t d)).val := by
  rw [Shape.rowMajor_val_two, Shape.rowMajor_val_four]
  show r.val * 512 + d.val = ((b.val * 64 + n.val) * 32 + t.val) * 512 + d.val
  omega

/-! ## Before the first region: the host's stretch of sixteen operations, one buffer at a time -/

/-- x transposed from (b, d, t, n) to (b, n, t, d). -/
theorem w1_v0 (b : Fin 32) (n : Fin 64) (t : Fin 32) (d : Fin 512) :
    W1 (F := Ideal) m ρ c (Proc.devRef .tc main_v0) (ix4 b n t d) = m ((c : Thread nD τ).loc main_arg0) (ix4 b d t n) := by
  show StableHlo.after hostOps0 (W0 (F := Ideal) m ρ c) (Proc.devRef .tc main_v0) (ix4 b n t d) = _
  after_results
  exact transpose_apply _ _ _ (ix4 b n t d) (ix4 b d t n)
    (fun a => match a with | ⟨0, _⟩ => rfl | ⟨1, _⟩ => rfl | ⟨2, _⟩ => rfl | ⟨3, _⟩ => rfl)

/-- pe with its two unit axes dropped. -/
theorem w1_v1 (n : Fin 64) (d : Fin 512) :
    W1 (F := Ideal) m ρ c (Proc.devRef .tc main_v1) (ix2 n d) = m ((c : Thread nD τ).loc main_arg17) (ix4 (0 : Fin 1) n (0 : Fin 1) d) := by
  show StableHlo.after hostOps0 (W0 (F := Ideal) m ρ c) (Proc.devRef .tc main_v1) (ix2 n d) = _
  after_results
  refine shapeCast_apply (W0 (F := Ideal) m ρ c (Proc.devRef .tc main_arg17)) shapeCasts_S1x64x1x512_S64x512 (ix2 n d)
    (ix4 (0 : Fin 1) n (0 : Fin 1) d) ?_
  have e : ((⟨4, ![1, 64, 1, 512]⟩ : Shape).rowMajor (ix4 (0 : Fin 1) n (0 : Fin 1) d)).val
      = ((⟨2, ![64, 512]⟩ : Shape).rowMajor (ix2 n d)).val := by
    rw [Shape.rowMajor_val_two, Shape.rowMajor_val_four]
    show ((0 * 64 + n.val) * 1 + 0) * 512 + d.val = n.val * 512 + d.val
    omega
  exact e

/-- adj with its leading unit axis dropped. -/
theorem w1_v2 (h : Fin 8) (n k : Fin 64) :
    W1 (F := Ideal) m ρ c (Proc.devRef .tc main_v2) (ix3 h n k) = m ((c : Thread nD τ).loc main_arg15) (ix4 (0 : Fin 1) h n k) := by
  show StableHlo.after hostOps0 (W0 (F := Ideal) m ρ c) (Proc.devRef .tc main_v2) (ix3 h n k) = _
  after_results
  refine shapeCast_apply (W0 (F := Ideal) m ρ c (Proc.devRef .tc main_arg15)) shapeCasts_S1x8x64x64_S8x64x64 (ix3 h n k)
    (ix4 (0 : Fin 1) h n k) ?_
  have e : ((⟨4, ![1, 8, 64, 64]⟩ : Shape).rowMajor (ix4 (0 : Fin 1) h n k)).val
      = ((⟨3, ![8, 64, 64]⟩ : Shape).rowMajor (ix3 h n k)).val := by
    rw [Shape.rowMajor_val_three, Shape.rowMajor_val_four]
    show ((0 * 8 + h.val) * 64 + n.val) * 64 + k.val = (h.val * 64 + n.val) * 64 + k.val
    omega
  exact e

/-- hw with its leading unit axis dropped. -/
theorem w1_v3 (h : Fin 8) :
    W1 (F := Ideal) m ρ c (Proc.devRef .tc main_v3) (ix3 h (0 : Fin 1) (0 : Fin 1))
      = m ((c : Thread nD τ).loc main_arg16) (ix4 (0 : Fin 1) h (0 : Fin 1) (0 : Fin 1)) := by
  show StableHlo.after hostOps0 (W0 (F := Ideal) m ρ c) (Proc.devRef .tc main_v3) (ix3 h (0 : Fin 1) (0 : Fin 1)) = _
  after_results
  refine shapeCast_apply (W0 (F := Ideal) m ρ c (Proc.devRef .tc main_arg16)) shapeCasts_S1x8x1x1_S8x1x1 (ix3 h (0 : Fin 1) (0 : Fin 1))
    (ix4 (0 : Fin 1) h (0 : Fin 1) (0 : Fin 1)) ?_
  have e : ((⟨4, ![1, 8, 1, 1]⟩ : Shape).rowMajor (ix4 (0 : Fin 1) h (0 : Fin 1) (0 : Fin 1))).val
      = ((⟨3, ![8, 1, 1]⟩ : Shape).rowMajor (ix3 h (0 : Fin 1) (0 : Fin 1))).val := by
    rw [Shape.rowMajor_val_three, Shape.rowMajor_val_four]
    show ((0 * 8 + h.val) * 1 + 0) * 1 + 0 = (h.val * 1 + 0) * 1 + 0
    omega
  exact e

/-- The query weights transposed (the format change after the transpose is the identity on extended reals). -/
theorem w1_v5 (d : Fin 512) (o : Fin 512) :
    W1 (F := Ideal) m ρ c (Proc.devRef .tc main_v5) (ix2 d o) = m ((c : Thread nD τ).loc main_arg1) (ix2 o d) := by
  show StableHlo.after hostOps0 (W0 (F := Ideal) m ρ c) (Proc.devRef .tc main_v5) (ix2 d o) = _
  after_results
  exact transpose_ix2_apply (a := 512) (b := 512) (W0 (F := Ideal) m ρ c (Proc.devRef .tc main_arg1)) transposes_S512x512_S512x512_1_0 d o

/-- The key weights transposed. -/
theorem w1_v7 (d : Fin 512) (o : Fin 512) :
    W1 (F := Ideal) m ρ c (Proc.devRef .tc main_v7) (ix2 d o) = m ((c : Thread nD τ).loc main_arg3) (ix2 o d) := by
  show StableHlo.after hostOps0 (W0 (F := Ideal) m ρ c) (Proc.devRef .tc main_v7) (ix2 d o) = _
  after_results
  exact transpose_ix2_apply (a := 512) (b := 512) (W0 (F := Ideal) m ρ c (Proc.devRef .tc main_arg3)) transposes_S512x512_S512x512_1_0 d o

/-- The value weights transposed. -/
theorem w1_v9 (d : Fin 512) (o : Fin 512) :
    W1 (F := Ideal) m ρ c (Proc.devRef .tc main_v9) (ix2 d o) = m ((c : Thread nD τ).loc main_arg5) (ix2 o d) := by
  show StableHlo.after hostOps0 (W0 (F := Ideal) m ρ c) (Proc.devRef .tc main_v9) (ix2 d o) = _
  after_results
  exact transpose_ix2_apply (a := 512) (b := 512) (W0 (F := Ideal) m ρ c (Proc.devRef .tc main_arg5)) transposes_S512x512_S512x512_1_0 d o

/-- The output projection's weights transposed. -/
theorem w1_v11 (d : Fin 512) (o : Fin 512) :
    W1 (F := Ideal) m ρ c (Proc.devRef .tc main_v11) (ix2 d o) = m ((c : Thread nD τ).loc main_arg7) (ix2 o d) := by
  show StableHlo.after hostOps0 (W0 (F := Ideal) m ρ c) (Proc.devRef .tc main_v11) (ix2 d o) = _
  after_results
  exact transpose_ix2_apply (a := 512) (b := 512) (W0 (F := Ideal) m ρ c (Proc.devRef .tc main_arg7)) transposes_S512x512_S512x512_1_0 d o

/-- The feed-forward's first weights [2048, 512] transposed to [512, 2048]. -/
theorem w1_v13 (d : Fin 512) (o : Fin 2048) :
    W1 (F := Ideal) m ρ c (Proc.devRef .tc main_v13) (ix2 d o) = m ((c : Thread nD τ).loc main_arg9) (ix2 o d) := by
  show StableHlo.after hostOps0 (W0 (F := Ideal) m ρ c) (Proc.devRef .tc main_v13) (ix2 d o) = _
  after_results
  exact transpose_ix2_apply (a := 2048) (b := 512) (W0 (F := Ideal) m ρ c (Proc.devRef .tc main_arg9)) transposes_S2048x512_S512x2048_1_0 d o

/-- The feed-forward's second weights [512, 2048] transposed to [2048, 512]. -/
theorem w1_v15 (d : Fin 2048) (o : Fin 512) :
    W1 (F := Ideal) m ρ c (Proc.devRef .tc main_v15) (ix2 d o) = m ((c : Thread nD τ).loc main_arg11) (ix2 o d) := by
  show StableHlo.after hostOps0 (W0 (F := Ideal) m ρ c) (Proc.devRef .tc main_v15) (ix2 d o) = _
  after_results
  exact transpose_ix2_apply (a := 512) (b := 2048) (W0 (F := Ideal) m ρ c (Proc.devRef .tc main_arg11)) transposes_S512x2048_S2048x512_1_0 d o

/-! The arguments the stretch does not write hold the launch memory's arrays. -/

theorem w1_arg2 : W1 (F := Ideal) m ρ c (Proc.devRef .tc main_arg2) = m ((c : Thread nD τ).loc main_arg2) := by
  show StableHlo.after hostOps0 (W0 (F := Ideal) m ρ c) (Proc.devRef .tc main_arg2) = _
  stretch_keeps
theorem w1_arg4 : W1 (F := Ideal) m ρ c (Proc.devRef .tc main_arg4) = m ((c : Thread nD τ).loc main_arg4) := by
  show StableHlo.after hostOps0 (W0 (F := Ideal) m ρ c) (Proc.devRef .tc main_arg4) = _
  stretch_keeps
theorem w1_arg6 : W1 (F := Ideal) m ρ c (Proc.devRef .tc main_arg6) = m ((c : Thread nD τ).loc main_arg6) := by
  show StableHlo.after hostOps0 (W0 (F := Ideal) m ρ c) (Proc.devRef .tc main_arg6) = _
  stretch_keeps
theorem w1_arg8 : W1 (F := Ideal) m ρ c (Proc.devRef .tc main_arg8) = m ((c : Thread nD τ).loc main_arg8) := by
  show StableHlo.after hostOps0 (W0 (F := Ideal) m ρ c) (Proc.devRef .tc main_arg8) = _
  stretch_keeps
theorem w1_arg10 : W1 (F := Ideal) m ρ c (Proc.devRef .tc main_arg10) = m ((c : Thread nD τ).loc main_arg10) := by
  show StableHlo.after hostOps0 (W0 (F := Ideal) m ρ c) (Proc.devRef .tc main_arg10) = _
  stretch_keeps
theorem w1_arg12 : W1 (F := Ideal) m ρ c (Proc.devRef .tc main_arg12) = m ((c : Thread nD τ).loc main_arg12) := by
  show StableHlo.after hostOps0 (W0 (F := Ideal) m ρ c) (Proc.devRef .tc main_arg12) = _
  stretch_keeps
theorem w1_arg13 : W1 (F := Ideal) m ρ c (Proc.devRef .tc main_arg13) = m ((c : Thread nD τ).loc main_arg13) := by
  show StableHlo.after hostOps0 (W0 (F := Ideal) m ρ c) (Proc.devRef .tc main_arg13) = _
  stretch_keeps
theorem w1_arg14 : W1 (F := Ideal) m ρ c (Proc.devRef .tc main_arg14) = m ((c : Thread nD τ).loc main_arg14) := by
  show StableHlo.after hostOps0 (W0 (F := Ideal) m ρ c) (Proc.devRef .tc main_arg14) = _
  stretch_keeps

/-! ## The first region's entry, in the specification's vocabulary -/

theorem v1_x (b : Fin 32) :
    (fun (n : Fin 64) (t : Fin 32) (d : Fin 512) => V1 (F := Ideal) m ρ c main_v0 (ix4 b n t d)) = xbOf (m ((c : Thread nD τ).loc main_arg0)) b := by
  funext n t d; exact w1_v0 m ρ c b n t d
theorem v1_pe : (fun (n : Fin 64) (d : Fin 512) => V1 (F := Ideal) m ρ c main_v1 (ix2 n d)) = peOf (m ((c : Thread nD τ).loc main_arg17)) := by
  funext n d; exact w1_v1 m ρ c n d
theorem v1_wq : (fun (o d : Fin 512) => V1 (F := Ideal) m ρ c main_v5 (ix2 d o)) = matOf (a := 512) (b := 512) (m ((c : Thread nD τ).loc main_arg1)) := by
  funext o d; exact w1_v5 m ρ c d o
theorem v1_wk : (fun (o d : Fin 512) => V1 (F := Ideal) m ρ c main_v7 (ix2 d o)) = matOf (a := 512) (b := 512) (m ((c : Thread nD τ).loc main_arg3)) := by
  funext o d; exact w1_v7 m ρ c d o
theorem v1_wv : (fun (o d : Fin 512) => V1 (F := Ideal) m ρ c main_v9 (ix2 d o)) = matOf (a := 512) (b := 512) (m ((c : Thread nD τ).loc main_arg5)) := by
  funext o d; exact w1_v9 m ρ c d o
theorem v1_bq : (fun (o : Fin 512) => V1 (F := Ideal) m ρ c main_arg2 (ix1 o)) = vecOf (a := 512) (m ((c : Thread nD τ).loc main_arg2)) := by
  funext o; exact congrFun (w1_arg2 m ρ c) (ix1 o)
theorem v1_bk : (fun (o : Fin 512) => V1 (F := Ideal) m ρ c main_arg4 (ix1 o)) = vecOf (a := 512) (m ((c : Thread nD τ).loc main_arg4)) := by
  funext o; exact congrFun (w1_arg4 m ρ c) (ix1 o)
theorem v1_bv : (fun (o : Fin 512) => V1 (F := Ideal) m ρ c main_arg6 (ix1 o)) = vecOf (a := 512) (m ((c : Thread nD τ).loc main_arg6)) := by
  funext o; exact congrFun (w1_arg6 m ρ c) (ix1 o)
theorem v1_adj : (fun (h : Fin 8) (n k : Fin 64) => V1 (F := Ideal) m ρ c main_v2 (ix3 h n k)) = adjOf (m ((c : Thread nD τ).loc main_arg15)) := by
  funext h n k; exact w1_v2 m ρ c h n k
theorem v1_hw : (fun (h : Fin 8) => V1 (F := Ideal) m ρ c main_v3 (ix3 h (0 : Fin 1) (0 : Fin 1))) = hwOf (m ((c : Thread nD τ).loc main_arg16)) := by
  funext h; exact w1_v3 m ρ c h

/-! ## The second region's entry: the first region's output array, and the buffers it left alone -/

/-- The first region's output is the attention output, formed as two sums, of the argument arrays. -/
theorem v2_att (b : Fin 32) :
    (fun (n : Fin 64) (t : Fin 32) (d : Fin 512) => V2 (F := Ideal) m ρ c main_v16 (ix4 b n t d))
      = attOf true (xbOf (m ((c : Thread nD τ).loc main_arg0)) b) (peOf (m ((c : Thread nD τ).loc main_arg17))) (matOf (a := 512) (b := 512) (m ((c : Thread nD τ).loc main_arg1))) (vecOf (a := 512) (m ((c : Thread nD τ).loc main_arg2)))
          (matOf (a := 512) (b := 512) (m ((c : Thread nD τ).loc main_arg3))) (vecOf (a := 512) (m ((c : Thread nD τ).loc main_arg4))) (matOf (a := 512) (b := 512) (m ((c : Thread nD τ).loc main_arg5))) (vecOf (a := 512) (m ((c : Thread nD τ).loc main_arg6)))
          (adjOf (m ((c : Thread nD τ).loc main_arg15))) (hwOf (m ((c : Thread nD τ).loc main_arg16))) := by
  funext n t d
  show W2 (F := Ideal) m ρ c (Proc.devRef .tc main_v16) (ix4 b n t d) = _
  have e : W2 (F := Ideal) m ρ c (Proc.devRef .tc main_v16) = (dat0 (V1 m ρ) c).arrAt 10 cfg0.N := W2_arr m ρ c 10
  rw [e, Finals.final0 (V1 m ρ) c b n t d, v1_x m ρ c b, v1_pe m ρ c, v1_wq m ρ c, v1_bq m ρ c, v1_wk m ρ c, v1_bk m ρ c,
    v1_wv m ρ c, v1_bv m ρ c, v1_adj m ρ c, v1_hw m ρ c]

/-- The first region reads x through an input window and leaves it as it found it. -/
theorem v2_x (b : Fin 32) :
    (fun (n : Fin 64) (t : Fin 32) (d : Fin 512) => V2 (F := Ideal) m ρ c main_v0 (ix4 b n t d)) = xbOf (m ((c : Thread nD τ).loc main_arg0)) b := by
  have e : W2 (F := Ideal) m ρ c (Proc.devRef .tc main_v0) = W1 (F := Ideal) m ρ c (Proc.devRef .tc main_v0) :=
    (W2_arr m ρ c 0).trans (((dat0 (V1 m ρ) c).arrAt_in 0 rfl _).trans (A_eq0 (V1 m ρ) c 0))
  funext n t d
  exact (congrFun e (ix4 b n t d)).trans (w1_v0 m ρ c b n t d)
theorem v2_wo : (fun (o d : Fin 512) => V2 (F := Ideal) m ρ c main_v11 (ix2 d o)) = matOf (a := 512) (b := 512) (m ((c : Thread nD τ).loc main_arg7)) := by
  funext o d
  exact (congrFun (W2_of_ne m ρ c main_v11 (by decide)) (ix2 d o)).trans (w1_v11 m ρ c d o)
theorem v2_bo : (fun (o : Fin 512) => V2 (F := Ideal) m ρ c main_arg8 (ix1 o)) = vecOf (a := 512) (m ((c : Thread nD τ).loc main_arg8)) := by
  funext o; exact congrFun ((W2_of_ne m ρ c main_arg8 (by decide)).trans (w1_arg8 m ρ c)) (ix1 o)
theorem v2_g : (fun (n : Fin 64) (t : Fin 32) (d : Fin 512) => V2 (F := Ideal) m ρ c main_arg13 (ix3 n t d)) = arr3Of (m ((c : Thread nD τ).loc main_arg13)) := by
  funext n t d; exact congrFun ((W2_of_ne m ρ c main_arg13 (by decide)).trans (w1_arg13 m ρ c)) (ix3 n t d)
theorem v2_be : (fun (n : Fin 64) (t : Fin 32) (d : Fin 512) => V2 (F := Ideal) m ρ c main_arg14 (ix3 n t d)) = arr3Of (m ((c : Thread nD τ).loc main_arg14)) := by
  funext n t d; exact congrFun ((W2_of_ne m ρ c main_arg14 (by decide)).trans (w1_arg14 m ρ c)) (ix3 n t d)

/-! ## The third region's entry: the second region's output array reshaped to rows, and the buffers no region has touched -/

/-- A buffer that neither of the first two regions holds in a window and the reshape between the regions does not write
    is, at the third region's entry, what it was at the first region's. -/
theorem w4_eq_w1 (r : Ref sig .tc) (h0 : ∀ w, Pipeline.arrRef spec0 w ≠ r) (h1 : ∀ w, Pipeline.arrRef spec1 w ≠ r) (h2 : r ≠ main_v18) :
    W4 (F := Ideal) m ρ c (Proc.devRef .tc r) = W1 (F := Ideal) m ρ c (Proc.devRef .tc r) := by
  have e : W4 (F := Ideal) m ρ c (Proc.devRef .tc r) = W3 (F := Ideal) m ρ c (Proc.devRef .tc r) := by
    show StableHlo.after hostOps2 (W3 (F := Ideal) m ρ c) (Proc.devRef .tc r) = _
    refine StableHlo.after_of_forall_not_mem _ _ (List.forall_iff_forall_mem.mp ?_)
    simp only [hostOps2, List.Forall, StableHlo.reshape_writes, Finset.mem_singleton]
    exact StableHlo.devRef_ne_of_ne h2
  exact e.trans ((W3_of_ne m ρ c r h1).trans (W2_of_ne m ρ c r h0))

/-- Row 2048 b + 32 n + t at the third region's entry is row (n, t) of batch element b after the layer normalisation. -/
theorem v4_row (b : Fin 32) (n : Fin 64) (t : Fin 32) (r : Fin 65536) (hr : r.val = 2048 * b.val + 32 * n.val + t.val) :
    (fun (d : Fin 512) => V4 (F := Ideal) m ρ c main_v18 (ix2 r d))
      = lnOf (attOf true (xbOf (m ((c : Thread nD τ).loc main_arg0)) b) (peOf (m ((c : Thread nD τ).loc main_arg17))) (matOf (a := 512) (b := 512) (m ((c : Thread nD τ).loc main_arg1))) (vecOf (a := 512) (m ((c : Thread nD τ).loc main_arg2)))
          (matOf (a := 512) (b := 512) (m ((c : Thread nD τ).loc main_arg3))) (vecOf (a := 512) (m ((c : Thread nD τ).loc main_arg4))) (matOf (a := 512) (b := 512) (m ((c : Thread nD τ).loc main_arg5))) (vecOf (a := 512) (m ((c : Thread nD τ).loc main_arg6)))
          (adjOf (m ((c : Thread nD τ).loc main_arg15))) (hwOf (m ((c : Thread nD τ).loc main_arg16))))
          (xbOf (m ((c : Thread nD τ).loc main_arg0)) b) (matOf (a := 512) (b := 512) (m ((c : Thread nD τ).loc main_arg7))) (vecOf (a := 512) (m ((c : Thread nD τ).loc main_arg8))) (arr3Of (m ((c : Thread nD τ).loc main_arg13))) (arr3Of (m ((c : Thread nD τ).loc main_arg14))) n t := by
  funext d
  show StableHlo.after hostOps2 (W3 (F := Ideal) m ρ c) (Proc.devRef .tc main_v18) (ix2 r d) = _
  after_results
  refine (shapeCast_apply (W3 (F := Ideal) m ρ c (Proc.devRef .tc main_v17)) shapeCasts_S32x64x32x512_S65536x512 (ix2 r d)
    (ix4 b n t d) (row_pos b n t d r hr).symm).trans ?_
  have e : W3 (F := Ideal) m ρ c (Proc.devRef .tc main_v17) = (dat1 (V2 m ρ) c).arrAt 6 cfg1.N := W3_arr m ρ c 6
  rw [e, Finals.final1 (V2 m ρ) c b n t d, v2_att m ρ c b, v2_x m ρ c b, v2_wo m ρ c, v2_bo m ρ c, v2_g m ρ c, v2_be m ρ c]

theorem v4_w1 : (fun (j : Fin 2048) (d : Fin 512) => V4 (F := Ideal) m ρ c main_v13 (ix2 d j)) = matOf (a := 2048) (b := 512) (m ((c : Thread nD τ).loc main_arg9)) := by
  funext j d
  exact (congrFun (w4_eq_w1 m ρ c main_v13 (by decide) (by decide) (by decide)) (ix2 d j)).trans (w1_v13 m ρ c d j)
theorem v4_w2 : (fun (o : Fin 512) (j : Fin 2048) => V4 (F := Ideal) m ρ c main_v15 (ix2 j o)) = matOf (a := 512) (b := 2048) (m ((c : Thread nD τ).loc main_arg11)) := by
  funext o j
  exact (congrFun (w4_eq_w1 m ρ c main_v15 (by decide) (by decide) (by decide)) (ix2 j o)).trans (w1_v15 m ρ c j o)
theorem v4_b1 : (fun (j : Fin 2048) => V4 (F := Ideal) m ρ c main_arg10 (ix1 j)) = vecOf (a := 2048) (m ((c : Thread nD τ).loc main_arg10)) := by
  funext j; exact congrFun ((w4_eq_w1 m ρ c main_arg10 (by decide) (by decide) (by decide)).trans (w1_arg10 m ρ c)) (ix1 j)
theorem v4_b2 : (fun (o : Fin 512) => V4 (F := Ideal) m ρ c main_arg12 (ix1 o)) = vecOf (a := 512) (m ((c : Thread nD τ).loc main_arg12)) := by
  funext o; exact congrFun ((w4_eq_w1 m ρ c main_arg12 (by decide) (by decide) (by decide)).trans (w1_arg12 m ρ c)) (ix1 o)

/-! ## After the third region: the closing reshape and transpose -/

/-- The result at (b, d, t, n) is the third region's output array at row 2048 b + 32 n + t, column d. -/
theorem w6_v21 (b : Fin 32) (d : Fin 512) (t : Fin 32) (n : Fin 64) :
    W6 (F := Ideal) m ρ c (Proc.devRef .tc main_v21) (ix4 b d t n)
      = W5 (F := Ideal) m ρ c (Proc.devRef .tc main_v19) (ix2 (⟨2048 * b.val + 32 * n.val + t.val, by omega⟩ : Fin 65536) d) := by
  show StableHlo.after hostOps3 (W5 (F := Ideal) m ρ c) (Proc.devRef .tc main_v21) (ix4 b d t n) = _
  after_results
  refine (transpose_apply _ _ _ (ix4 b d t n) (ix4 b n t d)
    (fun a => match a with | ⟨0, _⟩ => rfl | ⟨1, _⟩ => rfl | ⟨2, _⟩ => rfl | ⟨3, _⟩ => rfl)).trans ?_
  exact shapeCast_apply (W5 (F := Ideal) m ρ c (Proc.devRef .tc main_v19)) shapeCasts_S65536x512_S32x64x32x512 (ix4 b n t d)
    (ix2 (⟨2048 * b.val + 32 * n.val + t.val, by omega⟩ : Fin 65536) d) (row_pos b n t d _ rfl)

/-- The third region's output array at row r is the feed-forward map of the row it found at its entry. -/
theorem w5_v19 (r : Fin 65536) (o : Fin 512) :
    W5 (F := Ideal) m ρ c (Proc.devRef .tc main_v19) (ix2 r o)
      = ffnRow (fun d => V4 (F := Ideal) m ρ c main_v18 (ix2 r d)) (fun j d => V4 (F := Ideal) m ρ c main_v13 (ix2 d j))
          (fun j => V4 (F := Ideal) m ρ c main_arg10 (ix1 j)) (fun o j => V4 (F := Ideal) m ρ c main_v15 (ix2 j o))
          (fun o => V4 (F := Ideal) m ρ c main_arg12 (ix1 o)) o := by
  have e : W5 (F := Ideal) m ρ c (Proc.devRef .tc main_v19) = (dat2 (V4 m ρ) c).arrAt 5 cfg2.N := W5_arr m ρ c 5
  rw [e]; exact Finals.final2 (V4 m ρ) c r o

end Cert.KernelIdeal.KernelValue.HE

end
-- ==== Proof.KernelValue.lean ====
/- The kernel program's result as one function of the launch memory's argument arrays: the last boundary's contents at the
   result buffer, walked back through the fold — the closing transpose and reshape, the third region's rows, the reshape before
   it, the second region's batch elements, the first region's, and the host's transposes, reshapes and format changes of the
   arguments before the first region (a buffer no region or stretch writes is read through unchanged). -/
import proofs.«155221_j24060406792682_2_alg».proof.Proof.Spec
import proofs.«155221_j24060406792682_2_alg».proof.Proof.Gen.KernelIdeal.Frame
import Idealize.ShloMosaic.Lib.ValueIdx
import Idealize.ShloMosaic.Lib.Pipeline.Value
import Idealize.ShloMosaic.PureOps.Ideal.Laws
import proofs.«155221_j24060406792682_2_alg».proof.Proof.Finals
import proofs.«155221_j24060406792682_2_alg».proof.Proof.KernelValueWalk

noncomputable section

namespace Cert.KernelIdeal.KernelValue

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg) (c : Dev nD)

/-- The result buffer after the whole program: the specification's array, with the attention output formed as TWO sums. -/
theorem kernel_value :
    W6 (F := Ideal) m ρ c (Proc.devRef .tc main_v21)
      = specArr true (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨b, d, t, n, rfl⟩ : ∃ (b : Fin 32) (d : Fin 512) (t : Fin 32) (n : Fin 64), i = ix4 b d t n :=
    ⟨i 0, i 1, i 2, i 3, eq_ix4 i⟩
  -- the closing transpose and reshape, then the third region's rows
  refine (HE.w6_v21 m ρ c b d t n).trans ?_
  rw [HE.w5_v19 m ρ c _ d, HE.v4_row m ρ c b n t _ rfl, HE.v4_w1 m ρ c, HE.v4_b1 m ρ c, HE.v4_w2 m ρ c, HE.v4_b2 m ρ c]
  -- what is left is the specification's array at (b, d, t, n), by its definition
  rfl

end Cert.KernelIdeal.KernelValue

end
-- ==== Proof.LibAfterAppend.lean ====
/-
  Host operations run one list after the other: the buffer contents after `l₁ ++ l₂` are the contents after `l₂` from
  the contents after `l₁` (`after_append`), so a long stretch of host operations can be read in pieces cut at any
  position (`after_take_drop`) — each piece's result stated once over an arbitrary valuation, the pieces composed by
  rewriting. For any topology, signature and value type.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lists of operations run in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list of operations cut at position `n`. -/
theorem after_take_drop (n : Nat) (l : List (HloOp τ sig Val)) (V : Valuation τ sig Val) :
    after l V = after (l.drop n) (after (l.take n) V) := by
  rw [← after_append, List.take_append_drop]

end Cert.LibAfterAppend

end
-- ==== Proof.RefRunOps.lean ====
/- The reference's 97 host operations cut into five consecutive stretches, the buffers each stretch writes, and that a
   buffer a stretch does not write keeps its contents over it. -/
import proofs.«155221_j24060406792682_2_alg».proof.Proof.RunP
import proofs.«155221_j24060406792682_2_alg».proof.Proof.LibAfterAppend

noncomputable section

namespace Cert.ReferenceIdeal.RefRun.HH

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Stretch 1: operations 0–23 of the reference's list, writing main_v0 … main_v23. -/
def s1 : List (HloOp τ sig (Elt F)) :=
  [ unary main_arg0 main_v0 ((transpose S32x64x32x512 [0, 3, 2, 1] · transposes_S32x512x32x64_S32x64x32x512_0_3_2_1) : (⟨S32x512x32x64, .f32⟩ : BufTy).Contents (Elt F) → (⟨S32x64x32x512, .f32⟩ : BufTy).Contents (Elt F)),
    unary main_arg17 main_v1 (broadcastInDim S32x64x32x512 ![0, 1, 2, 3] bcast_S1x64x1x512_S32x64x32x512_0_1_2_3 : (⟨S1x64x1x512, .f32⟩ : BufTy).Contents (Elt F) → (⟨S32x64x32x512, .f32⟩ : BufTy).Contents (Elt F)),
    binary main_v0 main_v1 main_v2 (addf : (⟨S32x64x32x512, .f32⟩ : BufTy).Contents (Elt F) → (⟨S32x64x32x512, .f32⟩ : BufTy).Contents (Elt F) → (⟨S32x64x32x512, .f32⟩ : BufTy).Contents (Elt F)),
    binary main_v2 main_arg1 main_v3 ((fun l r => Host.dotGeneral dot_S32x64x32x512_S512x512_S32x64x32x512_3_1_012_0_n_n none l r) : (⟨S32x64x32x512, .f32⟩ : BufTy).Contents (Elt F) → (⟨S512x512, .f32⟩ : BufTy).Contents (Elt F) → (⟨S32x64x32x512, .f32⟩ : BufTy).Contents (Elt F)),
    unary main_arg2 main_v4 (broadcastInDim S1x1x1x512 ![3] bcast_S512_S1x1x1x512_3 : (⟨S512, .f32⟩ : BufTy).Contents (Elt F) → (⟨S1x1x1x512, .f32⟩ : BufTy).Contents (Elt F)),
    unary main_v4 main_v5 (broadcastInDim S32x64x32x512 ![0, 1, 2, 3] bcast_S1x1x1x512_S32x64x32x512_0_1_2_3 : (⟨S1x1x1x512, .f32⟩ : BufTy).Contents (Elt F) → (⟨S32x64x32x512, .f32⟩ : BufTy).Contents (Elt F)),
    binary main_v3 main_v5 main_v6 (addf : (⟨S32x64x32x512, .f32⟩ : BufTy).Contents (Elt F) → (⟨S32x64x32x512, .f32⟩ : BufTy).Contents (Elt F) → (⟨S32x64x32x512, .f32⟩ : BufTy).Contents (Elt F)),
    reshape main_v6 main_v7 rfl shapeCasts_S32x64x32x512_S32x64x32x8x64,
    unary main_v7 main_v8 ((transpose S32x8x64x32x64 [0, 3, 1, 2, 4] · transposes_S32x64x32x8x64_S32x8x64x32x64_0_3_1_2_4) : (⟨S32x64x32x8x64, .f32⟩ : BufTy).Contents (Elt F) → (⟨S32x8x64x32x64, .f32⟩ : BufTy).Contents (Elt F)),
    reshape main_v8 main_v9 rfl shapeCasts_S32x8x64x32x64_S32x8x64x2048,
    binary main_v2 main_arg3 main_v10 ((fun l r => Host.dotGeneral dot_S32x64x32x512_S512x512_S32x64x32x512_3_1_012_0_n_n none l r) : (⟨S32x64x32x512, .f32⟩ : BufTy).Contents (Elt F) → (⟨S512x512, .f32⟩ : BufTy).Contents (Elt F) → (⟨S32x64x32x512, .f32⟩ : BufTy).Contents (Elt F)),
    unary main_arg4 main_v11 (broadcastInDim S1x1x1x512 ![3] bcast_S512_S1x1x1x512_3 : (⟨S512, .f32⟩ : BufTy).Contents (Elt F) → (⟨S1x1x1x512, .f32⟩ : BufTy).Contents (Elt F)),
    unary main_v11 main_v12 (broadcastInDim S32x64x32x512 ![0, 1, 2, 3] bcast_S1x1x1x512_S32x64x32x512_0_1_2_3 : (⟨S1x1x1x512, .f32⟩ : BufTy).Contents (Elt F) → (⟨S32x64x32x512, .f32⟩ : BufTy).Contents (Elt F)),
    binary main_v10 main_v12 main_v13 (addf : (⟨S32x64x32x512, .f32⟩ : BufTy).Contents (Elt F) → (⟨S32x64x32x512, .f32⟩ : BufTy).Contents (Elt F) → (⟨S32x64x32x512, .f32⟩ : BufTy).Contents (Elt F)),
    reshape main_v13 main_v14 rfl shapeCasts_S32x64x32x512_S32x64x32x8x64,
    unary main_v14 main_v15 ((transpose S32x8x64x32x64 [0, 3, 1, 2, 4] · transposes_S32x64x32x8x64_S32x8x64x32x64_0_3_1_2_4) : (⟨S32x64x32x8x64, .f32⟩ : BufTy).Contents (Elt F) → (⟨S32x8x64x32x64, .f32⟩ : BufTy).Contents (Elt F)),
    reshape main_v15 main_v16 rfl shapeCasts_S32x8x64x32x64_S32x8x64x2048,
    binary main_v0 main_arg5 main_v17 ((fun l r => Host.dotGeneral dot_S32x64x32x512_S512x512_S32x64x32x512_3_1_012_0_n_n none l r) : (⟨S32x64x32x512, .f32⟩ : BufTy).Contents (Elt F) → (⟨S512x512, .f32⟩ : BufTy).Contents (Elt F) → (⟨S32x64x32x512, .f32⟩ : BufTy).Contents (Elt F)),
    unary main_arg6 main_v18 (broadcastInDim S1x1x1x512 ![3] bcast_S512_S1x1x1x512_3 : (⟨S512, .f32⟩ : BufTy).Contents (Elt F) → (⟨S1x1x1x512, .f32⟩ : BufTy).Contents (Elt F)),
    unary main_v18 main_v19 (broadcastInDim S32x64x32x512 ![0, 1, 2, 3] bcast_S1x1x1x512_S32x64x32x512_0_1_2_3 : (⟨S1x1x1x512, .f32⟩ : BufTy).Contents (Elt F) → (⟨S32x64x32x512, .f32⟩ : BufTy).Contents (Elt F)),
    binary main_v17 main_v19 main_v20 (addf : (⟨S32x64x32x512, .f32⟩ : BufTy).Contents (Elt F) → (⟨S32x64x32x512, .f32⟩ : BufTy).Contents (Elt F) → (⟨S32x64x32x512, .f32⟩ : BufTy).Contents (Elt F)),
    reshape main_v20 main_v21 rfl shapeCasts_S32x64x32x512_S32x64x32x8x64,
    unary main_v21 main_v22 ((transpose S32x8x64x32x64 [0, 3, 1, 2, 4] · transposes_S32x64x32x8x64_S32x8x64x32x64_0_3_1_2_4) : (⟨S32x64x32x8x64, .f32⟩ : BufTy).Contents (Elt F) → (⟨S32x8x64x32x64, .f32⟩ : BufTy).Contents (Elt F)),
    reshape main_v22 main_v23 rfl shapeCasts_S32x8x64x32x64_S32x8x64x2048 ]

/-- Stretch 2: operations 24–49 of the reference's list, writing main_v24 … main_v45. -/
def s2 : List (HloOp τ sig (Elt F)) :=
  [ binary main_v9 main_v16 main_v24 ((fun l r => Host.dotGeneral dot_S32x8x64x2048_S32x8x64x2048_S32x8x64x64_3_3_2_2_01_01 none l r) : (⟨S32x8x64x2048, .f32⟩ : BufTy).Contents (Elt F) → (⟨S32x8x64x2048, .f32⟩ : BufTy).Contents (Elt F) → (⟨S32x8x64x64, .f32⟩ : BufTy).Contents (Elt F)),
    nullary main_cst (constant S_ .f32 0x3CB504F3#32),
    unary main_cst main_v25 (broadcastInDim S32x8x64x64 ![] bcast_S_S32x8x64x64 : (⟨S_, .f32⟩ : BufTy).Contents (Elt F) → (⟨S32x8x64x64, .f32⟩ : BufTy).Contents (Elt F)),
    binary main_v24 main_v25 main_v26 (mulf : (⟨S32x8x64x64, .f32⟩ : BufTy).Contents (Elt F) → (⟨S32x8x64x64, .f32⟩ : BufTy).Contents (Elt F) → (⟨S32x8x64x64, .f32⟩ : BufTy).Contents (Elt F)),
    nullary main_cst_0 (constant S_ .f32 0xFF800000#32),
    binary main_v26 main_cst_0 main_v27 ((fun x v => Host.reduce FloatOps.maximumf x v reducesTo_S32x8x64x64_S32x8x64_d3 h_S_) : (⟨S32x8x64x64, .f32⟩ : BufTy).Contents (Elt F) → (⟨S_, .f32⟩ : BufTy).Contents (Elt F) → (⟨S32x8x64, .f32⟩ : BufTy).Contents (Elt F)),
    nullary main_cst_1 (constant S_ .f32 0xFF800000#32),
    unary main_cst_1 main_v28 (broadcastInDim S32x8x64 ![] bcast_S_S32x8x64 : (⟨S_, .f32⟩ : BufTy).Contents (Elt F) → (⟨S32x8x64, .f32⟩ : BufTy).Contents (Elt F)),
    binary main_v28 main_v27 main_v29 (maximumf : (⟨S32x8x64, .f32⟩ : BufTy).Contents (Elt F) → (⟨S32x8x64, .f32⟩ : BufTy).Contents (Elt F) → (⟨S32x8x64, .f32⟩ : BufTy).Contents (Elt F)),
    unary main_v29 main_v30 (broadcastInDim S32x8x64x1 ![0, 1, 2] bcast_S32x8x64_S32x8x64x1_0_1_2 : (⟨S32x8x64, .f32⟩ : BufTy).Contents (Elt F) → (⟨S32x8x64x1, .f32⟩ : BufTy).Contents (Elt F)),
    unary main_v30 main_v31 (broadcastInDim S32x8x64x64 ![0, 1, 2, 3] bcast_S32x8x64x1_S32x8x64x64_0_1_2_3 : (⟨S32x8x64x1, .f32⟩ : BufTy).Contents (Elt F) → (⟨S32x8x64x64, .f32⟩ : BufTy).Contents (Elt F)),
    binary main_v26 main_v31 main_v32 (subf : (⟨S32x8x64x64, .f32⟩ : BufTy).Contents (Elt F) → (⟨S32x8x64x64, .f32⟩ : BufTy).Contents (Elt F) → (⟨S32x8x64x64, .f32⟩ : BufTy).Contents (Elt F)),
    unary main_v32 main_v33 (Host.exp : (⟨S32x8x64x64, .f32⟩ : BufTy).Contents (Elt F) → (⟨S32x8x64x64, .f32⟩ : BufTy).Contents (Elt F)),
    nullary main_cst_2 (constant S_ .f32 0x00000000#32),
    binary main_v33 main_cst_2 main_v34 ((fun x v => Host.reduceAdd x v reducesTo_S32x8x64x64_S32x8x64_d3 h_S_) : (⟨S32x8x64x64, .f32⟩ : BufTy).Contents (Elt F) → (⟨S_, .f32⟩ : BufTy).Contents (Elt F) → (⟨S32x8x64, .f32⟩ : BufTy).Contents (Elt F)),
    unary main_v34 main_v35 (broadcastInDim S32x8x64x1 ![0, 1, 2] bcast_S32x8x64_S32x8x64x1_0_1_2 : (⟨S32x8x64, .f32⟩ : BufTy).Contents (Elt F) → (⟨S32x8x64x1, .f32⟩ : BufTy).Contents (Elt F)),
    unary main_v35 main_v36 (broadcastInDim S32x8x64x64 ![0, 1, 2, 3] bcast_S32x8x64x1_S32x8x64x64_0_1_2_3 : (⟨S32x8x64x1, .f32⟩ : BufTy).Contents (Elt F) → (⟨S32x8x64x64, .f32⟩ : BufTy).Contents (Elt F)),
    binary main_v33 main_v36 main_v37 (Host.divf : (⟨S32x8x64x64, .f32⟩ : BufTy).Contents (Elt F) → (⟨S32x8x64x64, .f32⟩ : BufTy).Contents (Elt F) → (⟨S32x8x64x64, .f32⟩ : BufTy).Contents (Elt F)),
    unary main_arg16 main_v38 (broadcastInDim S32x8x64x64 ![0, 1, 2, 3] bcast_S1x8x1x1_S32x8x64x64_0_1_2_3 : (⟨S1x8x1x1, .f32⟩ : BufTy).Contents (Elt F) → (⟨S32x8x64x64, .f32⟩ : BufTy).Contents (Elt F)),
    binary main_v37 main_v38 main_v39 (mulf : (⟨S32x8x64x64, .f32⟩ : BufTy).Contents (Elt F) → (⟨S32x8x64x64, .f32⟩ : BufTy).Contents (Elt F) → (⟨S32x8x64x64, .f32⟩ : BufTy).Contents (Elt F)),
    unary main_arg15 main_v40 (broadcastInDim S32x8x64x64 ![0, 1, 2, 3] bcast_S1x8x64x64_S32x8x64x64_0_1_2_3 : (⟨S1x8x64x64, .f32⟩ : BufTy).Contents (Elt F) → (⟨S32x8x64x64, .f32⟩ : BufTy).Contents (Elt F)),
    binary main_v39 main_v40 main_v41 (addf : (⟨S32x8x64x64, .f32⟩ : BufTy).Contents (Elt F) → (⟨S32x8x64x64, .f32⟩ : BufTy).Contents (Elt F) → (⟨S32x8x64x64, .f32⟩ : BufTy).Contents (Elt F)),
    binary main_v41 main_v23 main_v42 ((fun l r => Host.dotGeneral dot_S32x8x64x64_S32x8x64x2048_S32x8x64x2048_3_2_2_3_01_01 none l r) : (⟨S32x8x64x64, .f32⟩ : BufTy).Contents (Elt F) → (⟨S32x8x64x2048, .f32⟩ : BufTy).Contents (Elt F) → (⟨S32x8x64x2048, .f32⟩ : BufTy).Contents (Elt F)),
    reshape main_v42 main_v43 rfl shapeCasts_S32x8x64x2048_S32x8x64x32x64,
    unary main_v43 main_v44 ((transpose S32x64x32x8x64 [0, 2, 3, 1, 4] · transposes_S32x8x64x32x64_S32x64x32x8x64_0_2_3_1_4) : (⟨S32x8x64x32x64, .f32⟩ : BufTy).Contents (Elt F) → (⟨S32x64x32x8x64, .f32⟩ : BufTy).Contents (Elt F)),
    reshape main_v44 main_v45 rfl shapeCasts_S32x64x32x8x64_S32x64x32x512 ]

/-- Stretch 3: operations 50–62 of the reference's list, writing main_v46 … main_v56. -/
def s3 : List (HloOp τ sig (Elt F)) :=
  [ binary main_v45 main_arg7 main_v46 ((fun l r => Host.dotGeneral dot_S32x64x32x512_S512x512_S32x64x32x512_3_1_012_0_n_n none l r) : (⟨S32x64x32x512, .f32⟩ : BufTy).Contents (Elt F) → (⟨S512x512, .f32⟩ : BufTy).Contents (Elt F) → (⟨S32x64x32x512, .f32⟩ : BufTy).Contents (Elt F)),
    unary main_arg8 main_v47 (broadcastInDim S1x1x1x512 ![3] bcast_S512_S1x1x1x512_3 : (⟨S512, .f32⟩ : BufTy).Contents (Elt F) → (⟨S1x1x1x512, .f32⟩ : BufTy).Contents (Elt F)),
    unary main_v47 main_v48 (broadcastInDim S32x64x32x512 ![0, 1, 2, 3] bcast_S1x1x1x512_S32x64x32x512_0_1_2_3 : (⟨S1x1x1x512, .f32⟩ : BufTy).Contents (Elt F) → (⟨S32x64x32x512, .f32⟩ : BufTy).Contents (Elt F)),
    binary main_v46 main_v48 main_v49 (addf : (⟨S32x64x32x512, .f32⟩ : BufTy).Contents (Elt F) → (⟨S32x64x32x512, .f32⟩ : BufTy).Contents (Elt F) → (⟨S32x64x32x512, .f32⟩ : BufTy).Contents (Elt F)),
    binary main_v0 main_v49 main_v50 (addf : (⟨S32x64x32x512, .f32⟩ : BufTy).Contents (Elt F) → (⟨S32x64x32x512, .f32⟩ : BufTy).Contents (Elt F) → (⟨S32x64x32x512, .f32⟩ : BufTy).Contents (Elt F)),
    nullary main_cst_3 (constant S_ .f32 0x00000000#32),
    binary main_v50 main_cst_3 main_v51 ((fun x v => Host.reduceAdd x v reducesTo_S32x64x32x512_S32_d1_2_3 h_S_) : (⟨S32x64x32x512, .f32⟩ : BufTy).Contents (Elt F) → (⟨S_, .f32⟩ : BufTy).Contents (Elt F) → (⟨S32, .f32⟩ : BufTy).Contents (Elt F)),
    unary main_v51 main_v52 (broadcastInDim S32x1x1x1 ![0] bcast_S32_S32x1x1x1_0 : (⟨S32, .f32⟩ : BufTy).Contents (Elt F) → (⟨S32x1x1x1, .f32⟩ : BufTy).Contents (Elt F)),
    nullary main_cst_4 (constant S_ .f32 0x49800000#32),
    unary main_cst_4 main_v53 (broadcastInDim S32x1x1x1 ![] bcast_S_S32x1x1x1 : (⟨S_, .f32⟩ : BufTy).Contents (Elt F) → (⟨S32x1x1x1, .f32⟩ : BufTy).Contents (Elt F)),
    binary main_v52 main_v53 main_v54 (Host.divf : (⟨S32x1x1x1, .f32⟩ : BufTy).Contents (Elt F) → (⟨S32x1x1x1, .f32⟩ : BufTy).Contents (Elt F) → (⟨S32x1x1x1, .f32⟩ : BufTy).Contents (Elt F)),
    unary main_v54 main_v55 (broadcastInDim S32x64x32x512 ![0, 1, 2, 3] bcast_S32x1x1x1_S32x64x32x512_0_1_2_3 : (⟨S32x1x1x1, .f32⟩ : BufTy).Contents (Elt F) → (⟨S32x64x32x512, .f32⟩ : BufTy).Contents (Elt F)),
    binary main_v50 main_v55 main_v56 (subf : (⟨S32x64x32x512, .f32⟩ : BufTy).Contents (Elt F) → (⟨S32x64x32x512, .f32⟩ : BufTy).Contents (Elt F) → (⟨S32x64x32x512, .f32⟩ : BufTy).Contents (Elt F)) ]

/-- Stretch 4: operations 63–83 of the reference's list, writing main_v57 … main_v74. -/
def s4 : List (HloOp τ sig (Elt F)) :=
  [ binary main_v56 main_v56 main_v57 (mulf : (⟨S32x64x32x512, .f32⟩ : BufTy).Contents (Elt F) → (⟨S32x64x32x512, .f32⟩ : BufTy).Contents (Elt F) → (⟨S32x64x32x512, .f32⟩ : BufTy).Contents (Elt F)),
    nullary main_cst_5 (constant S_ .f32 0x00000000#32),
    binary main_v57 main_cst_5 main_v58 ((fun x v => Host.reduceAdd x v reducesTo_S32x64x32x512_S32_d1_2_3 h_S_) : (⟨S32x64x32x512, .f32⟩ : BufTy).Contents (Elt F) → (⟨S_, .f32⟩ : BufTy).Contents (Elt F) → (⟨S32, .f32⟩ : BufTy).Contents (Elt F)),
    unary main_v58 main_v59 (broadcastInDim S32x1x1x1 ![0] bcast_S32_S32x1x1x1_0 : (⟨S32, .f32⟩ : BufTy).Contents (Elt F) → (⟨S32x1x1x1, .f32⟩ : BufTy).Contents (Elt F)),
    nullary main_cst_6 (constant S_ .f32 0x49800000#32),
    unary main_cst_6 main_v60 (broadcastInDim S32x1x1x1 ![] bcast_S_S32x1x1x1 : (⟨S_, .f32⟩ : BufTy).Contents (Elt F) → (⟨S32x1x1x1, .f32⟩ : BufTy).Contents (Elt F)),
    binary main_v59 main_v60 main_v61 (Host.divf : (⟨S32x1x1x1, .f32⟩ : BufTy).Contents (Elt F) → (⟨S32x1x1x1, .f32⟩ : BufTy).Contents (Elt F) → (⟨S32x1x1x1, .f32⟩ : BufTy).Contents (Elt F)),
    unary main_v54 main_v62 (broadcastInDim S32x64x32x512 ![0, 1, 2, 3] bcast_S32x1x1x1_S32x64x32x512_0_1_2_3 : (⟨S32x1x1x1, .f32⟩ : BufTy).Contents (Elt F) → (⟨S32x64x32x512, .f32⟩ : BufTy).Contents (Elt F)),
    binary main_v50 main_v62 main_v63 (subf : (⟨S32x64x32x512, .f32⟩ : BufTy).Contents (Elt F) → (⟨S32x64x32x512, .f32⟩ : BufTy).Contents (Elt F) → (⟨S32x64x32x512, .f32⟩ : BufTy).Contents (Elt F)),
    nullary main_cst_7 (constant S_ .f32 0x3727C5AC#32),
    unary main_cst_7 main_v64 (broadcastInDim S32x1x1x1 ![] bcast_S_S32x1x1x1 : (⟨S_, .f32⟩ : BufTy).Contents (Elt F) → (⟨S32x1x1x1, .f32⟩ : BufTy).Contents (Elt F)),
    binary main_v61 main_v64 main_v65 (addf : (⟨S32x1x1x1, .f32⟩ : BufTy).Contents (Elt F) → (⟨S32x1x1x1, .f32⟩ : BufTy).Contents (Elt F) → (⟨S32x1x1x1, .f32⟩ : BufTy).Contents (Elt F)),
    unary main_v65 main_v66 (Host.rsqrt : (⟨S32x1x1x1, .f32⟩ : BufTy).Contents (Elt F) → (⟨S32x1x1x1, .f32⟩ : BufTy).Contents (Elt F)),
    unary main_v66 main_v67 (broadcastInDim S32x64x32x512 ![0, 1, 2, 3] bcast_S32x1x1x1_S32x64x32x512_0_1_2_3 : (⟨S32x1x1x1, .f32⟩ : BufTy).Contents (Elt F) → (⟨S32x64x32x512, .f32⟩ : BufTy).Contents (Elt F)),
    binary main_v63 main_v67 main_v68 (mulf : (⟨S32x64x32x512, .f32⟩ : BufTy).Contents (Elt F) → (⟨S32x64x32x512, .f32⟩ : BufTy).Contents (Elt F) → (⟨S32x64x32x512, .f32⟩ : BufTy).Contents (Elt F)),
    unary main_arg13 main_v69 (broadcastInDim S1x64x32x512 ![1, 2, 3] bcast_S64x32x512_S1x64x32x512_1_2_3 : (⟨S64x32x512, .f32⟩ : BufTy).Contents (Elt F) → (⟨S1x64x32x512, .f32⟩ : BufTy).Contents (Elt F)),
    unary main_v69 main_v70 (broadcastInDim S32x64x32x512 ![0, 1, 2, 3] bcast_S1x64x32x512_S32x64x32x512_0_1_2_3 : (⟨S1x64x32x512, .f32⟩ : BufTy).Contents (Elt F) → (⟨S32x64x32x512, .f32⟩ : BufTy).Contents (Elt F)),
    binary main_v68 main_v70 main_v71 (mulf : (⟨S32x64x32x512, .f32⟩ : BufTy).Contents (Elt F) → (⟨S32x64x32x512, .f32⟩ : BufTy).Contents (Elt F) → (⟨S32x64x32x512, .f32⟩ : BufTy).Contents (Elt F)),
    unary main_arg14 main_v72 (broadcastInDim S1x64x32x512 ![1, 2, 3] bcast_S64x32x512_S1x64x32x512_1_2_3 : (⟨S64x32x512, .f32⟩ : BufTy).Contents (Elt F) → (⟨S1x64x32x512, .f32⟩ : BufTy).Contents (Elt F)),
    unary main_v72 main_v73 (broadcastInDim S32x64x32x512 ![0, 1, 2, 3] bcast_S1x64x32x512_S32x64x32x512_0_1_2_3 : (⟨S1x64x32x512, .f32⟩ : BufTy).Contents (Elt F) → (⟨S32x64x32x512, .f32⟩ : BufTy).Contents (Elt F)),
    binary main_v71 main_v73 main_v74 (addf : (⟨S32x64x32x512, .f32⟩ : BufTy).Contents (Elt F) → (⟨S32x64x32x512, .f32⟩ : BufTy).Contents (Elt F) → (⟨S32x64x32x512, .f32⟩ : BufTy).Contents (Elt F)) ]

/-- Stretch 5: operations 84–96 of the reference's list, writing main_v75 … main_v85. -/
def s5 : List (HloOp τ sig (Elt F)) :=
  [ binary main_v74 main_arg9 main_v75 ((fun l r => Host.dotGeneral dot_S32x64x32x512_S2048x512_S32x64x32x2048_3_1_012_0_n_n none l r) : (⟨S32x64x32x512, .f32⟩ : BufTy).Contents (Elt F) → (⟨S2048x512, .f32⟩ : BufTy).Contents (Elt F) → (⟨S32x64x32x2048, .f32⟩ : BufTy).Contents (Elt F)),
    unary main_arg10 main_v76 (broadcastInDim S1x1x1x2048 ![3] bcast_S2048_S1x1x1x2048_3 : (⟨S2048, .f32⟩ : BufTy).Contents (Elt F) → (⟨S1x1x1x2048, .f32⟩ : BufTy).Contents (Elt F)),
    unary main_v76 main_v77 (broadcastInDim S32x64x32x2048 ![0, 1, 2, 3] bcast_S1x1x1x2048_S32x64x32x2048_0_1_2_3 : (⟨S1x1x1x2048, .f32⟩ : BufTy).Contents (Elt F) → (⟨S32x64x32x2048, .f32⟩ : BufTy).Contents (Elt F)),
    binary main_v75 main_v77 main_v78 (addf : (⟨S32x64x32x2048, .f32⟩ : BufTy).Contents (Elt F) → (⟨S32x64x32x2048, .f32⟩ : BufTy).Contents (Elt F) → (⟨S32x64x32x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x64x32x2048, .f32⟩) main_call0_v0) (broadcastInDim S32x64x32x2048 ![] bcast_S_S32x64x32x2048),
    TRef.binary (TRef.of (T := ⟨S32x64x32x2048, .f32⟩) main_v78) (TRef.of (T := ⟨S32x64x32x2048, .f32⟩) main_call0_v0) (TRef.of (T := ⟨S32x64x32x2048, .f32⟩) main_v79) maximumf,
    binary main_v79 main_arg11 main_v80 ((fun l r => Host.dotGeneral dot_S32x64x32x2048_S512x2048_S32x64x32x512_3_1_012_0_n_n none l r) : (⟨S32x64x32x2048, .f32⟩ : BufTy).Contents (Elt F) → (⟨S512x2048, .f32⟩ : BufTy).Contents (Elt F) → (⟨S32x64x32x512, .f32⟩ : BufTy).Contents (Elt F)),
    unary main_arg12 main_v81 (broadcastInDim S1x1x1x512 ![3] bcast_S512_S1x1x1x512_3 : (⟨S512, .f32⟩ : BufTy).Contents (Elt F) → (⟨S1x1x1x512, .f32⟩ : BufTy).Contents (Elt F)),
    unary main_v81 main_v82 (broadcastInDim S32x64x32x512 ![0, 1, 2, 3] bcast_S1x1x1x512_S32x64x32x512_0_1_2_3 : (⟨S1x1x1x512, .f32⟩ : BufTy).Contents (Elt F) → (⟨S32x64x32x512, .f32⟩ : BufTy).Contents (Elt F)),
    binary main_v80 main_v82 main_v83 (addf : (⟨S32x64x32x512, .f32⟩ : BufTy).Contents (Elt F) → (⟨S32x64x32x512, .f32⟩ : BufTy).Contents (Elt F) → (⟨S32x64x32x512, .f32⟩ : BufTy).Contents (Elt F)),
    binary main_v74 main_v83 main_v84 (addf : (⟨S32x64x32x512, .f32⟩ : BufTy).Contents (Elt F) → (⟨S32x64x32x512, .f32⟩ : BufTy).Contents (Elt F) → (⟨S32x64x32x512, .f32⟩ : BufTy).Contents (Elt F)),
    unary main_v84 main_v85 ((transpose S32x512x32x64 [0, 3, 2, 1] · transposes_S32x64x32x512_S32x512x32x64_0_3_2_1) : (⟨S32x64x32x512, .f32⟩ : BufTy).Contents (Elt F) → (⟨S32x512x32x64, .f32⟩ : BufTy).Contents (Elt F)) ]

/-- The reference's operations are the five stretches in turn. -/
theorem ops_split : (ops : List (HloOp τ sig (Elt F))) = s1 ++ (s2 ++ (s3 ++ (s4 ++ s5))) := rfl

/-- The buffer contents after the whole list: the stretches applied in turn. -/
theorem after_ops (V : Valuation τ sig (Elt F)) :
    after ops V = after s5 (after s4 (after s3 (after s2 (after s1 V)))) := by
  rw [ops_split, Cert.LibAfterAppend.after_append, Cert.LibAfterAppend.after_append, Cert.LibAfterAppend.after_append,
    Cert.LibAfterAppend.after_append]

/-- The buffers stretch 1 writes. -/
def wr1 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23]

theorem s1_writes : (s1 (F := F)).Forall fun op => op.writes ⊆ (wr1.map (Proc.devRef (τ := τ) .tc)).toFinset := by
  simp only [s1, List.Forall, nullary_writes, unary_writes, binary_writes, reshape_writes, Finset.singleton_subset_iff,
    List.mem_toFinset]
  repeat' apply And.intro
  all_goals exact List.mem_map_of_mem (by decide)

/-- A buffer stretch 1 does not write keeps its contents over it. -/
theorem keep1 (W : Valuation τ sig (Elt F)) {r : Ref sig .tc} (hr : r ∉ wr1) :
    after s1 W (Proc.devRef .tc r) = W (Proc.devRef .tc r) :=
  after_of_writes_sub s1 W s1_writes hr

/-- The buffers stretch 2 writes. -/
def wr2 : List (Ref sig .tc) :=
  [main_v24, main_cst, main_v25, main_v26, main_cst_0, main_v27, main_cst_1, main_v28, main_v29, main_v30, main_v31, main_v32, main_v33, main_cst_2, main_v34, main_v35, main_v36, main_v37, main_v38, main_v39, main_v40, main_v41, main_v42, main_v43, main_v44, main_v45]

theorem s2_writes : (s2 (F := F)).Forall fun op => op.writes ⊆ (wr2.map (Proc.devRef (τ := τ) .tc)).toFinset := by
  simp only [s2, List.Forall, nullary_writes, unary_writes, binary_writes, reshape_writes, Finset.singleton_subset_iff,
    List.mem_toFinset]
  repeat' apply And.intro
  all_goals exact List.mem_map_of_mem (by decide)

/-- A buffer stretch 2 does not write keeps its contents over it. -/
theorem keep2 (W : Valuation τ sig (Elt F)) {r : Ref sig .tc} (hr : r ∉ wr2) :
    after s2 W (Proc.devRef .tc r) = W (Proc.devRef .tc r) :=
  after_of_writes_sub s2 W s2_writes hr

/-- The buffers stretch 3 writes. -/
def wr3 : List (Ref sig .tc) :=
  [main_v46, main_v47, main_v48, main_v49, main_v50, main_cst_3, main_v51, main_v52, main_cst_4, main_v53, main_v54, main_v55, main_v56]

theorem s3_writes : (s3 (F := F)).Forall fun op => op.writes ⊆ (wr3.map (Proc.devRef (τ := τ) .tc)).toFinset := by
  simp only [s3, List.Forall, nullary_writes, unary_writes, binary_writes, reshape_writes, Finset.singleton_subset_iff,
    List.mem_toFinset]
  repeat' apply And.intro
  all_goals exact List.mem_map_of_mem (by decide)

/-- A buffer stretch 3 does not write keeps its contents over it. -/
theorem keep3 (W : Valuation τ sig (Elt F)) {r : Ref sig .tc} (hr : r ∉ wr3) :
    after s3 W (Proc.devRef .tc r) = W (Proc.devRef .tc r) :=
  after_of_writes_sub s3 W s3_writes hr

/-- The buffers stretch 4 writes. -/
def wr4 : List (Ref sig .tc) :=
  [main_v57, main_cst_5, main_v58, main_v59, main_cst_6, main_v60, main_v61, main_v62, main_v63, main_cst_7, main_v64, main_v65, main_v66, main_v67, main_v68, main_v69, main_v70, main_v71, main_v72, main_v73, main_v74]

theorem s4_writes : (s4 (F := F)).Forall fun op => op.writes ⊆ (wr4.map (Proc.devRef (τ := τ) .tc)).toFinset := by
  simp only [s4, List.Forall, nullary_writes, unary_writes, binary_writes, reshape_writes, Finset.singleton_subset_iff,
    List.mem_toFinset]
  repeat' apply And.intro
  all_goals exact List.mem_map_of_mem (by decide)

/-- A buffer stretch 4 does not write keeps its contents over it. -/
theorem keep4 (W : Valuation τ sig (Elt F)) {r : Ref sig .tc} (hr : r ∉ wr4) :
    after s4 W (Proc.devRef .tc r) = W (Proc.devRef .tc r) :=
  after_of_writes_sub s4 W s4_writes hr

/-- The buffers stretch 5 writes. -/
def wr5 : List (Ref sig .tc) :=
  [main_v75, main_v76, main_v77, main_v78, main_call0_cst, main_call0_v0, main_v79, main_v80, main_v81, main_v82, main_v83, main_v84, main_v85]

theorem s5_writes : (s5 (F := F)).Forall fun op => op.writes ⊆ (wr5.map (Proc.devRef (τ := τ) .tc)).toFinset := by
  simp only [s5, List.Forall, nullary_writes, unary_writes, binary_writes, reshape_writes, Finset.singleton_subset_iff,
    List.mem_toFinset]
  repeat' apply And.intro
  all_goals exact List.mem_map_of_mem (by decide)

/-- A buffer stretch 5 does not write keeps its contents over it. -/
theorem keep5 (W : Valuation τ sig (Elt F)) {r : Ref sig .tc} (hr : r ∉ wr5) :
    after s5 W (Proc.devRef .tc r) = W (Proc.devRef .tc r) :=
  after_of_writes_sub s5 W s5_writes hr

/-- A buffer no stretch writes keeps its contents over the whole list. -/
theorem keep_all (V : Valuation τ sig (Elt F)) {r : Ref sig .tc} (h1 : r ∉ wr1) (h2 : r ∉ wr2) (h3 : r ∉ wr3) (h4 : r ∉ wr4)
    (h5 : r ∉ wr5) : after ops V (Proc.devRef .tc r) = V (Proc.devRef .tc r) := by
  rw [after_ops, keep5 _ h5, keep4 _ h4, keep3 _ h3, keep2 _ h2, keep1 _ h1]

end Cert.ReferenceIdeal.RefRun.HH

end
-- ==== Proof.RefRunS1.lean ====
/- Stretch 1 of the reference's operations read over an arbitrary valuation of the buffers: what it leaves in the
   buffers later stretches read, as the one-operation-at-a-time stage values. -/
import proofs.«155221_j24060406792682_2_alg».proof.Proof.RefRunOps
import proofs.«155221_j24060406792682_2_alg».proof.Proof.ReadP

noncomputable section

namespace Cert.ReferenceIdeal.RefRun.HH

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- What stretch 1 leaves in main_v0, from any contents that hold the earlier stages' values. -/
theorem s1_v0 (W : Valuation τ sig (Elt F))
    (x0 : (⟨S32x512x32x64, .f32⟩ : BufTy).Contents (Elt F))
    (h_x0 : W (Proc.devRef .tc main_arg0) = x0) :
    after s1 W (Proc.devRef .tc main_v0) = val_main_v0 (F := F) x0 := by
  simp only [s1]
  after_results_simp
  simp only [h_x0]
  rfl

/-- What stretch 1 leaves in main_v9, from any contents that hold the earlier stages' values. -/
theorem s1_v9 (W : Valuation τ sig (Elt F))
    (x0 : (⟨S32x512x32x64, .f32⟩ : BufTy).Contents (Elt F))
    (x1 : (⟨S512x512, .f32⟩ : BufTy).Contents (Elt F))
    (x2 : (⟨S512, .f32⟩ : BufTy).Contents (Elt F))
    (x17 : (⟨S1x64x1x512, .f32⟩ : BufTy).Contents (Elt F))
    (h_x0 : W (Proc.devRef .tc main_arg0) = x0)
    (h_x1 : W (Proc.devRef .tc main_arg1) = x1)
    (h_x2 : W (Proc.devRef .tc main_arg2) = x2)
    (h_x17 : W (Proc.devRef .tc main_arg17) = x17) :
    after s1 W (Proc.devRef .tc main_v9) = val_main_v9 (F := F) x0 x1 x2 x17 := by
  simp only [s1]
  after_results_simp
  simp only [h_x0, h_x1, h_x2, h_x17]
  rfl

/-- What stretch 1 leaves in main_v16, from any contents that hold the earlier stages' values. -/
theorem s1_v16 (W : Valuation τ sig (Elt F))
    (x0 : (⟨S32x512x32x64, .f32⟩ : BufTy).Contents (Elt F))
    (x3 : (⟨S512x512, .f32⟩ : BufTy).Contents (Elt F))
    (x4 : (⟨S512, .f32⟩ : BufTy).Contents (Elt F))
    (x17 : (⟨S1x64x1x512, .f32⟩ : BufTy).Contents (Elt F))
    (h_x0 : W (Proc.devRef .tc main_arg0) = x0)
    (h_x3 : W (Proc.devRef .tc main_arg3) = x3)
    (h_x4 : W (Proc.devRef .tc main_arg4) = x4)
    (h_x17 : W (Proc.devRef .tc main_arg17) = x17) :
    after s1 W (Proc.devRef .tc main_v16) = val_main_v16 (F := F) x0 x3 x4 x17 := by
  simp only [s1]
  after_results_simp
  simp only [h_x0, h_x3, h_x4, h_x17]
  rfl

/-- What stretch 1 leaves in main_v23, from any contents that hold the earlier stages' values. -/
theorem s1_v23 (W : Valuation τ sig (Elt F))
    (x0 : (⟨S32x512x32x64, .f32⟩ : BufTy).Contents (Elt F))
    (x5 : (⟨S512x512, .f32⟩ : BufTy).Contents (Elt F))
    (x6 : (⟨S512, .f32⟩ : BufTy).Contents (Elt F))
    (h_x0 : W (Proc.devRef .tc main_arg0) = x0)
    (h_x5 : W (Proc.devRef .tc main_arg5) = x5)
    (h_x6 : W (Proc.devRef .tc main_arg6) = x6) :
    after s1 W (Proc.devRef .tc main_v23) = val_main_v23 (F := F) x0 x5 x6 := by
  simp only [s1]
  after_results_simp
  simp only [h_x0, h_x5, h_x6]
  rfl

end Cert.ReferenceIdeal.RefRun.HH

end
-- ==== Proof.RefRunS2.lean ====
/- Stretch 2 of the reference's operations read over an arbitrary valuation of the buffers: what it leaves in the
   buffers later stretches read, as the one-operation-at-a-time stage values. -/
import proofs.«155221_j24060406792682_2_alg».proof.Proof.RefRunOps
import proofs.«155221_j24060406792682_2_alg».proof.Proof.ReadP

noncomputable section

namespace Cert.ReferenceIdeal.RefRun.HH

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- What stretch 2 leaves in main_v45, from any contents that hold the earlier stages' values. -/
theorem s2_v45 (W : Valuation τ sig (Elt F))
    (x0 : (⟨S32x512x32x64, .f32⟩ : BufTy).Contents (Elt F))
    (x1 : (⟨S512x512, .f32⟩ : BufTy).Contents (Elt F))
    (x2 : (⟨S512, .f32⟩ : BufTy).Contents (Elt F))
    (x3 : (⟨S512x512, .f32⟩ : BufTy).Contents (Elt F))
    (x4 : (⟨S512, .f32⟩ : BufTy).Contents (Elt F))
    (x5 : (⟨S512x512, .f32⟩ : BufTy).Contents (Elt F))
    (x6 : (⟨S512, .f32⟩ : BufTy).Contents (Elt F))
    (x15 : (⟨S1x8x64x64, .f32⟩ : BufTy).Contents (Elt F))
    (x16 : (⟨S1x8x1x1, .f32⟩ : BufTy).Contents (Elt F))
    (x17 : (⟨S1x64x1x512, .f32⟩ : BufTy).Contents (Elt F))
    (h_v9 : W (Proc.devRef .tc main_v9) = val_main_v9 (F := F) x0 x1 x2 x17)
    (h_v16 : W (Proc.devRef .tc main_v16) = val_main_v16 (F := F) x0 x3 x4 x17)
    (h_v23 : W (Proc.devRef .tc main_v23) = val_main_v23 (F := F) x0 x5 x6)
    (h_x15 : W (Proc.devRef .tc main_arg15) = x15)
    (h_x16 : W (Proc.devRef .tc main_arg16) = x16) :
    after s2 W (Proc.devRef .tc main_v45) = val_main_v45 (F := F) x0 x1 x2 x3 x4 x5 x6 x15 x16 x17 := by
  simp only [s2]
  after_results_simp
  simp only [h_v9, h_v16, h_v23, h_x15, h_x16]
  rfl

end Cert.ReferenceIdeal.RefRun.HH

end
-- ==== Proof.RefRunS3.lean ====
/- Stretch 3 of the reference's operations read over an arbitrary valuation of the buffers: what it leaves in the
   buffers later stretches read, as the one-operation-at-a-time stage values. -/
import proofs.«155221_j24060406792682_2_alg».proof.Proof.RefRunOps
import proofs.«155221_j24060406792682_2_alg».proof.Proof.ReadP

noncomputable section

namespace Cert.ReferenceIdeal.RefRun.HH

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- What stretch 3 leaves in main_v50, from any contents that hold the earlier stages' values. -/
theorem s3_v50 (W : Valuation τ sig (Elt F))
    (x0 : (⟨S32x512x32x64, .f32⟩ : BufTy).Contents (Elt F))
    (x1 : (⟨S512x512, .f32⟩ : BufTy).Contents (Elt F))
    (x2 : (⟨S512, .f32⟩ : BufTy).Contents (Elt F))
    (x3 : (⟨S512x512, .f32⟩ : BufTy).Contents (Elt F))
    (x4 : (⟨S512, .f32⟩ : BufTy).Contents (Elt F))
    (x5 : (⟨S512x512, .f32⟩ : BufTy).Contents (Elt F))
    (x6 : (⟨S512, .f32⟩ : BufTy).Contents (Elt F))
    (x7 : (⟨S512x512, .f32⟩ : BufTy).Contents (Elt F))
    (x8 : (⟨S512, .f32⟩ : BufTy).Contents (Elt F))
    (x15 : (⟨S1x8x64x64, .f32⟩ : BufTy).Contents (Elt F))
    (x16 : (⟨S1x8x1x1, .f32⟩ : BufTy).Contents (Elt F))
    (x17 : (⟨S1x64x1x512, .f32⟩ : BufTy).Contents (Elt F))
    (h_v45 : W (Proc.devRef .tc main_v45) = val_main_v45 (F := F) x0 x1 x2 x3 x4 x5 x6 x15 x16 x17)
    (h_v0 : W (Proc.devRef .tc main_v0) = val_main_v0 (F := F) x0)
    (h_x7 : W (Proc.devRef .tc main_arg7) = x7)
    (h_x8 : W (Proc.devRef .tc main_arg8) = x8) :
    after s3 W (Proc.devRef .tc main_v50) = val_main_v50 (F := F) x0 x1 x2 x3 x4 x5 x6 x7 x8 x15 x16 x17 := by
  simp only [s3]
  after_results_simp
  simp only [h_v45, h_v0, h_x7, h_x8]
  rfl

/-- What stretch 3 leaves in main_v54, from any contents that hold the earlier stages' values. -/
theorem s3_v54 (W : Valuation τ sig (Elt F))
    (x0 : (⟨S32x512x32x64, .f32⟩ : BufTy).Contents (Elt F))
    (x1 : (⟨S512x512, .f32⟩ : BufTy).Contents (Elt F))
    (x2 : (⟨S512, .f32⟩ : BufTy).Contents (Elt F))
    (x3 : (⟨S512x512, .f32⟩ : BufTy).Contents (Elt F))
    (x4 : (⟨S512, .f32⟩ : BufTy).Contents (Elt F))
    (x5 : (⟨S512x512, .f32⟩ : BufTy).Contents (Elt F))
    (x6 : (⟨S512, .f32⟩ : BufTy).Contents (Elt F))
    (x7 : (⟨S512x512, .f32⟩ : BufTy).Contents (Elt F))
    (x8 : (⟨S512, .f32⟩ : BufTy).Contents (Elt F))
    (x15 : (⟨S1x8x64x64, .f32⟩ : BufTy).Contents (Elt F))
    (x16 : (⟨S1x8x1x1, .f32⟩ : BufTy).Contents (Elt F))
    (x17 : (⟨S1x64x1x512, .f32⟩ : BufTy).Contents (Elt F))
    (h_v45 : W (Proc.devRef .tc main_v45) = val_main_v45 (F := F) x0 x1 x2 x3 x4 x5 x6 x15 x16 x17)
    (h_v0 : W (Proc.devRef .tc main_v0) = val_main_v0 (F := F) x0)
    (h_x7 : W (Proc.devRef .tc main_arg7) = x7)
    (h_x8 : W (Proc.devRef .tc main_arg8) = x8) :
    after s3 W (Proc.devRef .tc main_v54) = val_main_v54 (F := F) x0 x1 x2 x3 x4 x5 x6 x7 x8 x15 x16 x17 := by
  simp only [s3]
  after_results_simp
  simp only [h_v45, h_v0, h_x7, h_x8]
  rfl

/-- What stretch 3 leaves in main_v56, from any contents that hold the earlier stages' values. -/
theorem s3_v56 (W : Valuation τ sig (Elt F))
    (x0 : (⟨S32x512x32x64, .f32⟩ : BufTy).Contents (Elt F))
    (x1 : (⟨S512x512, .f32⟩ : BufTy).Contents (Elt F))
    (x2 : (⟨S512, .f32⟩ : BufTy).Contents (Elt F))
    (x3 : (⟨S512x512, .f32⟩ : BufTy).Contents (Elt F))
    (x4 : (⟨S512, .f32⟩ : BufTy).Contents (Elt F))
    (x5 : (⟨S512x512, .f32⟩ : BufTy).Contents (Elt F))
    (x6 : (⟨S512, .f32⟩ : BufTy).Contents (Elt F))
    (x7 : (⟨S512x512, .f32⟩ : BufTy).Contents (Elt F))
    (x8 : (⟨S512, .f32⟩ : BufTy).Contents (Elt F))
    (x15 : (⟨S1x8x64x64, .f32⟩ : BufTy).Contents (Elt F))
    (x16 : (⟨S1x8x1x1, .f32⟩ : BufTy).Contents (Elt F))
    (x17 : (⟨S1x64x1x512, .f32⟩ : BufTy).Contents (Elt F))
    (h_v45 : W (Proc.devRef .tc main_v45) = val_main_v45 (F := F) x0 x1 x2 x3 x4 x5 x6 x15 x16 x17)
    (h_v0 : W (Proc.devRef .tc main_v0) = val_main_v0 (F := F) x0)
    (h_x7 : W (Proc.devRef .tc main_arg7) = x7)
    (h_x8 : W (Proc.devRef .tc main_arg8) = x8) :
    after s3 W (Proc.devRef .tc main_v56) = val_main_v56 (F := F) x0 x1 x2 x3 x4 x5 x6 x7 x8 x15 x16 x17 := by
  simp only [s3]
  after_results_simp
  simp only [h_v45, h_v0, h_x7, h_x8]
  rfl

end Cert.ReferenceIdeal.RefRun.HH

end
-- ==== Proof.RefRunS4.lean ====
/- Stretch 4 of the reference's operations read over an arbitrary valuation of the buffers: what it leaves in the
   buffers later stretches read, as the one-operation-at-a-time stage values. -/
import proofs.«155221_j24060406792682_2_alg».proof.Proof.RefRunOps
import proofs.«155221_j24060406792682_2_alg».proof.Proof.ReadP

noncomputable section

namespace Cert.ReferenceIdeal.RefRun.HH

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- What stretch 4 leaves in main_v74, from any contents that hold the earlier stages' values. -/
theorem s4_v74 (W : Valuation τ sig (Elt F))
    (x0 : (⟨S32x512x32x64, .f32⟩ : BufTy).Contents (Elt F))
    (x1 : (⟨S512x512, .f32⟩ : BufTy).Contents (Elt F))
    (x2 : (⟨S512, .f32⟩ : BufTy).Contents (Elt F))
    (x3 : (⟨S512x512, .f32⟩ : BufTy).Contents (Elt F))
    (x4 : (⟨S512, .f32⟩ : BufTy).Contents (Elt F))
    (x5 : (⟨S512x512, .f32⟩ : BufTy).Contents (Elt F))
    (x6 : (⟨S512, .f32⟩ : BufTy).Contents (Elt F))
    (x7 : (⟨S512x512, .f32⟩ : BufTy).Contents (Elt F))
    (x8 : (⟨S512, .f32⟩ : BufTy).Contents (Elt F))
    (x13 : (⟨S64x32x512, .f32⟩ : BufTy).Contents (Elt F))
    (x14 : (⟨S64x32x512, .f32⟩ : BufTy).Contents (Elt F))
    (x15 : (⟨S1x8x64x64, .f32⟩ : BufTy).Contents (Elt F))
    (x16 : (⟨S1x8x1x1, .f32⟩ : BufTy).Contents (Elt F))
    (x17 : (⟨S1x64x1x512, .f32⟩ : BufTy).Contents (Elt F))
    (h_v50 : W (Proc.devRef .tc main_v50) = val_main_v50 (F := F) x0 x1 x2 x3 x4 x5 x6 x7 x8 x15 x16 x17)
    (h_v54 : W (Proc.devRef .tc main_v54) = val_main_v54 (F := F) x0 x1 x2 x3 x4 x5 x6 x7 x8 x15 x16 x17)
    (h_v56 : W (Proc.devRef .tc main_v56) = val_main_v56 (F := F) x0 x1 x2 x3 x4 x5 x6 x7 x8 x15 x16 x17)
    (h_x13 : W (Proc.devRef .tc main_arg13) = x13)
    (h_x14 : W (Proc.devRef .tc main_arg14) = x14) :
    after s4 W (Proc.devRef .tc main_v74) = val_main_v74 (F := F) x0 x1 x2 x3 x4 x5 x6 x7 x8 x13 x14 x15 x16 x17 := by
  simp only [s4]
  after_results_simp
  simp only [h_v50, h_v54, h_v56, h_x13, h_x14]
  rfl

end Cert.ReferenceIdeal.RefRun.HH

end
-- ==== Proof.RefRunS5.lean ====
/- Stretch 5 of the reference's operations read over an arbitrary valuation of the buffers: what it leaves in the
   buffers later stretches read, as the one-operation-at-a-time stage values. -/
import proofs.«155221_j24060406792682_2_alg».proof.Proof.RefRunOps
import proofs.«155221_j24060406792682_2_alg».proof.Proof.ReadP

noncomputable section

namespace Cert.ReferenceIdeal.RefRun.HH

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- What stretch 5 leaves in main_v85, from any contents that hold the earlier stages' values. -/
theorem s5_v85 (W : Valuation τ sig (Elt F))
    (x0 : (⟨S32x512x32x64, .f32⟩ : BufTy).Contents (Elt F))
    (x1 : (⟨S512x512, .f32⟩ : BufTy).Contents (Elt F))
    (x2 : (⟨S512, .f32⟩ : BufTy).Contents (Elt F))
    (x3 : (⟨S512x512, .f32⟩ : BufTy).Contents (Elt F))
    (x4 : (⟨S512, .f32⟩ : BufTy).Contents (Elt F))
    (x5 : (⟨S512x512, .f32⟩ : BufTy).Contents (Elt F))
    (x6 : (⟨S512, .f32⟩ : BufTy).Contents (Elt F))
    (x7 : (⟨S512x512, .f32⟩ : BufTy).Contents (Elt F))
    (x8 : (⟨S512, .f32⟩ : BufTy).Contents (Elt F))
    (x9 : (⟨S2048x512, .f32⟩ : BufTy).Contents (Elt F))
    (x10 : (⟨S2048, .f32⟩ : BufTy).Contents (Elt F))
    (x11 : (⟨S512x2048, .f32⟩ : BufTy).Contents (Elt F))
    (x12 : (⟨S512, .f32⟩ : BufTy).Contents (Elt F))
    (x13 : (⟨S64x32x512, .f32⟩ : BufTy).Contents (Elt F))
    (x14 : (⟨S64x32x512, .f32⟩ : BufTy).Contents (Elt F))
    (x15 : (⟨S1x8x64x64, .f32⟩ : BufTy).Contents (Elt F))
    (x16 : (⟨S1x8x1x1, .f32⟩ : BufTy).Contents (Elt F))
    (x17 : (⟨S1x64x1x512, .f32⟩ : BufTy).Contents (Elt F))
    (h_v74 : W (Proc.devRef .tc main_v74) = val_main_v74 (F := F) x0 x1 x2 x3 x4 x5 x6 x7 x8 x13 x14 x15 x16 x17)
    (h_x9 : W (Proc.devRef .tc main_arg9) = x9)
    (h_x10 : W (Proc.devRef .tc main_arg10) = x10)
    (h_x11 : W (Proc.devRef .tc main_arg11) = x11)
    (h_x12 : W (Proc.devRef .tc main_arg12) = x12) :
    after s5 W (Proc.devRef .tc main_v85) = val_main_v85 (F := F) x0 x1 x2 x3 x4 x5 x6 x7 x8 x9 x10 x11 x12 x13 x14 x15 x16 x17 := by
  simp only [s5]
  after_results_simp
  simp only [h_v74, h_x9, h_x10, h_x11, h_x12]
  rfl

end Cert.ReferenceIdeal.RefRun.HH

end
-- ==== Proof.RefRun.lean ====
/- The reference's run: every weakly fair execution of its 97 host operations terminates with the result buffer at the
   last stage's value of the argument arrays, and the arguments unchanged. The operations are walked in consecutive stretches;
   each stretch is read over an ARBITRARY valuation of the buffers (what it writes as the stages' values of what it reads, what
   it does not write as it was), and the stretches are chained. -/
import proofs.«155221_j24060406792682_2_alg».proof.Proof.RunP
import proofs.«155221_j24060406792682_2_alg».proof.Proof.ReadP
import proofs.«155221_j24060406792682_2_alg».proof.Proof.RefRunOps
import proofs.«155221_j24060406792682_2_alg».proof.Proof.RefRunS1
import proofs.«155221_j24060406792682_2_alg».proof.Proof.RefRunS2
import proofs.«155221_j24060406792682_2_alg».proof.Proof.RefRunS3
import proofs.«155221_j24060406792682_2_alg».proof.Proof.RefRunS4
import proofs.«155221_j24060406792682_2_alg».proof.Proof.RefRunS5

noncomputable section

namespace Cert.ReferenceIdeal.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

namespace HH

variable {F : FTy → Type} [FloatOps F]

/-- A buffer the first two stretches do not write keeps its contents over them. -/
theorem keep12 (V : Valuation τ sig (Elt F)) {r : Ref sig .tc} (h1 : r ∉ wr1) (h2 : r ∉ wr2) :
    after s2 (after s1 V) (Proc.devRef .tc r) = V (Proc.devRef .tc r) :=
  (keep2 _ h2).trans (keep1 V h1)

/-- A buffer the first three stretches do not write keeps its contents over them. -/
theorem keep123 (V : Valuation τ sig (Elt F)) {r : Ref sig .tc} (h1 : r ∉ wr1) (h2 : r ∉ wr2) (h3 : r ∉ wr3) :
    after s3 (after s2 (after s1 V)) (Proc.devRef .tc r) = V (Proc.devRef .tc r) :=
  (keep3 _ h3).trans (keep12 V h1 h2)

/-- A buffer the first four stretches do not write keeps its contents over them. -/
theorem keep1234 (V : Valuation τ sig (Elt F)) {r : Ref sig .tc} (h1 : r ∉ wr1) (h2 : r ∉ wr2) (h3 : r ∉ wr3)
    (h4 : r ∉ wr4) : after s4 (after s3 (after s2 (after s1 V))) (Proc.devRef .tc r) = V (Proc.devRef .tc r) :=
  (keep4 _ h4).trans (keep123 V h1 h2 h3)

/-- The result buffer after the whole list, from any contents of the buffers: the last stage's value of the argument
    buffers' contents. The stretches are chained: each is read from the contents the earlier ones leave, which hold the
    earlier stages' values in the buffers it reads and the arguments as they were. -/
theorem after_ops_v85 (V : Valuation τ sig (Elt F)) :
    after ops V (Proc.devRef .tc main_v85) = val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops]
  have a0 : after s1 V (Proc.devRef .tc main_v0) = val_main_v0 (F := F) (V (Proc.devRef .tc main_arg0)) :=
    s1_v0 V (V (Proc.devRef .tc main_arg0)) rfl
  have a9 : after s1 V (Proc.devRef .tc main_v9) = val_main_v9 (F := F) (V (Proc.devRef .tc main_arg0)) (V (Proc.devRef .tc main_arg1)) (V (Proc.devRef .tc main_arg2)) (V (Proc.devRef .tc main_arg17)) :=
    s1_v9 V (V (Proc.devRef .tc main_arg0)) (V (Proc.devRef .tc main_arg1)) (V (Proc.devRef .tc main_arg2)) (V (Proc.devRef .tc main_arg17)) rfl rfl rfl rfl
  have a16 : after s1 V (Proc.devRef .tc main_v16) = val_main_v16 (F := F) (V (Proc.devRef .tc main_arg0)) (V (Proc.devRef .tc main_arg3)) (V (Proc.devRef .tc main_arg4)) (V (Proc.devRef .tc main_arg17)) :=
    s1_v16 V (V (Proc.devRef .tc main_arg0)) (V (Proc.devRef .tc main_arg3)) (V (Proc.devRef .tc main_arg4)) (V (Proc.devRef .tc main_arg17)) rfl rfl rfl rfl
  have a23 : after s1 V (Proc.devRef .tc main_v23) = val_main_v23 (F := F) (V (Proc.devRef .tc main_arg0)) (V (Proc.devRef .tc main_arg5)) (V (Proc.devRef .tc main_arg6)) :=
    s1_v23 V (V (Proc.devRef .tc main_arg0)) (V (Proc.devRef .tc main_arg5)) (V (Proc.devRef .tc main_arg6)) rfl rfl rfl
  have b45 : after s2 (after s1 V) (Proc.devRef .tc main_v45) = val_main_v45 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) :=
    s2_v45 (after s1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg15)) (V (Proc.devRef .tc main_arg16)) (V (Proc.devRef .tc main_arg17)) a9 a16 a23 (keep1 V (by decide)) (keep1 V (by decide))
  have b0 : after s2 (after s1 V) (Proc.devRef .tc main_v0) = val_main_v0 (F := F) (V (Proc.devRef .tc main_arg0)) :=
    (keep2 _ (by decide)).trans a0
  have c50 : after s3 (after s2 (after s1 V)) (Proc.devRef .tc main_v50) = val_main_v50 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg15)) (V (Proc.devRef .tc main_arg16)) (V (Proc.devRef .tc main_arg17)) :=
    s3_v50 (after s2 (after s1 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg15)) (V (Proc.devRef .tc main_arg16)) (V (Proc.devRef .tc main_arg17)) b45 b0 (keep12 V (by decide) (by decide)) (keep12 V (by decide) (by decide))
  have c54 : after s3 (after s2 (after s1 V)) (Proc.devRef .tc main_v54) = val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg15)) (V (Proc.devRef .tc main_arg16)) (V (Proc.devRef .tc main_arg17)) :=
    s3_v54 (after s2 (after s1 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg15)) (V (Proc.devRef .tc main_arg16)) (V (Proc.devRef .tc main_arg17)) b45 b0 (keep12 V (by decide) (by decide)) (keep12 V (by decide) (by decide))
  have c56 : after s3 (after s2 (after s1 V)) (Proc.devRef .tc main_v56) = val_main_v56 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg15)) (V (Proc.devRef .tc main_arg16)) (V (Proc.devRef .tc main_arg17)) :=
    s3_v56 (after s2 (after s1 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg15)) (V (Proc.devRef .tc main_arg16)) (V (Proc.devRef .tc main_arg17)) b45 b0 (keep12 V (by decide) (by decide)) (keep12 V (by decide) (by decide))
  have d74 : after s4 (after s3 (after s2 (after s1 V))) (Proc.devRef .tc main_v74) = val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg13)) (V (Proc.devRef .tc main_arg14)) (V (Proc.devRef .tc main_arg15)) (V (Proc.devRef .tc main_arg16)) (V (Proc.devRef .tc main_arg17)) :=
    s4_v74 (after s3 (after s2 (after s1 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg13)) (V (Proc.devRef .tc main_arg14)) (V (Proc.devRef .tc main_arg15)) (V (Proc.devRef .tc main_arg16)) (V (Proc.devRef .tc main_arg17)) c50 c54 c56 (keep123 V (by decide) (by decide) (by decide)) (keep123 V (by decide) (by decide) (by decide))
  exact s5_v85 (after s4 (after s3 (after s2 (after s1 V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) d74 (keep1234 V (by decide) (by decide) (by decide) (by decide)) (keep1234 V (by decide) (by decide) (by decide) (by decide)) (keep1234 V (by decide) (by decide) (by decide) (by decide)) (keep1234 V (by decide) (by decide) (by decide) (by decide))

/-- Every weakly fair execution of the reference's operations terminates with each buffer at the contents the list leaves
    from the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ

end HH

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v85) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run (defs (F := Ideal)) _ _).mono (fun _ h c =>
    ⟨(h c main_v85).trans (HH.after_ops_v85 (launchContents m c)),
     (h c main_arg0).trans (HH.keep_all (r := main_arg0) _ (by decide) (by decide) (by decide) (by decide) (by decide)),
     (h c main_arg1).trans (HH.keep_all (r := main_arg1) _ (by decide) (by decide) (by decide) (by decide) (by decide)),
     (h c main_arg2).trans (HH.keep_all (r := main_arg2) _ (by decide) (by decide) (by decide) (by decide) (by decide)),
     (h c main_arg3).trans (HH.keep_all (r := main_arg3) _ (by decide) (by decide) (by decide) (by decide) (by decide)),
     (h c main_arg4).trans (HH.keep_all (r := main_arg4) _ (by decide) (by decide) (by decide) (by decide) (by decide)),
     (h c main_arg5).trans (HH.keep_all (r := main_arg5) _ (by decide) (by decide) (by decide) (by decide) (by decide)),
     (h c main_arg6).trans (HH.keep_all (r := main_arg6) _ (by decide) (by decide) (by decide) (by decide) (by decide)),
     (h c main_arg7).trans (HH.keep_all (r := main_arg7) _ (by decide) (by decide) (by decide) (by decide) (by decide)),
     (h c main_arg8).trans (HH.keep_all (r := main_arg8) _ (by decide) (by decide) (by decide) (by decide) (by decide)),
     (h c main_arg9).trans (HH.keep_all (r := main_arg9) _ (by decide) (by decide) (by decide) (by decide) (by decide)),
     (h c main_arg10).trans (HH.keep_all (r := main_arg10) _ (by decide) (by decide) (by decide) (by decide) (by decide)),
     (h c main_arg11).trans (HH.keep_all (r := main_arg11) _ (by decide) (by decide) (by decide) (by decide) (by decide)),
     (h c main_arg12).trans (HH.keep_all (r := main_arg12) _ (by decide) (by decide) (by decide) (by decide) (by decide)),
     (h c main_arg13).trans (HH.keep_all (r := main_arg13) _ (by decide) (by decide) (by decide) (by decide) (by decide)),
     (h c main_arg14).trans (HH.keep_all (r := main_arg14) _ (by decide) (by decide) (by decide) (by decide) (by decide)),
     (h c main_arg15).trans (HH.keep_all (r := main_arg15) _ (by decide) (by decide) (by decide) (by decide) (by decide)),
     (h c main_arg16).trans (HH.keep_all (r := main_arg16) _ (by decide) (by decide) (by decide) (by decide) (by decide)),
     (h c main_arg17).trans (HH.keep_all (r := main_arg17) _ (by decide) (by decide) (by decide) (by decide) (by decide))⟩)
    (HH.run_after m ρ)

end Cert.ReferenceIdeal.RefRun

end
-- ==== Proof.LibAxisReduce.lean ====
/-
  Reductions over one axis of a matrix, read at an index written by coordinates, for any extents:

  * the vector unit's sum over the rows of each column, and over the columns of each row, as a sum
    over that axis's coordinates;
  * the host's maximum and the host's sum over the columns of each row, as the fold of max from the
    starting value, and the starting value plus the sum, over that row's entries;
  * a maximum against the starting value of such a fold changes nothing.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibAxisReduce

open Idealize.ShloMosaic Idealize.ShloMosaic.ValueIdx

/-- Column q of a matrix with row k put back is (k, q). -/
theorem lift_rows {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the rows of each column, at column q: the sum of that column's entries. -/
theorem colSum_apply {a b : Nat} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (q : Fin b) :
    multiReduction .add [0] ⟨1, ![b]⟩ src acc h hφ hacc (ix1 q) = ∑ k : Fin a, src (ix2 k q) := by
  rw [Ideal.multiReduction_add_single]
  have hf : (fun k => src (h.lift (ix1 q) k)) = fun k : Fin a => src (ix2 k q) :=
    funext fun k => congrArg src (lift_rows h q k)
  exact congrArg (fun f => ∑ k : Fin a, f k) hf

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The host's maximum over the columns of each row of a matrix, at row p: the fold of max from the
    starting value over the entries (p, ·). -/
theorem hostRowMax_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduce FloatOps.maximumf x init h' hu (ix1 p)
      = (Finset.univ : Finset (Fin b)).fold max (init ix0) (fun k => x (ix2 p k)) := by
  rw [Host.reduce_eq_fold_single FloatOps.maximumf x init h' h hu]
  have hi : init (Shape.Idx.first hu) = init ix0 := congrArg init (eq_ix0 _)
  have hf : (x ∘ h.lift (ix1 p)) = fun k : Fin b => x (ix2 p k) :=
    funext fun k => congrArg x (lift_cols h p k)
  rw [hi]
  exact congrArg (fun f => Finset.fold max (init ix0) f (Finset.univ : Finset (Fin b))) hf

/-- The host's sum over the columns of each row of a matrix, at row p: the starting value plus the sum of
    the entries (p, ·). -/
theorem hostRowSum_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduceAdd x init h' hu (ix1 p) = init ix0 + ∑ k : Fin b, x (ix2 p k) := by
  unfold Host.reduceAdd
  rw [Ideal.hostReduceAdd_def, Ideal.hostReduceAdd_single h' h]
  have hi : init (Shape.Idx.first hu) = init ix0 := congrArg init (eq_ix0 _)
  have hf : (fun k => x (h.lift (ix1 p) k)) = fun k : Fin b => x (ix2 p k) :=
    funext fun k => congrArg x (lift_cols h p k)
  rw [hi]
  exact congrArg (fun f => init ix0 + ∑ k : Fin b, f k) hf

/-- A fold of max is at least its starting value, so a further maximum against that value changes nothing. -/
theorem max_start_fold {ι : Type} (s : Finset ι) (b : EReal) (f : ι → EReal) :
    max b (s.fold max b f) = s.fold max b f :=
  max_eq_right (Finset.le_fold_max (b := b) (f := f) (s := s) b |>.mpr (Or.inl le_rfl))

end Cert.LibAxisReduce

end
-- ==== Proof.RefAtt.lean ====
/- The reference's stages up to the merged attention output (its operations %0 .. %45), read at (b, n, t, d): the
   joint attention output of batch element b of the argument arrays. -/
import proofs.«155221_j24060406792682_2_alg».proof.Proof.Spec
import proofs.«155221_j24060406792682_2_alg».proof.Proof.ReadP
import proofs.«155221_j24060406792682_2_alg».proof.Proof.LibAxisReduce
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefAtt

open Cert.ReferenceIdeal Cert.ReferenceIdeal.Gen Cert.ReferenceIdeal.Read Idealize.ShloMosaic Idealize.ShloMosaic.ValueIdx Cert.Spec

namespace HF

variable (x0 : (⟨S32x512x32x64, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal)) (x5 : (⟨S512x512, .f32⟩ : BufTy).Contents (Elt Ideal))
  (x6 : (⟨S512, .f32⟩ : BufTy).Contents (Elt Ideal)) (x15 : (⟨S1x8x64x64, .f32⟩ : BufTy).Contents (Elt Ideal))
  (x16 : (⟨S1x8x1x1, .f32⟩ : BufTy).Contents (Elt Ideal)) (x17 : (⟨S1x64x1x512, .f32⟩ : BufTy).Contents (Elt Ideal))

/-! ## The three linear layers -/

theorem i0 (b : Fin 32) (n : Fin 64) (t : Fin 32) (d : Fin 512) : idx_main_v0 (ix4 b n t d) = ix4 b d t n :=
  funext fun a => Fin.ext (by match a with | ⟨0, _⟩ => rfl | ⟨1, _⟩ => rfl | ⟨2, _⟩ => rfl | ⟨3, _⟩ => rfl)

theorem i1 (b : Fin 32) (n : Fin 64) (t : Fin 32) (d : Fin 512) :
    idx_main_v1 (ix4 b n t d) = ix4 (0 : Fin 1) n (0 : Fin 1) d :=
  funext fun a => Fin.ext (by match a with | ⟨0, _⟩ => rfl | ⟨1, _⟩ => rfl | ⟨2, _⟩ => rfl | ⟨3, _⟩ => rfl)

theorem l3 (b : Fin 32) (n : Fin 64) (t : Fin 32) (o k : Fin 512) : lidx_main_v3 (ix4 b n t o) k = ix4 b n t k :=
  funext fun a => Fin.ext (by match a with | ⟨0, _⟩ => rfl | ⟨1, _⟩ => rfl | ⟨2, _⟩ => rfl | ⟨3, _⟩ => rfl)

theorem r3 (b : Fin 32) (n : Fin 64) (t : Fin 32) (o k : Fin 512) : ridx_main_v3 (ix4 b n t o) k = ix2 o k :=
  funext fun a => Fin.ext (by match a with | ⟨0, _⟩ => rfl | ⟨1, _⟩ => rfl)

theorem i45 (b : Fin 32) (n : Fin 64) (t : Fin 32) (o : Fin 512) : idx_main_v4 (idx_main_v5 (ix4 b n t o)) = ix1 o :=
  funext fun a => Fin.ext (by match a with | ⟨0, _⟩ => rfl)

/-- The transposed input plus the positional term. -/
theorem v2_at (b : Fin 32) (n : Fin 64) (t : Fin 32) (d : Fin 512) :
    val_main_v2 (F := Ideal) x0 x17 (ix4 b n t d) = addPe (xbOf x0 b) (peOf x17) n t d := by
  rw [val_main_v2_apply, val_main_v0_apply, val_main_v1_apply, i0, i1]
  rfl

/-- The query layer. -/
theorem v6_at (b : Fin 32) (n : Fin 64) (t : Fin 32) (o : Fin 512) :
    val_main_v6 (F := Ideal) x0 x1 x2 x17 (ix4 b n t o)
      = lin (addPe (xbOf x0 b) (peOf x17)) (matOf x1) (vecOf x2) n t o := by
  rw [val_main_v6_apply, val_main_v3_apply, val_main_v5_apply, val_main_v4_apply, i45]
  simp only [l3, r3, v2_at]
  rfl

/-- The key layer. -/
theorem v13_at (b : Fin 32) (n : Fin 64) (t : Fin 32) (o : Fin 512) :
    val_main_v13 (F := Ideal) x0 x3 x4 x17 (ix4 b n t o)
      = lin (addPe (xbOf x0 b) (peOf x17)) (matOf x3) (vecOf x4) n t o := v6_at x0 x3 x4 x17 b n t o

/-- The value layer. -/
theorem v20_at (b : Fin 32) (n : Fin 64) (t : Fin 32) (o : Fin 512) :
    val_main_v20 (F := Ideal) x0 x5 x6 (ix4 b n t o) = lin (xbOf x0 b) (matOf x5) (vecOf x6) n t o := by
  rw [val_main_v20_apply, val_main_v17_apply, val_main_v19_apply, val_main_v18_apply]
  rw [show idx_main_v18 (idx_main_v19 (ix4 b n t o)) = ix1 o from i45 b n t o]
  simp only [show ∀ k, lidx_main_v17 (ix4 b n t o) k = ix4 b n t k from l3 b n t o,
    show ∀ k, ridx_main_v17 (ix4 b n t o) k = ix2 o k from r3 b n t o, val_main_v0_apply, i0]
  rfl

/-! ## The split into heads -/

theorem s9a (b : Fin 32) (h : Fin 8) (n : Fin 64) (f : Fin 2048) :
    idx_main_v9 (ix4 b h n f) = ix5 b h n (tOf f) (eOf f) := by
  have hb := b.isLt; have hh := h.isLt; have hn := n.isLt; have hf := f.isLt
  refine funext fun a => Fin.ext ?_
  match a with
  | ⟨0, _⟩ =>
    show (((b.val * 8 + h.val) * 64 + n.val) * 2048 + f.val) / 1048576 = b.val
    omega
  | ⟨1, _⟩ =>
    show (((b.val * 8 + h.val) * 64 + n.val) * 2048 + f.val) / 131072 % 8 = h.val
    omega
  | ⟨2, _⟩ =>
    show (((b.val * 8 + h.val) * 64 + n.val) * 2048 + f.val) / 2048 % 64 = n.val
    omega
  | ⟨3, _⟩ =>
    show (((b.val * 8 + h.val) * 64 + n.val) * 2048 + f.val) / 64 % 32 = f.val / 64
    omega
  | ⟨4, _⟩ =>
    show (((b.val * 8 + h.val) * 64 + n.val) * 2048 + f.val) % 64 = f.val % 64
    omega

theorem s9b (b : Fin 32) (h : Fin 8) (n : Fin 64) (t : Fin 32) (e : Fin 64) :
    idx_main_v8 (ix5 b h n t e) = ix5 b n t h e :=
  funext fun a => Fin.ext (by
    match a with | ⟨0, _⟩ => rfl | ⟨1, _⟩ => rfl | ⟨2, _⟩ => rfl | ⟨3, _⟩ => rfl | ⟨4, _⟩ => rfl)

theorem s9c (b : Fin 32) (n : Fin 64) (t : Fin 32) (h : Fin 8) (e : Fin 64) :
    idx_main_v7 (ix5 b n t h e) = ix4 b n t (col h e) := by
  have hb := b.isLt; have hh := h.isLt; have hn := n.isLt; have ht := t.isLt; have he := e.isLt
  refine funext fun a => Fin.ext ?_
  match a with
  | ⟨0, _⟩ =>
    show ((((b.val * 64 + n.val) * 32 + t.val) * 8 + h.val) * 64 + e.val) / 1048576 = b.val
    omega
  | ⟨1, _⟩ =>
    show ((((b.val * 64 + n.val) * 32 + t.val) * 8 + h.val) * 64 + e.val) / 16384 % 64 = n.val
    omega
  | ⟨2, _⟩ =>
    show ((((b.val * 64 + n.val) * 32 + t.val) * 8 + h.val) * 64 + e.val) / 512 % 32 = t.val
    omega
  | ⟨3, _⟩ =>
    show ((((b.val * 64 + n.val) * 32 + t.val) * 8 + h.val) * 64 + e.val) % 512 = h.val * 64 + e.val
    omega

/-- Position (b, h, n, f) of a head-split array is position (b, n, f / 64, 64 h + f % 64) of the unsplit one. -/
theorem s9 (b : Fin 32) (h : Fin 8) (n : Fin 64) (f : Fin 2048) :
    idx_main_v7 (idx_main_v8 (idx_main_v9 (ix4 b h n f))) = ix4 b n (tOf f) (col h (eOf f)) := by
  rw [s9a, s9b, s9c]

/-- The query layer split into heads. -/
theorem v9_at (b : Fin 32) (h : Fin 8) (n : Fin 64) (f : Fin 2048) :
    val_main_v9 (F := Ideal) x0 x1 x2 x17 (ix4 b h n f)
      = lin (addPe (xbOf x0 b) (peOf x17)) (matOf x1) (vecOf x2) n (tOf f) (col h (eOf f)) := by
  rw [val_main_v9_apply, val_main_v8_apply, val_main_v7_apply, s9, v6_at]

/-- The key layer split into heads. -/
theorem v16_at (b : Fin 32) (h : Fin 8) (n : Fin 64) (f : Fin 2048) :
    val_main_v16 (F := Ideal) x0 x3 x4 x17 (ix4 b h n f)
      = lin (addPe (xbOf x0 b) (peOf x17)) (matOf x3) (vecOf x4) n (tOf f) (col h (eOf f)) :=
  v9_at x0 x3 x4 x17 b h n f

/-- The value layer split into heads. -/
theorem v23_at (b : Fin 32) (h : Fin 8) (n : Fin 64) (f : Fin 2048) :
    val_main_v23 (F := Ideal) x0 x5 x6 (ix4 b h n f)
      = lin (xbOf x0 b) (matOf x5) (vecOf x6) n (tOf f) (col h (eOf f)) := by
  rw [val_main_v23_apply, val_main_v22_apply, val_main_v21_apply]
  rw [show idx_main_v21 (idx_main_v22 (idx_main_v23 (ix4 b h n f))) = ix4 b n (tOf f) (col h (eOf f)) from s9 b h n f, v20_at]

/-! ## Scores and the softmax -/

theorem l24 (b : Fin 32) (h : Fin 8) (n m : Fin 64) (k : Fin 2048) : lidx_main_v24 (ix4 b h n m) k = ix4 b h n k :=
  funext fun a => Fin.ext (by match a with | ⟨0, _⟩ => rfl | ⟨1, _⟩ => rfl | ⟨2, _⟩ => rfl | ⟨3, _⟩ => rfl)

theorem r24 (b : Fin 32) (h : Fin 8) (n m : Fin 64) (k : Fin 2048) : ridx_main_v24 (ix4 b h n m) k = ix4 b h m k :=
  funext fun a => Fin.ext (by match a with | ⟨0, _⟩ => rfl | ⟨1, _⟩ => rfl | ⟨2, _⟩ => rfl | ⟨3, _⟩ => rfl)

/-- The scaled score of head h between nodes n and m. -/
theorem v26_at (b : Fin 32) (h : Fin 8) (n m : Fin 64) :
    val_main_v26 (F := Ideal) x0 x1 x2 x3 x4 x17 (ix4 b h n m)
      = score (lin (addPe (xbOf x0 b) (peOf x17)) (matOf x1) (vecOf x2))
          (lin (addPe (xbOf x0 b) (peOf x17)) (matOf x3) (vecOf x4)) h n m := by
  rw [val_main_v26_apply, val_main_v24_apply, val_main_v25_apply, val_main_cst_apply]
  simp only [l24, r24, v9_at, v16_at]
  rfl

/-- Row (b, h, n) with column k put back is (b, h, n, k). -/
theorem lift27 (hr : S32x8x64x64.Reduces [3] S32x8x64) (b : Fin 32) (h : Fin 8) (n : Fin 64)
    (k : Fin (S32x8x64x64.size 3)) : hr.lift (ix3 b h n) k = ix4 b h n (⟨k.val, k.isLt⟩ : Fin 64) := by
  funext c; apply Fin.ext
  fin_cases c <;> rfl

/-- A maximum with -infinity of the host's maximum over the last axis started from -infinity, at row (b, h, n):
    the fold of max from -infinity over that row. -/
theorem rowMax_read (y : (⟨S32x8x64x64, .f32⟩ : BufTy).Contents (Elt Ideal)) (b : Fin 32) (h : Fin 8) (n : Fin 64) :
    FloatOps.maximumf (FloatOps.ofBits (F := Ideal) .f32 0xFF800000#32)
      (Host.reduce FloatOps.maximumf y (val_main_cst_0 (F := Ideal)) reducesTo_S32x8x64x64_S32x8x64_d3 h_S_ (ix3 b h n))
      = rowMax (fun m => y (ix4 b h n m)) := by
  have hr : S32x8x64x64.Reduces [3] S32x8x64 := by decide
  have e := Host.reduce_eq_fold_single (α := Ideal .f32) (s := S32x8x64x64) (t := S32x8x64) (a := 3)
    (FloatOps.maximumf (F := Ideal) (φ := .f32)) y (val_main_cst_0 (F := Ideal))
    reducesTo_S32x8x64x64_S32x8x64_d3 hr h_S_ (ix3 b h n)
  have hf : (y ∘ hr.lift (ix3 b h n)) = fun k : Fin 64 => y (ix4 b h n k) :=
    funext fun k => congrArg y (lift27 hr b h n k)
  rw [hf] at e
  refine (congrArg (max (Ideal.ofBits .f32 0xFF800000#32)) e).trans ?_
  exact Cert.LibAxisReduce.max_start_fold _ _ _

/-- The row maximum of the scores. -/
theorem v29_at (b : Fin 32) (h : Fin 8) (n : Fin 64) :
    val_main_v29 (F := Ideal) x0 x1 x2 x3 x4 x17 (ix3 b h n)
      = rowMax (fun m => val_main_v26 (F := Ideal) x0 x1 x2 x3 x4 x17 (ix4 b h n m)) := by
  rw [val_main_v29_apply, val_main_v28_apply, val_main_cst_1_apply]
  exact rowMax_read _ b h n

theorem i3031 (b : Fin 32) (h : Fin 8) (n m : Fin 64) : idx_main_v30 (idx_main_v31 (ix4 b h n m)) = ix3 b h n :=
  funext fun a => Fin.ext (by match a with | ⟨0, _⟩ => rfl | ⟨1, _⟩ => rfl | ⟨2, _⟩ => rfl)

theorem i34 (b : Fin 32) (h : Fin 8) (n k : Fin 64) : idx_main_v34 (ix3 b h n) k = ix4 b h n k :=
  funext fun a => Fin.ext (by match a with | ⟨0, _⟩ => rfl | ⟨1, _⟩ => rfl | ⟨2, _⟩ => rfl | ⟨3, _⟩ => rfl)

/-- The exponential of a score less its row's maximum. -/
theorem v33_at (b : Fin 32) (h : Fin 8) (n m : Fin 64) :
    val_main_v33 (F := Ideal) x0 x1 x2 x3 x4 x17 (ix4 b h n m)
      = Ideal.exp (val_main_v26 (F := Ideal) x0 x1 x2 x3 x4 x17 (ix4 b h n m)
          - rowMax (fun m' => val_main_v26 (F := Ideal) x0 x1 x2 x3 x4 x17 (ix4 b h n m'))) := by
  rw [val_main_v33_apply, val_main_v32_apply, val_main_v31_apply, val_main_v30_apply, i3031, v29_at]
  rfl

/-- The softmax of a row of scores. -/
theorem v37_at (b : Fin 32) (h : Fin 8) (n m : Fin 64) :
    val_main_v37 (F := Ideal) x0 x1 x2 x3 x4 x17 (ix4 b h n m)
      = soft (fun m' => val_main_v26 (F := Ideal) x0 x1 x2 x3 x4 x17 (ix4 b h n m')) m := by
  rw [val_main_v37_apply, val_main_v36_apply, val_main_v35_apply,
    show idx_main_v35 (idx_main_v36 (ix4 b h n m)) = ix3 b h n from i3031 b h n m,
    val_main_v34_apply, val_main_cst_2_apply]
  simp only [i34, v33_at]
  rw [show (FloatOps.ofBits (F := Ideal) .f32 0x00000000#32) = (0 : EReal) from Ideal.ofBits_zero_f32, zero_add]
  rfl

theorem i38 (b : Fin 32) (h : Fin 8) (n m : Fin 64) :
    idx_main_v38 (ix4 b h n m) = ix4 (0 : Fin 1) h (0 : Fin 1) (0 : Fin 1) :=
  funext fun a => Fin.ext (by match a with | ⟨0, _⟩ => rfl | ⟨1, _⟩ => rfl | ⟨2, _⟩ => rfl | ⟨3, _⟩ => rfl)

theorem i40 (b : Fin 32) (h : Fin 8) (n m : Fin 64) : idx_main_v40 (ix4 b h n m) = ix4 (0 : Fin 1) h n m :=
  funext fun a => Fin.ext (by match a with | ⟨0, _⟩ => rfl | ⟨1, _⟩ => rfl | ⟨2, _⟩ => rfl | ⟨3, _⟩ => rfl)

/-- The weight from node n to node m in head h: the weighted softmax plus adj. -/
theorem v41_at (b : Fin 32) (h : Fin 8) (n m : Fin 64) :
    val_main_v41 (F := Ideal) x0 x1 x2 x3 x4 x15 x16 x17 (ix4 b h n m)
      = wSoft (lin (addPe (xbOf x0 b) (peOf x17)) (matOf x1) (vecOf x2))
          (lin (addPe (xbOf x0 b) (peOf x17)) (matOf x3) (vecOf x4)) (hwOf x16) h n m + adjOf x15 h n m := by
  rw [val_main_v41_apply, val_main_v39_apply, val_main_v38_apply, val_main_v40_apply, i38, i40, v37_at]
  simp only [v26_at]
  rfl

/-! ## The product with the values and the merge of the heads -/

/-- The in-head column of feature column d. -/
def lane (d : Fin 512) : Fin 64 := ⟨d.val % 64, Nat.mod_lt _ (by norm_num)⟩
/-- The flattened position 64 t + e. -/
def pos (t : Fin 32) (e : Fin 64) : Fin 2048 := ⟨t.val * 64 + e.val, by omega⟩

theorem tOf_pos (t : Fin 32) (e : Fin 64) : tOf (pos t e) = t := Fin.ext (by show (t.val * 64 + e.val) / 64 = t.val; omega)
theorem eOf_pos (t : Fin 32) (e : Fin 64) : eOf (pos t e) = e := Fin.ext (by show (t.val * 64 + e.val) % 64 = e.val; omega)
theorem col_head_lane (d : Fin 512) : col (headOf d) (lane d) = d :=
  Fin.ext (by show d.val / 64 * 64 + d.val % 64 = d.val; omega)

theorem l42 (b : Fin 32) (h : Fin 8) (n : Fin 64) (f : Fin 2048) (k : Fin 64) :
    lidx_main_v42 (ix4 b h n f) k = ix4 b h n k :=
  funext fun a => Fin.ext (by match a with | ⟨0, _⟩ => rfl | ⟨1, _⟩ => rfl | ⟨2, _⟩ => rfl | ⟨3, _⟩ => rfl)

theorem r42 (b : Fin 32) (h : Fin 8) (n : Fin 64) (f : Fin 2048) (k : Fin 64) :
    ridx_main_v42 (ix4 b h n f) k = ix4 b h k f :=
  funext fun a => Fin.ext (by match a with | ⟨0, _⟩ => rfl | ⟨1, _⟩ => rfl | ⟨2, _⟩ => rfl | ⟨3, _⟩ => rfl)

theorem m45a (b : Fin 32) (n : Fin 64) (t : Fin 32) (d : Fin 512) :
    idx_main_v45 (ix4 b n t d) = ix5 b n t (headOf d) (lane d) := by
  have hb := b.isLt; have hn := n.isLt; have ht := t.isLt; have hd := d.isLt
  refine funext fun a => Fin.ext ?_
  match a with
  | ⟨0, _⟩ =>
    show (((b.val * 64 + n.val) * 32 + t.val) * 512 + d.val) / 1048576 = b.val
    omega
  | ⟨1, _⟩ =>
    show (((b.val * 64 + n.val) * 32 + t.val) * 512 + d.val) / 16384 % 64 = n.val
    omega
  | ⟨2, _⟩ =>
    show (((b.val * 64 + n.val) * 32 + t.val) * 512 + d.val) / 512 % 32 = t.val
    omega
  | ⟨3, _⟩ =>
    show (((b.val * 64 + n.val) * 32 + t.val) * 512 + d.val) / 64 % 8 = d.val / 64
    omega
  | ⟨4, _⟩ =>
    show (((b.val * 64 + n.val) * 32 + t.val) * 512 + d.val) % 64 = d.val % 64
    omega

theorem m45b (b : Fin 32) (n : Fin 64) (t : Fin 32) (h : Fin 8) (e : Fin 64) :
    idx_main_v44 (ix5 b n t h e) = ix5 b h n t e :=
  funext fun a => Fin.ext (by
    match a with | ⟨0, _⟩ => rfl | ⟨1, _⟩ => rfl | ⟨2, _⟩ => rfl | ⟨3, _⟩ => rfl | ⟨4, _⟩ => rfl)

theorem m45c (b : Fin 32) (h : Fin 8) (n : Fin 64) (t : Fin 32) (e : Fin 64) :
    idx_main_v43 (ix5 b h n t e) = ix4 b h n (pos t e) := by
  have hb := b.isLt; have hh := h.isLt; have hn := n.isLt; have ht := t.isLt; have he := e.isLt
  refine funext fun a => Fin.ext ?_
  match a with
  | ⟨0, _⟩ =>
    show ((((b.val * 8 + h.val) * 64 + n.val) * 32 + t.val) * 64 + e.val) / 1048576 = b.val
    omega
  | ⟨1, _⟩ =>
    show ((((b.val * 8 + h.val) * 64 + n.val) * 32 + t.val) * 64 + e.val) / 131072 % 8 = h.val
    omega
  | ⟨2, _⟩ =>
    show ((((b.val * 8 + h.val) * 64 + n.val) * 32 + t.val) * 64 + e.val) / 2048 % 64 = n.val
    omega
  | ⟨3, _⟩ =>
    show ((((b.val * 8 + h.val) * 64 + n.val) * 32 + t.val) * 64 + e.val) % 2048 = t.val * 64 + e.val
    omega

/-- Position (b, n, t, d) of the merged array is position (b, d / 64, n, 64 t + d % 64) of the per-head one. -/
theorem m45 (b : Fin 32) (n : Fin 64) (t : Fin 32) (d : Fin 512) :
    idx_main_v43 (idx_main_v44 (idx_main_v45 (ix4 b n t d))) = ix4 b (headOf d) n (pos t (lane d)) := by
  rw [m45a, m45b, m45c]

end HF

/-- The merged attention output [32, 64, 32, 512] at (b, n, t, d). -/
theorem att_apply (x0 : (⟨S32x512x32x64, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal)) (x6 : (⟨S512, .f32⟩ : BufTy).Contents (Elt Ideal)) (x15 : (⟨S1x8x64x64, .f32⟩ : BufTy).Contents (Elt Ideal))
    (x16 : (⟨S1x8x1x1, .f32⟩ : BufTy).Contents (Elt Ideal)) (x17 : (⟨S1x64x1x512, .f32⟩ : BufTy).Contents (Elt Ideal))
    (b : Fin 32) (n : Fin 64) (t : Fin 32) (d : Fin 512) :
    val_main_v45 (F := Ideal) x0 x1 x2 x3 x4 x5 x6 x15 x16 x17 (ix4 b n t d)
      = attOf false (xbOf x0 b) (peOf x17) (matOf x1) (vecOf x2) (matOf x3) (vecOf x4) (matOf x5) (vecOf x6)
          (adjOf x15) (hwOf x16) n t d := by
  rw [val_main_v45_apply, val_main_v44_apply, val_main_v43_apply, HF.m45, val_main_v42_apply]
  simp only [HF.l42, HF.r42, HF.v41_at, HF.v23_at, HF.tOf_pos, HF.eOf_pos, HF.col_head_lane]
  rfl

end Cert.ReferenceIdeal.RefAtt
end
-- ==== Proof.LibSum123.lean ====
/- A sum over the three trailing axes of a rank-4 array, read at an index of the leading axis: the host's
   reduce with an add body over axes [1, 2, 3] at b is the initial value plus the nested sum, innermost axis first,
   of the operand at (b, n, t, d).  Nothing here needs finiteness: the extended reals are an additive
   commutative monoid, and the regrouping is a bijection of index sets. -/
import Idealize.ShloMosaic.PureOps.Ideal
import Idealize.ShloMosaic.PureOps.Ideal.Laws
import Idealize.ShloMosaic.Lib.ValueIdx

noncomputable section

namespace Cert.LibSum123

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Dropping the three trailing axes of (a, n, t, d) leaves a. -/
theorem drop123 {n0 n1 n2 n3 : Nat}
    (h : (⟨4, ![n0, n1, n2, n3]⟩ : Shape).ReducesTo [1, 2, 3] (⟨1, ![n0]⟩ : Shape))
    (a : Fin n0) (n : Fin n1) (t : Fin n2) (d : Fin n3) : h.drop (ix4 a n t d) = ix1 a := by
  funext e
  refine Fin.ext ?_
  match e with
  | ⟨0, _⟩ => rfl

/-- The sum of the operand elements that reduce to b is the nested sum over the trailing coordinates. -/
theorem sum_fiber123 {n0 n1 n2 n3 : Nat}
    (h : (⟨4, ![n0, n1, n2, n3]⟩ : Shape).ReducesTo [1, 2, 3] (⟨1, ![n0]⟩ : Shape))
    (x : (⟨4, ![n0, n1, n2, n3]⟩ : Shape).Idx → EReal) (b : Fin n0) :
    ∑ i ∈ Finset.univ.filter (fun i => h.drop i = ix1 b), x i
      = ∑ n : Fin n1, ∑ t : Fin n2, ∑ d : Fin n3, x (ix4 b n t d) := by
  rw [Finset.sum_filter, sum_idx4]
  simp only [drop123 h]
  rw [Finset.sum_eq_single b]
  · simp
  · intro a _ hab
    have hne : ¬ (ix1 a = ix1 b) := fun e => hab (congrFun e 0)
    simp [hne]
  · intro hb
    exact absurd (Finset.mem_univ b) hb

/-- The host's sum over axes [1, 2, 3] at b: the initial value plus the nested sum of the operand at (b, n, t, d). -/
theorem hostSum123_apply {n0 n1 n2 n3 : Nat} (x : FVec Ideal ⟨4, ![n0, n1, n2, n3]⟩ .f32) (init : FVec Ideal ⟨0, ![]⟩ .f32)
    (h : (⟨4, ![n0, n1, n2, n3]⟩ : Shape).ReducesTo [1, 2, 3] (⟨1, ![n0]⟩ : Shape))
    (hu : 0 < (⟨0, ![]⟩ : Shape).numel) (b : Fin n0) :
    Host.reduceAdd x init h hu (ix1 b) = init ix0 + ∑ n : Fin n1, ∑ t : Fin n2, ∑ d : Fin n3, x (ix4 b n t d) := by
  unfold Host.reduceAdd
  rw [Ideal.hostReduceAdd_def]
  unfold Ideal.hostReduceAdd
  have hi : init (Shape.Idx.first hu) = init ix0 := congrArg init (eq_ix0 _)
  rw [hi]
  exact congrArg (fun s => init ix0 + s) (sum_fiber123 h x b)

end Cert.LibSum123

end
-- ==== Proof.RefRest.lean ====
/- The reference's later stages read at an index: output projection, residual and layer normalisation (%46 .. %74) as
   lnOf of the merged attention output; the feed-forward stage (%75 .. %84) as ffnRow of a row of the normalised array;
   and the whole result, transposed back to (b, d, t, n). -/
import proofs.«155221_j24060406792682_2_alg».proof.Proof.Spec
import proofs.«155221_j24060406792682_2_alg».proof.Proof.ReadP
import Idealize.ShloMosaic.Lib.ValueIdx
import Idealize.ShloMosaic.Lib.Pipeline.Value
import Idealize.ShloMosaic.PureOps.Ideal.Laws
import proofs.«155221_j24060406792682_2_alg».proof.Proof.RefAtt
import proofs.«155221_j24060406792682_2_alg».proof.Proof.LibSum123

noncomputable section

namespace Cert.ReferenceIdeal.RefRest

open Cert.ReferenceIdeal Cert.ReferenceIdeal.Gen Cert.ReferenceIdeal.Read Idealize.ShloMosaic Idealize.ShloMosaic.ValueIdx Cert.Spec

variable (x0 : (⟨S32x512x32x64, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x9 : (⟨S2048x512, .f32⟩ : BufTy).Contents (Elt Ideal)) (x10 : (⟨S2048, .f32⟩ : BufTy).Contents (Elt Ideal)) (x11 : (⟨S512x2048, .f32⟩ : BufTy).Contents (Elt Ideal)) (x12 : (⟨S512, .f32⟩ : BufTy).Contents (Elt Ideal))
    (x13 x14 : (⟨S64x32x512, .f32⟩ : BufTy).Contents (Elt Ideal)) (x15 : (⟨S1x8x64x64, .f32⟩ : BufTy).Contents (Elt Ideal)) (x16 : (⟨S1x8x1x1, .f32⟩ : BufTy).Contents (Elt Ideal)) (x17 : (⟨S1x64x1x512, .f32⟩ : BufTy).Contents (Elt Ideal))

namespace HG

/-- The index (b, 0, 0, 0) of a per-batch scalar kept as [32, 1, 1, 1]. -/
abbrev j0 (b : Fin 32) : (⟨4, ![32, 1, 1, 1]⟩ : Shape).Idx := ix4 b (0 : Fin 1) (0 : Fin 1) (0 : Fin 1)

/-- %50 at (b, n, t, d): the residual x plus the output projection of the merged attention output. -/
theorem z_apply (b : Fin 32) (n : Fin 64) (t : Fin 32) (d : Fin 512) :
    val_main_v50 (F := Ideal) x0 x1 x2 x3 x4 x5 x6 x7 x8 x15 x16 x17 (ix4 b n t d)
      = xbOf x0 b n t d + lin (fun n t d => val_main_v45 (F := Ideal) x0 x1 x2 x3 x4 x5 x6 x15 x16 x17 (ix4 b n t d)) (matOf x7) (vecOf x8) n t d := by
  rw [val_main_v50_apply, val_main_v0_apply, val_main_v49_apply, val_main_v46_apply, val_main_v48_apply, val_main_v47_apply]
  generalize val_main_v45 (F := Ideal) x0 x1 x2 x3 x4 x5 x6 x15 x16 x17 = a
  have e0 : idx_main_v0 (ix4 b n t d) = ix4 b d t n := funext fun e => Fin.ext (by match e with | ⟨0, _⟩ => rfl | ⟨1, _⟩ => rfl | ⟨2, _⟩ => rfl | ⟨3, _⟩ => rfl)
  have el : ∀ k : Fin 512, lidx_main_v46 (ix4 b n t d) k = ix4 b n t k := fun k => funext fun e => Fin.ext (by match e with | ⟨0, _⟩ => rfl | ⟨1, _⟩ => rfl | ⟨2, _⟩ => rfl | ⟨3, _⟩ => rfl)
  have er : ∀ k : Fin 512, ridx_main_v46 (ix4 b n t d) k = ix2 d k := fun k => funext fun e => Fin.ext (by match e with | ⟨0, _⟩ => rfl | ⟨1, _⟩ => rfl)
  have eb : idx_main_v47 (idx_main_v48 (ix4 b n t d)) = ix1 d := funext fun e => Fin.ext (by match e with | ⟨0, _⟩ => rfl)
  simp only [e0, el, er, eb, Ideal.addf_def]
  rfl

/-- %51 at b: the sum of %50 over all of (n, t, d). -/
theorem sum_z_apply (b : Fin 32) :
    val_main_v51 (F := Ideal) x0 x1 x2 x3 x4 x5 x6 x7 x8 x15 x16 x17 (ix1 b) = sum3 (fun n t d => val_main_v50 (F := Ideal) x0 x1 x2 x3 x4 x5 x6 x7 x8 x15 x16 x17 (ix4 b n t d)) := by
  unfold val_main_v51
  generalize val_main_v50 (F := Ideal) x0 x1 x2 x3 x4 x5 x6 x7 x8 x15 x16 x17 = y
  refine (Cert.LibSum123.hostSum123_apply y _ _ _ b).trans ?_
  rw [val_main_cst_3_apply, Ideal.ofBits_def, Ideal.ofBits_zero_f32, zero_add]
  rfl

/-- %54 at (b, 0, 0, 0): the mean. -/
theorem mean_apply (b : Fin 32) :
    val_main_v54 (F := Ideal) x0 x1 x2 x3 x4 x5 x6 x7 x8 x15 x16 x17 (j0 b) = Ideal.div (sum3 (fun n t d => val_main_v50 (F := Ideal) x0 x1 x2 x3 x4 x5 x6 x7 x8 x15 x16 x17 (ix4 b n t d))) cCount := by
  rw [val_main_v54_apply, val_main_v52_apply, val_main_v53_apply, val_main_cst_4_apply]
  have e : idx_main_v52 (j0 b) = ix1 b := funext fun e => Fin.ext (by match e with | ⟨0, _⟩ => rfl)
  rw [e, sum_z_apply, Ideal.hostDivf_def, Ideal.ofBits_def]

/-- %56 (and %63, the same subtraction) at (b, n, t, d): %50 less the mean. -/
theorem centred_apply (b : Fin 32) (n : Fin 64) (t : Fin 32) (d : Fin 512) :
    val_main_v56 (F := Ideal) x0 x1 x2 x3 x4 x5 x6 x7 x8 x15 x16 x17 (ix4 b n t d) = val_main_v50 (F := Ideal) x0 x1 x2 x3 x4 x5 x6 x7 x8 x15 x16 x17 (ix4 b n t d) - val_main_v54 (F := Ideal) x0 x1 x2 x3 x4 x5 x6 x7 x8 x15 x16 x17 (j0 b) := by
  rw [val_main_v56_apply, val_main_v55_apply]
  have e : idx_main_v55 (ix4 b n t d) = j0 b := funext fun e => Fin.ext (by match e with | ⟨0, _⟩ => rfl | ⟨1, _⟩ => rfl | ⟨2, _⟩ => rfl | ⟨3, _⟩ => rfl)
  rw [e, Ideal.subf_def]

theorem centred'_apply (b : Fin 32) (n : Fin 64) (t : Fin 32) (d : Fin 512) :
    val_main_v63 (F := Ideal) x0 x1 x2 x3 x4 x5 x6 x7 x8 x15 x16 x17 (ix4 b n t d) = val_main_v50 (F := Ideal) x0 x1 x2 x3 x4 x5 x6 x7 x8 x15 x16 x17 (ix4 b n t d) - val_main_v54 (F := Ideal) x0 x1 x2 x3 x4 x5 x6 x7 x8 x15 x16 x17 (j0 b) := by
  rw [val_main_v63_apply, val_main_v62_apply]
  have e : idx_main_v62 (ix4 b n t d) = j0 b := funext fun e => Fin.ext (by match e with | ⟨0, _⟩ => rfl | ⟨1, _⟩ => rfl | ⟨2, _⟩ => rfl | ⟨3, _⟩ => rfl)
  rw [e, Ideal.subf_def]

/-- %58 at b: the sum of the squared centred entries over all of (n, t, d). -/
theorem sum_sq_apply (b : Fin 32) :
    val_main_v58 (F := Ideal) x0 x1 x2 x3 x4 x5 x6 x7 x8 x15 x16 x17 (ix1 b)
      = sum3 (fun n t d => (val_main_v50 (F := Ideal) x0 x1 x2 x3 x4 x5 x6 x7 x8 x15 x16 x17 (ix4 b n t d) - val_main_v54 (F := Ideal) x0 x1 x2 x3 x4 x5 x6 x7 x8 x15 x16 x17 (j0 b))
          * (val_main_v50 (F := Ideal) x0 x1 x2 x3 x4 x5 x6 x7 x8 x15 x16 x17 (ix4 b n t d) - val_main_v54 (F := Ideal) x0 x1 x2 x3 x4 x5 x6 x7 x8 x15 x16 x17 (j0 b))) := by
  unfold val_main_v58
  refine (Cert.LibSum123.hostSum123_apply _ _ _ _ b).trans ?_
  rw [val_main_cst_5_apply, Ideal.ofBits_def, Ideal.ofBits_zero_f32, zero_add]
  unfold sum3
  refine Finset.sum_congr rfl fun n _ => Finset.sum_congr rfl fun t _ => Finset.sum_congr rfl fun d _ => ?_
  rw [val_main_v57_apply, centred_apply, Ideal.mulf_def]

/-- %66 at (b, 0, 0, 0): the reciprocal square root of the variance plus epsilon. -/
theorem rstd_apply (b : Fin 32) :
    val_main_v66 (F := Ideal) x0 x1 x2 x3 x4 x5 x6 x7 x8 x15 x16 x17 (j0 b)
      = Ideal.rsqrt (Ideal.div (sum3 (fun n t d => (val_main_v50 (F := Ideal) x0 x1 x2 x3 x4 x5 x6 x7 x8 x15 x16 x17 (ix4 b n t d) - val_main_v54 (F := Ideal) x0 x1 x2 x3 x4 x5 x6 x7 x8 x15 x16 x17 (j0 b))
          * (val_main_v50 (F := Ideal) x0 x1 x2 x3 x4 x5 x6 x7 x8 x15 x16 x17 (ix4 b n t d) - val_main_v54 (F := Ideal) x0 x1 x2 x3 x4 x5 x6 x7 x8 x15 x16 x17 (j0 b)))) cCount + cEps) := by
  rw [val_main_v66_apply, val_main_v65_apply, val_main_v61_apply, val_main_v64_apply, val_main_cst_7_apply,
    val_main_v59_apply, val_main_v60_apply, val_main_cst_6_apply]
  have e : idx_main_v59 (j0 b) = ix1 b := funext fun e => Fin.ext (by match e with | ⟨0, _⟩ => rfl)
  rw [e, sum_sq_apply, Ideal.hostUnary_rsqrt_def, Ideal.addf_def, Ideal.hostDivf_def, Ideal.ofBits_def, Ideal.ofBits_def]

end HG

open HG in
/-- The normalised array [32, 64, 32, 512] at (b, n, t, d), from the merged attention output of the same batch element. -/
theorem ln_apply (b : Fin 32) (n : Fin 64) (t : Fin 32) (d : Fin 512) :
    val_main_v74 (F := Ideal) x0 x1 x2 x3 x4 x5 x6 x7 x8 x13 x14 x15 x16 x17 (ix4 b n t d)
      = lnOf (fun n t d => val_main_v45 (F := Ideal) x0 x1 x2 x3 x4 x5 x6 x15 x16 x17 (ix4 b n t d)) (xbOf x0 b)
          (matOf x7) (vecOf x8) (arr3Of x13) (arr3Of x14) n t d := by
  rw [val_main_v74_apply, val_main_v71_apply, val_main_v73_apply, val_main_v72_apply, val_main_v68_apply,
    val_main_v70_apply, val_main_v69_apply, val_main_v67_apply]
  have e67 : idx_main_v67 (ix4 b n t d) = j0 b := funext fun e => Fin.ext (by match e with | ⟨0, _⟩ => rfl | ⟨1, _⟩ => rfl | ⟨2, _⟩ => rfl | ⟨3, _⟩ => rfl)
  have e69 : idx_main_v69 (idx_main_v70 (ix4 b n t d)) = ix3 n t d := funext fun e => Fin.ext (by match e with | ⟨0, _⟩ => rfl | ⟨1, _⟩ => rfl | ⟨2, _⟩ => rfl)
  have e72 : idx_main_v72 (idx_main_v73 (ix4 b n t d)) = ix3 n t d := funext fun e => Fin.ext (by match e with | ⟨0, _⟩ => rfl | ⟨1, _⟩ => rfl | ⟨2, _⟩ => rfl)
  rw [e67, e69, e72, rstd_apply, centred'_apply, mean_apply]
  simp only [z_apply, Ideal.addf_def, Ideal.mulf_def]
  rfl

namespace HG

/-- %79 at (b, n, t, k): the hidden unit k of row (b, n, t), its maximum with 0 taken. -/
theorem hidden_apply (b : Fin 32) (n : Fin 64) (t : Fin 32) (k : Fin 2048) :
    val_main_v79 (F := Ideal) x0 x1 x2 x3 x4 x5 x6 x7 x8 x9 x10 x13 x14 x15 x16 x17 (ix4 b n t k)
      = max ((∑ j : Fin 512, val_main_v74 (F := Ideal) x0 x1 x2 x3 x4 x5 x6 x7 x8 x13 x14 x15 x16 x17 (ix4 b n t j) * x9 (ix2 k j)) + x10 (ix1 k)) 0 := by
  rw [val_main_v79_apply, val_main_v78_apply, val_main_v75_apply, val_main_v77_apply, val_main_v76_apply,
    val_main_call0_v0_apply, val_main_call0_cst_apply]
  generalize val_main_v74 (F := Ideal) x0 x1 x2 x3 x4 x5 x6 x7 x8 x13 x14 x15 x16 x17 = r
  have el : ∀ j : Fin 512, lidx_main_v75 (ix4 b n t k) j = ix4 b n t j := fun j => funext fun e => Fin.ext (by match e with | ⟨0, _⟩ => rfl | ⟨1, _⟩ => rfl | ⟨2, _⟩ => rfl | ⟨3, _⟩ => rfl)
  have er : ∀ j : Fin 512, ridx_main_v75 (ix4 b n t k) j = ix2 k j := fun j => funext fun e => Fin.ext (by match e with | ⟨0, _⟩ => rfl | ⟨1, _⟩ => rfl)
  have eb : idx_main_v76 (idx_main_v77 (ix4 b n t k)) = ix1 k := funext fun e => Fin.ext (by match e with | ⟨0, _⟩ => rfl)
  simp only [el, er, eb, Ideal.maximumf_def, Ideal.addf_def, Ideal.ofBits_def, Ideal.ofBits_zero_f32]

end HG

open HG in
/-- The block's output [32, 64, 32, 512] at (b, n, t, d): the row map of row (b, n, t) of the normalised array. -/
theorem ffn_apply (b : Fin 32) (n : Fin 64) (t : Fin 32) (d : Fin 512) :
    val_main_v84 (F := Ideal) x0 x1 x2 x3 x4 x5 x6 x7 x8 x9 x10 x11 x12 x13 x14 x15 x16 x17 (ix4 b n t d)
      = ffnRow (fun d' => val_main_v74 (F := Ideal) x0 x1 x2 x3 x4 x5 x6 x7 x8 x13 x14 x15 x16 x17 (ix4 b n t d'))
          (matOf x9) (vecOf x10) (matOf x11) (vecOf x12) d := by
  rw [val_main_v84_apply, val_main_v83_apply, val_main_v80_apply, val_main_v82_apply, val_main_v81_apply]
  have el : ∀ k : Fin 2048, lidx_main_v80 (ix4 b n t d) k = ix4 b n t k := fun k => funext fun e => Fin.ext (by match e with | ⟨0, _⟩ => rfl | ⟨1, _⟩ => rfl | ⟨2, _⟩ => rfl | ⟨3, _⟩ => rfl)
  have er : ∀ k : Fin 2048, ridx_main_v80 (ix4 b n t d) k = ix2 d k := fun k => funext fun e => Fin.ext (by match e with | ⟨0, _⟩ => rfl | ⟨1, _⟩ => rfl)
  have eb : idx_main_v81 (idx_main_v82 (ix4 b n t d)) = ix1 d := funext fun e => Fin.ext (by match e with | ⟨0, _⟩ => rfl)
  simp only [el, er, eb, hidden_apply, Ideal.addf_def]
  generalize val_main_v74 (F := Ideal) x0 x1 x2 x3 x4 x5 x6 x7 x8 x13 x14 x15 x16 x17 = r
  rfl

/-- The reference's result array is the specification's, with the attention output formed as ONE sum. -/
theorem ref_value :
    val_main_v85 (F := Ideal) x0 x1 x2 x3 x4 x5 x6 x7 x8 x9 x10 x11 x12 x13 x14 x15 x16 x17
      = specArr false x0 x1 x2 x3 x4 x5 x6 x7 x8 x9 x10 x11 x12 x13 x14 x15 x16 x17 := by
  funext i
  obtain ⟨b, d, t, n, rfl⟩ : ∃ (b : Fin 32) (d : Fin 512) (t : Fin 32) (n : Fin 64), i = ix4 b d t n :=
    ⟨i 0, i 1, i 2, i 3, eq_ix4 i⟩
  rw [val_main_v85_apply]
  have e : idx_main_v85 (ix4 b d t n) = ix4 b n t d := funext fun e => Fin.ext (by match e with | ⟨0, _⟩ => rfl | ⟨1, _⟩ => rfl | ⟨2, _⟩ => rfl | ⟨3, _⟩ => rfl)
  rw [e, ffn_apply]
  have hln : (fun d' => val_main_v74 (F := Ideal) x0 x1 x2 x3 x4 x5 x6 x7 x8 x13 x14 x15 x16 x17 (ix4 b n t d'))
      = lnOf (fun n t d => val_main_v45 (F := Ideal) x0 x1 x2 x3 x4 x5 x6 x15 x16 x17 (ix4 b n t d)) (xbOf x0 b)
          (matOf x7) (vecOf x8) (arr3Of x13) (arr3Of x14) n t :=
    funext fun d' => ln_apply x0 x1 x2 x3 x4 x5 x6 x7 x8 x13 x14 x15 x16 x17 b n t d'
  have hatt : (fun n t d => val_main_v45 (F := Ideal) x0 x1 x2 x3 x4 x5 x6 x15 x16 x17 (ix4 b n t d))
      = attOf false (xbOf x0 b) (peOf x17) (matOf x1) (vecOf x2) (matOf x3) (vecOf x4) (matOf x5) (vecOf x6)
          (adjOf x15) (hwOf x16) :=
    funext fun n => funext fun t => funext fun d =>
      Cert.ReferenceIdeal.RefAtt.att_apply x0 x1 x2 x3 x4 x5 x6 x15 x16 x17 b n t d
  rw [hln, hatt]
  rfl

end Cert.ReferenceIdeal.RefRest

end
-- ==== Proof.Algebra.lean ====
/- The one law between the two programs: over real entries the kernel's two attention sums are the reference's one sum,
   because multiplication distributes over addition on the reals. The entries of the softmax weights, of adj and of v are real
   when the inputs are: finite sums, products and differences of reals are real, the maximum of a nonempty row of reals started
   from -infinity is real, an exponential of a real is a positive real, so the row's sum of exponentials is a nonzero real. -/
import proofs.«155221_j24060406792682_2_alg».proof.Proof.Spec

noncomputable section

namespace Cert.Spec

open Idealize.ShloMosaic

namespace HI

/-! ### Real numbers among the extended reals are closed under the ring operations and finite sums -/

theorem isR_add {x y : EReal} (hx : IsR x) (hy : IsR y) : IsR (x + y) := by
  obtain ⟨a, rfl⟩ := hx; obtain ⟨b, rfl⟩ := hy; exact ⟨a + b, (EReal.coe_add a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

theorem isR_sum {ι : Type} (s : Finset ι) (f : ι → EReal) (h : ∀ i ∈ s, IsR (f i)) : IsR (∑ i ∈ s, f i) := by
  classical
  induction s using Finset.induction_on with
  | empty => exact ⟨0, by simp⟩
  | insert i s hi ih =>
    rw [Finset.sum_insert hi]
    exact isR_add (h i (Finset.mem_insert_self i s)) (ih fun j hj => h j (Finset.mem_insert_of_mem hj))

/-- On real numbers a product distributes over a sum (on the extended reals it fails at opposite infinities). -/
theorem add_mul_of_isR {a b c : EReal} (ha : IsR a) (hb : IsR b) (hc : IsR c) : (a + b) * c = a * c + b * c := by
  obtain ⟨a, rfl⟩ := ha; obtain ⟨b, rfl⟩ := hb; obtain ⟨c, rfl⟩ := hc
  rw [← EReal.coe_add, ← EReal.coe_mul, ← EReal.coe_mul, ← EReal.coe_mul, ← EReal.coe_add, add_mul]

/-! ### The two printed words -/

/-- The scale's word has an exponent field that is neither all ones nor zero: it denotes a real number. -/
theorem isR_cScale : IsR cScale := by
  show IsR (Ideal.ieee 8 23 (0x3CB504F3#32 : BitVec 32))
  unfold Ideal.ieee
  dsimp only
  rw [if_neg (by decide), if_neg (by decide)]
  exact ⟨_, rfl⟩

/-- The word of -infinity: sign set, exponent all ones, fraction zero. -/
theorem cNegInf_eq : cNegInf = ⊥ := by
  show Ideal.ieee 8 23 (0xFF800000#32 : BitVec 32) = ⊥
  unfold Ideal.ieee
  dsimp only
  rw [if_pos (by decide), if_pos (by decide), if_pos (by decide)]

/-! ### A row's maximum -/

/-- A maximum folded over a finite set from a starting value is that value or one of the entries. -/
theorem fold_max_choice {ι : Type} (t : Finset ι) (b : EReal) (s : ι → EReal) :
    t.fold max b s = b ∨ ∃ m ∈ t, t.fold max b s = s m := by
  classical
  induction t using Finset.induction_on with
  | empty => exact Or.inl Finset.fold_empty
  | insert a t ha ih =>
    rw [Finset.fold_insert ha]
    rcases max_choice (s a) (t.fold max b s) with h | h
    · exact Or.inr ⟨a, Finset.mem_insert_self a t, h⟩
    · rw [h]
      rcases ih with e | ⟨m, hm, e⟩
      · exact Or.inl e
      · exact Or.inr ⟨m, Finset.mem_insert_of_mem hm, e⟩

/-- The maximum of a row of 64 real numbers, started from -infinity, is a real number: it is at least the first entry,
    so it is not the starting value, hence it is one of the entries. -/
theorem isR_rowMax (s : Fin 64 → EReal) (hs : ∀ m, IsR (s m)) : IsR (rowMax s) := by
  unfold rowMax
  rcases fold_max_choice Finset.univ cNegInf s with e | ⟨m, _, e⟩
  · exfalso
    have h0 : s 0 ≤ (Finset.univ : Finset (Fin 64)).fold max cNegInf s :=
      (Finset.le_fold_max (s 0)).mpr (Or.inr ⟨0, Finset.mem_univ _, le_refl _⟩)
    rw [e, cNegInf_eq, le_bot_iff] at h0
    obtain ⟨r, hr⟩ := hs 0
    rw [hr] at h0
    exact EReal.coe_ne_bot r h0
  · rw [e]; exact hs m

/-! ### The softmax weights -/

/-- The exponential of a real number is a positive real number. -/
theorem exp_pos_real {x : EReal} (hx : IsR x) : ∃ r : ℝ, 0 < r ∧ Ideal.exp x = (r : EReal) := by
  obtain ⟨a, rfl⟩ := hx
  exact ⟨Real.exp a, Real.exp_pos a, rfl⟩

/-- A finite sum of positive real numbers is a nonnegative real number, positive when the set is nonempty. -/
theorem sum_pos_real {ι : Type} (t : Finset ι) (f : ι → EReal) (h : ∀ i ∈ t, ∃ r : ℝ, 0 < r ∧ f i = (r : EReal)) :
    ∃ R : ℝ, 0 ≤ R ∧ (t.Nonempty → 0 < R) ∧ ∑ i ∈ t, f i = (R : EReal) := by
  classical
  induction t using Finset.induction_on with
  | empty => exact ⟨0, le_refl _, fun hne => absurd hne Finset.not_nonempty_empty, by simp⟩
  | insert a t ha ih =>
    obtain ⟨r, hr, e⟩ := h a (Finset.mem_insert_self a t)
    obtain ⟨R, hR, _, eR⟩ := ih fun j hj => h j (Finset.mem_insert_of_mem hj)
    exact ⟨r + R, by linarith, fun _ => by linarith, by rw [Finset.sum_insert ha, e, eR, EReal.coe_add]⟩

/-- The softmax of a row of real numbers is a row of real numbers: the divisor is a positive real. -/
theorem isR_soft (s : Fin 64 → EReal) (hs : ∀ m, IsR (s m)) (m : Fin 64) : IsR (soft s m) := by
  have hM := isR_rowMax s hs
  obtain ⟨R, _, hpos, eR⟩ := sum_pos_real Finset.univ (fun m' => Ideal.exp (s m' - rowMax s))
    (fun i _ => exp_pos_real (isR_sub (hs i) hM))
  have eR' : ∑ m' : Fin 64, Ideal.exp (s m' - rowMax s) = (R : EReal) := eR
  obtain ⟨r, _, er⟩ := exp_pos_real (isR_sub (hs m) hM)
  have hR : R ≠ 0 := (hpos ⟨0, Finset.mem_univ _⟩).ne'
  unfold soft
  rw [eR', er, Ideal.div_coe hR, ← EReal.coe_mul]
  exact ⟨_, rfl⟩

/-! ### The arrays the attention law reads -/

theorem isR_lin {u : Arr3} {W : Fin 512 → Fin 512 → EReal} {bias : Fin 512 → EReal}
    (hu : ∀ n t d, IsR (u n t d)) (hW : ∀ o d, IsR (W o d)) (hb : ∀ o, IsR (bias o))
    (n : Fin 64) (t : Fin 32) (o : Fin 512) : IsR (lin u W bias n t o) := by
  unfold lin
  exact isR_add (isR_sum _ _ fun d _ => isR_mul (hu n t d) (hW o d)) (hb o)

theorem isR_addPe {xb : Arr3} {pe : Fin 64 → Fin 512 → EReal}
    (hx : ∀ n t d, IsR (xb n t d)) (hp : ∀ n d, IsR (pe n d)) (n : Fin 64) (t : Fin 32) (d : Fin 512) :
    IsR (addPe xb pe n t d) := by
  unfold addPe
  exact isR_add (hx n t d) (hp n d)

theorem isR_score {q k : Arr3} (hq : ∀ n t d, IsR (q n t d)) (hk : ∀ n t d, IsR (k n t d))
    (h : Fin 8) (n m : Fin 64) : IsR (score q k h n m) := by
  unfold score
  exact isR_mul (isR_sum _ _ fun f _ => isR_mul (hq _ _ _) (hk _ _ _)) isR_cScale

theorem isR_wSoft {q k : Arr3} {hw : Fin 8 → EReal} (hq : ∀ n t d, IsR (q n t d)) (hk : ∀ n t d, IsR (k n t d))
    (hhw : ∀ h, IsR (hw h)) (h : Fin 8) (n m : Fin 64) : IsR (wSoft q k hw h n m) := by
  unfold wSoft
  exact isR_mul (isR_soft _ (fun m' => isR_score hq hk h n m') m) (hhw h)

/-! ### The law -/

/-- Over real weights and real values the two sums of the kernel are the one sum of the reference. -/
theorem attSplit_eq_attJoint {q k v : Arr3} {adj : Fin 8 → Fin 64 → Fin 64 → EReal} {hw : Fin 8 → EReal}
    (hq : ∀ n t d, IsR (q n t d)) (hk : ∀ n t d, IsR (k n t d)) (hv : ∀ n t d, IsR (v n t d))
    (hadj : ∀ h n m, IsR (adj h n m)) (hhw : ∀ h, IsR (hw h)) :
    attSplit q k v adj hw = attJoint q k v adj hw := by
  funext n t d
  show (∑ m : Fin 64, wSoft q k hw (headOf d) n m * v m t d) + (∑ m : Fin 64, adj (headOf d) n m * v m t d)
    = ∑ m : Fin 64, (wSoft q k hw (headOf d) n m + adj (headOf d) n m) * v m t d
  rw [← Finset.sum_add_distrib]
  exact Finset.sum_congr rfl fun m _ =>
    (add_mul_of_isR (isR_wSoft hq hk hhw (headOf d) n m) (hadj (headOf d) n m) (hv m t d)).symm

theorem attOf_split_eq_joint {xb : Arr3} {pe : Fin 64 → Fin 512 → EReal}
    {Wq : Fin 512 → Fin 512 → EReal} {bq : Fin 512 → EReal} {Wk : Fin 512 → Fin 512 → EReal} {bk : Fin 512 → EReal}
    {Wv : Fin 512 → Fin 512 → EReal} {bv : Fin 512 → EReal}
    {adj : Fin 8 → Fin 64 → Fin 64 → EReal} {hw : Fin 8 → EReal}
    (hx : ∀ n t d, IsR (xb n t d)) (hp : ∀ n d, IsR (pe n d))
    (hWq : ∀ o d, IsR (Wq o d)) (hbq : ∀ o, IsR (bq o)) (hWk : ∀ o d, IsR (Wk o d)) (hbk : ∀ o, IsR (bk o))
    (hWv : ∀ o d, IsR (Wv o d)) (hbv : ∀ o, IsR (bv o))
    (hadj : ∀ h n m, IsR (adj h n m)) (hhw : ∀ h, IsR (hw h)) :
    attOf true xb pe Wq bq Wk bk Wv bv adj hw = attOf false xb pe Wq bq Wk bk Wv bv adj hw := by
  show attSplit (lin (addPe xb pe) Wq bq) (lin (addPe xb pe) Wk bk) (lin xb Wv bv) adj hw
    = attJoint (lin (addPe xb pe) Wq bq) (lin (addPe xb pe) Wk bk) (lin xb Wv bv) adj hw
  exact attSplit_eq_attJoint (isR_lin (isR_addPe hx hp) hWq hbq) (isR_lin (isR_addPe hx hp) hWk hbk)
    (isR_lin hx hWv hbv) hadj hhw

end HI

/-- With real x, Wq, bq, Wk, bk, Wv, bv, adj, hw and pe, the result array is the same whichever way the attention output is
    summed. (The other eight arguments may be anything: both sides treat them alike.) -/
theorem specArr_split_eq_joint (A0 : (⟨4, ![32, 512, 32, 64]⟩ : Shape).Idx → EReal) (A1 : (⟨2, ![512, 512]⟩ : Shape).Idx → EReal) (A2 : (⟨1, ![512]⟩ : Shape).Idx → EReal) (A3 : (⟨2, ![512, 512]⟩ : Shape).Idx → EReal) (A4 : (⟨1, ![512]⟩ : Shape).Idx → EReal) (A5 : (⟨2, ![512, 512]⟩ : Shape).Idx → EReal) (A6 : (⟨1, ![512]⟩ : Shape).Idx → EReal) (A7 : (⟨2, ![512, 512]⟩ : Shape).Idx → EReal) (A8 : (⟨1, ![512]⟩ : Shape).Idx → EReal) (A9 : (⟨2, ![2048, 512]⟩ : Shape).Idx → EReal) (A10 : (⟨1, ![2048]⟩ : Shape).Idx → EReal) (A11 : (⟨2, ![512, 2048]⟩ : Shape).Idx → EReal) (A12 : (⟨1, ![512]⟩ : Shape).Idx → EReal) (A13 : (⟨3, ![64, 32, 512]⟩ : Shape).Idx → EReal) (A14 : (⟨3, ![64, 32, 512]⟩ : Shape).Idx → EReal) (A15 : (⟨4, ![1, 8, 64, 64]⟩ : Shape).Idx → EReal) (A16 : (⟨4, ![1, 8, 1, 1]⟩ : Shape).Idx → EReal) (A17 : (⟨4, ![1, 64, 1, 512]⟩ : Shape).Idx → EReal)
    (h0 : ∀ i, IsR (A0 i)) (h1 : ∀ i, IsR (A1 i)) (h2 : ∀ i, IsR (A2 i)) (h3 : ∀ i, IsR (A3 i)) (h4 : ∀ i, IsR (A4 i)) (h5 : ∀ i, IsR (A5 i)) (h6 : ∀ i, IsR (A6 i)) (h15 : ∀ i, IsR (A15 i)) (h16 : ∀ i, IsR (A16 i)) (h17 : ∀ i, IsR (A17 i)) :
    specArr true A0 A1 A2 A3 A4 A5 A6 A7 A8 A9 A10 A11 A12 A13 A14 A15 A16 A17 = specArr false A0 A1 A2 A3 A4 A5 A6 A7 A8 A9 A10 A11 A12 A13 A14 A15 A16 A17 := by
  funext i
  have e : attOf true (xbOf A0 (i 0)) (peOf A17) (matOf A1) (vecOf A2) (matOf A3) (vecOf A4) (matOf A5) (vecOf A6) (adjOf A15) (hwOf A16)
      = attOf false (xbOf A0 (i 0)) (peOf A17) (matOf A1) (vecOf A2) (matOf A3) (vecOf A4) (matOf A5) (vecOf A6) (adjOf A15) (hwOf A16) :=
    HI.attOf_split_eq_joint (fun n t d => h0 _) (fun n d => h17 _) (fun o d => h1 _) (fun o => h2 _) (fun o d => h3 _)
      (fun o => h4 _) (fun o d => h5 _) (fun o => h6 _) (fun h n m => h15 _) (fun h => h16 _)
  unfold specArr blockOf
  rw [e]

end Cert.Spec

end
-- ==== Proof.Finite.lean ====
/- The precondition read: every entry of the argument arrays the attention law needs is a real number. The precondition is the
   conjunction, one bit, of eighteen all-reductions of |x| < +infinity; an extended real whose absolute value is below +infinity is
   neither infinity. -/
import proofs.«155221_j24060406792682_2_alg».proof.Proof.Spec
import proofs.«155221_j24060406792682_2_alg».proof.Defs
import proofs.«155221_j24060406792682_2_alg».proof.Proof.Gen.Pre_finite_inputs
import Idealize.ShloMosaic.Lib.ReduceAll
import Idealize.ShloMosaic.Lib.ValueIdx

noncomputable section

namespace Cert.Finite

open Idealize.ShloMosaic Idealize.SL.Sem Cert.Spec

namespace HI

/-- The shape of a single bit has one index. -/
instance : Subsingleton Cert.Pre_finite_inputs.S_.Idx := ⟨fun a b => funext fun d => d.elim0⟩

/-- The word of +infinity: sign clear, exponent all ones, fraction zero. -/
theorem posInf_eq : Ideal.ofBits .f32 0x7F800000#32 = (⊤ : EReal) := by
  show Ideal.ieee 8 23 (0x7F800000#32 : BitVec 32) = ⊤
  unfold Ideal.ieee
  dsimp only
  rw [if_pos (by decide), if_pos (by decide), if_neg (by decide)]

/-- An extended real whose absolute value max x (-x) is below +infinity is a real number: at -infinity the negation is
    +infinity, at +infinity the value itself is. -/
theorem isR_of_abs_lt_top (x : EReal) (h : max x (-x) < ⊤) : IsR x := by
  induction x using EReal.rec with
  | bot => exact absurd h (by simp)
  | top => exact absurd h (by simp)
  | coe r => exact ⟨r, rfl⟩

theorem ofBool_eq_one (b : Bool) : BitVec.ofBool b = 1#1 ↔ b = true := by cases b <;> decide

/-- One argument array, of any shape: if the conjunction over all its entries of |A i| < +infinity is the bit 1, then every
    entry of A is a real number. -/
theorem allR_of_reduce {s : Shape} {axes : List (Fin s.rank)} (A : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (j : Cert.Pre_finite_inputs.S_.Idx)
    (e : Host.reduce IntOp.andi (cmpf .olt (Host.absf A)
          (broadcastInDim s ![] bc (constant (F := Ideal) Cert.Pre_finite_inputs.S_ .f32 0x7F800000#32)))
          (constantI Cert.Pre_finite_inputs.S_ 1 1#1) h hu j = 1#1) (i : s.Idx) : IsR (A i) := by
  have hi := Host.reduce_andi_all _ _ h hu j e i
  have hi' : BitVec.ofBool (decide (max (A i) (-(A i)) < Ideal.ofBits .f32 0x7F800000#32)) = 1#1 := hi
  rw [ofBool_eq_one, decide_eq_true_eq, posInf_eq] at hi'
  exact isR_of_abs_lt_top _ hi'

end HI

/-- Under the precondition, on every device, the entries of x, Wq, bq, Wk, bk, Wv, bv, adj, hw and pe are real numbers. -/
theorem reals_of_pre (hP : Cert.Pre_finite_inputs.Facts)
    (m : (ℓ : Loc Cert.KernelIdeal.nD Cert.KernelIdeal.τ Cert.KernelIdeal.sig) → Buf (Elt Ideal) ℓ)
    (hpre : Cert.Pre_KernelIdeal (hPre_finite_inputs := hP) m) (c : Dev Cert.KernelIdeal.nD) :
    (∀ i, IsR (m (((c.tc : Thread Cert.KernelIdeal.nD Cert.KernelIdeal.τ).loc Cert.KernelIdeal.main_arg0)) i))
    ∧ (∀ i, IsR (m (((c.tc : Thread Cert.KernelIdeal.nD Cert.KernelIdeal.τ).loc Cert.KernelIdeal.main_arg1)) i))
    ∧ (∀ i, IsR (m (((c.tc : Thread Cert.KernelIdeal.nD Cert.KernelIdeal.τ).loc Cert.KernelIdeal.main_arg2)) i))
    ∧ (∀ i, IsR (m (((c.tc : Thread Cert.KernelIdeal.nD Cert.KernelIdeal.τ).loc Cert.KernelIdeal.main_arg3)) i))
    ∧ (∀ i, IsR (m (((c.tc : Thread Cert.KernelIdeal.nD Cert.KernelIdeal.τ).loc Cert.KernelIdeal.main_arg4)) i))
    ∧ (∀ i, IsR (m (((c.tc : Thread Cert.KernelIdeal.nD Cert.KernelIdeal.τ).loc Cert.KernelIdeal.main_arg5)) i))
    ∧ (∀ i, IsR (m (((c.tc : Thread Cert.KernelIdeal.nD Cert.KernelIdeal.τ).loc Cert.KernelIdeal.main_arg6)) i))
    ∧ (∀ i, IsR (m (((c.tc : Thread Cert.KernelIdeal.nD Cert.KernelIdeal.τ).loc Cert.KernelIdeal.main_arg15)) i))
    ∧ (∀ i, IsR (m (((c.tc : Thread Cert.KernelIdeal.nD Cert.KernelIdeal.τ).loc Cert.KernelIdeal.main_arg16)) i))
    ∧ (∀ i, IsR (m (((c.tc : Thread Cert.KernelIdeal.nD Cert.KernelIdeal.τ).loc Cert.KernelIdeal.main_arg17)) i)) := by
  -- the precondition's one bit, with the printed chain of operations in view: a left-nested conjunction of eighteen bits
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at e
  simp only [IntOp.andi_eq_one] at e
  obtain ⟨⟨⟨⟨⟨⟨⟨⟨⟨⟨⟨⟨⟨⟨⟨⟨⟨e0, e1⟩, e2⟩, e3⟩, e4⟩, e5⟩, e6⟩, -⟩, -⟩, -⟩, -⟩, -⟩, -⟩, -⟩, -⟩, e15⟩, e16⟩, e17⟩ := e
  exact ⟨HI.allR_of_reduce _ _ _ _ _ e0, HI.allR_of_reduce _ _ _ _ _ e1, HI.allR_of_reduce _ _ _ _ _ e2,
    HI.allR_of_reduce _ _ _ _ _ e3, HI.allR_of_reduce _ _ _ _ _ e4, HI.allR_of_reduce _ _ _ _ _ e5,
    HI.allR_of_reduce _ _ _ _ _ e6, HI.allR_of_reduce _ _ _ _ _ e15, HI.allR_of_reduce _ _ _ _ _ e16,
    HI.allR_of_reduce _ _ _ _ _ e17⟩

end Cert.Finite

end
-- ==== Proof.lean ====
/-
  A transformer block in three kernel regions against its plain reference, over the extended reals.

  Both programs compute, for each of the 32 batch elements and each (n, t, d): three linear layers q, k (of x + pe) and v (of x);
  per head the scaled scores over the 2048 positions of the head's columns, a softmax over the 64 nodes, the head weight and adj;
  the attention output; an output projection with the residual and a layer normalisation over all of (n, t, d); a feed-forward row map
  with its residual (Proof/Spec.lean). They differ in three ways only, none of which changes an extended real except where said:
  the kernel rounds to bf16 on the way into its matrix products (the identity here); the kernel takes the normalisation's two sums as
  three nested sums while the reference takes each at once (addition is commutative and associative); and the kernel forms the
  attention output as TWO sums, with the weighted softmax and with adj, where the reference adds the two weights first and forms ONE
  sum. The last is distributivity, which holds where the entries are real numbers — and under the precondition they are: every input
  is finite, so q, k, v are real, a row's maximum started from -infinity is real, the exponentials are positive reals and their sum a
  nonzero real.

  The kernel's result buffer ends at the fold of its host stretches and its regions' write-backs from the launch memory (the run), and
  that fold read back is the specification's array with the split attention sums (the value); the reference's run ends at its last
  stage's value, which is the specification's array with the joint sum; the two arrays are equal under the precondition (the law).
  There is nothing to preserve between the printed kernel and its idealization: the ideal pass rewrote no operation.
-/
import proofs.«155221_j24060406792682_2_alg».proof.Defs
import proofs.«155221_j24060406792682_2_alg».proof.Proof.Gen.Kernel
import proofs.«155221_j24060406792682_2_alg».proof.Proof.Gen.Kernel.Skeleton
import proofs.«155221_j24060406792682_2_alg».proof.Proof.Gen.Kernel.Launch
import proofs.«155221_j24060406792682_2_alg».proof.Proof.Gen.Kernel.Points
import proofs.«155221_j24060406792682_2_alg».proof.Proof.Gen.Kernel.Frame
import proofs.«155221_j24060406792682_2_alg».proof.Proof.Gen.KernelIdeal
import proofs.«155221_j24060406792682_2_alg».proof.Proof.Gen.KernelIdeal.Skeleton
import proofs.«155221_j24060406792682_2_alg».proof.Proof.Gen.KernelIdeal.Launch
import proofs.«155221_j24060406792682_2_alg».proof.Proof.Gen.KernelIdeal.Points
import proofs.«155221_j24060406792682_2_alg».proof.Proof.Gen.KernelIdeal.Frame
import proofs.«155221_j24060406792682_2_alg».proof.Proof.Gen.ReferenceIdeal
import proofs.«155221_j24060406792682_2_alg».proof.Proof.Gen.Pre_finite_inputs
import Idealize.ShloMosaic.Adequacy
import Idealize.ShloMosaic.Init
import proofs.«155221_j24060406792682_2_alg».proof.Proof.KernelRun
import proofs.«155221_j24060406792682_2_alg».proof.Proof.KernelValue
import proofs.«155221_j24060406792682_2_alg».proof.Proof.RefRun
import proofs.«155221_j24060406792682_2_alg».proof.Proof.RefRest
import proofs.«155221_j24060406792682_2_alg».proof.Proof.Algebra
import proofs.«155221_j24060406792682_2_alg».proof.Proof.Finite

noncomputable section

namespace Cert.Proof

open Idealize.ShloMosaic Idealize.SL.Sem

/-- The printed kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefRun.ref_run m ρ)

/-- From memories agreeing on the arguments both programs end at the same array: the kernel at the specification's array with the
    attention output as two sums, the reference at the one with one sum, and under the precondition the two are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.specArr true (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run (Cert.KernelIdeal.defs (F := Ideal)) _ _).mono
      (fun r h c => ⟨(h c).1.trans (Cert.KernelIdeal.KernelValue.kernel_value m ρ c), (h c).2⟩)
      (Cert.KernelIdeal.Run.kernel_run (F := Ideal) m ρ)
  · refine (θ_run (Cert.ReferenceIdeal.defs (F := Ideal)) _ _).mono (fun r h c => ⟨?_, (h c).2⟩)
      (Cert.ReferenceIdeal.RefRun.ref_run m' ρ')
    obtain ⟨a0, a1, a2, a3, a4, a5, a6, a7, a8, a9, a10, a11, a12, a13, a14, a15, a16, a17⟩ := hagree c
    obtain ⟨r0, r1, r2, r3, r4, r5, r6, r15, r16, r17⟩ := Cert.Finite.reals_of_pre Cert.Pre_finite_inputs.Gen.facts m hpre c
    rw [(h c).1, Cert.ReferenceIdeal.RefRest.ref_value, a0, a1, a2, a3, a4, a5, a6, a7, a8, a9, a10, a11, a12, a13, a14, a15, a16, a17]
    exact (Cert.Spec.specArr_split_eq_joint _ _ _ _ _ _ _ _ _ _ _ _ _ _ _ _ _ _ r0 r1 r2 r3 r4 r5 r6 r15 r16 r17).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
